-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x5000000 : Shape := ⟨2, ![2, 5000000]⟩
abbrev S5000000 : Shape := ⟨1, ![5000000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S5000000 : S_.BroadcastsInDim S5000000 (![] : Fin 0 → Fin S5000000.rank)
  reducesTo_S5000000_S_d0 : S5000000.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16x1 .f32) (main_arg6 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1 .f32 := Host.absf main_arg5
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x1 .f32) (main_arg1 : IVec S2x5000000 32) (main_arg2 : FVec F S5000000 .f32) (main_arg3 : FVec F S1x16 .f32) (main_arg4 : FVec F S16 .f32) (main_arg5 : FVec F S16x1 .f32) (main_arg6 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S5000000 .f32 := Host.absf main_arg2
  let main_cst_0 : FVec F S_ .f32 := constant S_ .f32 0x7F800000#32
  let main_v5 : FVec F S5000000 .f32 := broadcastInDim S5000000 ![] bcast_S_S5000000 main_cst_0
  let main_v6 : IVec S5000000 1 := cmpf .olt main_v4 main_v5
  let main_c_1 : IVec S_ 1 := constantI S_ 1 1#1
  let main_v7 : IVec S_ 1 := (fun x v => Host.reduce IntOp.andi x v reducesTo_S5000000_S_d0 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x1 : Shape := ⟨2, ![100000, 1]⟩
abbrev S2x5000000 : Shape := ⟨2, ![2, 5000000]⟩
abbrev S5000000 : Shape := ⟨1, ![5000000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S1x5000000 : Shape := ⟨2, ![1, 5000000]⟩
abbrev S100000 : Shape := ⟨1, ![100000]⟩
abbrev S5100000 : Shape := ⟨1, ![5100000]⟩
abbrev S_ : Shape := ⟨0, ![]⟩
abbrev S11808 : Shape := ⟨1, ![11808]⟩
abbrev S5111808 : Shape := ⟨1, ![5111808]⟩
abbrev S5111808x1 : Shape := ⟨2, ![5111808, 1]⟩
abbrev S5111808x2 : Shape := ⟨2, ![5111808, 2]⟩
abbrev S39936x128 : Shape := ⟨2, ![39936, 128]⟩
abbrev S512x128 : Shape := ⟨2, ![512, 128]⟩
abbrev S352 : Shape := ⟨1, ![352]⟩
abbrev S100352 : Shape := ⟨1, ![100352]⟩
abbrev S1x100352 : Shape := ⟨2, ![1, 100352]⟩
abbrev S1x2048 : Shape := ⟨2, ![1, 2048]⟩
abbrev S16x2048 : Shape := ⟨2, ![16, 2048]⟩

abbrev nBuf : Space → Nat
  | .hbm => 115
  | .vmem => 25
  | .smem => 0
  | _ => 0

abbrev bufTy : (tb : Table) → Fin (tcTables nBuf tb) → BufTy
  | .hbm, ⟨0, _⟩ => ⟨S100000x1, .f32⟩
  | .hbm, ⟨1, _⟩ => ⟨S2x5000000, .i32⟩
  | .hbm, ⟨2, _⟩ => ⟨S5000000, .f32⟩
  | .hbm, ⟨3, _⟩ => ⟨S1x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S1x5000000, .i32⟩
  | .hbm, ⟨8, _⟩ => ⟨S5000000, .i32⟩
  | .hbm, ⟨9, _⟩ => ⟨S1x5000000, .i32⟩
  | .hbm, ⟨10, _⟩ => ⟨S5000000, .i32⟩
  | .hbm, ⟨11, _⟩ => ⟨S100000, .i32⟩
  | .hbm, ⟨12, _⟩ => ⟨S5100000, .i32⟩
  | .hbm, ⟨13, _⟩ => ⟨S5100000, .i32⟩
  | .hbm, ⟨14, _⟩ => ⟨S_, .f32⟩
  | .hbm, ⟨15, _⟩ => ⟨S100000, .f32⟩
  | .hbm, ⟨16, _⟩ => ⟨S5100000, .f32⟩
  | .hbm, ⟨17, _⟩ => ⟨S_, .i32⟩
  | .hbm, ⟨18, _⟩ => ⟨S11808, .i32⟩
  | .hbm, ⟨19, _⟩ => ⟨S_, .f32⟩
  | .hbm, ⟨20, _⟩ => ⟨S11808, .f32⟩
  | .hbm, ⟨21, _⟩ => ⟨S5111808, .i32⟩
  | .hbm, ⟨22, _⟩ => ⟨S5111808, .i32⟩
  | .hbm, ⟨23, _⟩ => ⟨S5111808, .f32⟩
  | .hbm, ⟨24, _⟩ => ⟨S_, .f32⟩
  | .hbm, ⟨25, _⟩ => ⟨S100000, .f32⟩
  | .hbm, ⟨26, _⟩ => ⟨S5111808x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .i32⟩
  | .hbm, ⟨44, _⟩ => ⟨S5111808, .i32⟩
  | .hbm, ⟨45, _⟩ => ⟨S5111808, .i1⟩
  | .hbm, ⟨46, _⟩ => ⟨S_, .i32⟩
  | .hbm, ⟨47, _⟩ => ⟨S5111808, .i32⟩
  | .hbm, ⟨48, _⟩ => ⟨S5111808, .i32⟩
  | .hbm, ⟨49, _⟩ => ⟨S5111808, .i32⟩
  | .hbm, ⟨50, _⟩ => ⟨S5111808x1, .i32⟩
  | .hbm, ⟨51, _⟩ => ⟨S5111808, .f32⟩
  | .hbm, ⟨52, _⟩ => ⟨S_, .i32⟩
  | .hbm, ⟨53, _⟩ => ⟨S5111808, .i32⟩
  | .hbm, ⟨54, _⟩ => ⟨S5111808, .i1⟩
  | .hbm, ⟨55, _⟩ => ⟨S_, .i32⟩
  | .hbm, ⟨56, _⟩ => ⟨S5111808, .i32⟩
  | .hbm, ⟨57, _⟩ => ⟨S5111808, .i32⟩
  | .hbm, ⟨58, _⟩ => ⟨S5111808, .i32⟩
  | .hbm, ⟨59, _⟩ => ⟨S5111808x1, .i32⟩
  | .hbm, ⟨60, _⟩ => ⟨S5111808, .f32⟩
  | .hbm, ⟨61, _⟩ => ⟨S_, .i32⟩
  | .hbm, ⟨62, _⟩ => ⟨S5111808, .i32⟩
  | .hbm, ⟨63, _⟩ => ⟨S5111808, .i1⟩
  | .hbm, ⟨64, _⟩ => ⟨S_, .i32⟩
  | .hbm, ⟨65, _⟩ => ⟨S5111808, .i32⟩
  | .hbm, ⟨66, _⟩ => ⟨S5111808, .i32⟩
  | .hbm, ⟨67, _⟩ => ⟨S5111808, .i32⟩
  | .hbm, ⟨68, _⟩ => ⟨S_, .i32⟩
  | .hbm, ⟨69, _⟩ => ⟨S5111808, .i32⟩
  | .hbm, ⟨70, _⟩ => ⟨S5111808, .i32⟩
  | .hbm, ⟨71, _⟩ => ⟨S5111808x1, .i32⟩
  | .hbm, ⟨72, _⟩ => ⟨S5111808x1, .i32⟩
  | .hbm, ⟨73, _⟩ => ⟨S5111808x2, .i32⟩
  | .hbm, ⟨74, _⟩ => ⟨S5111808, .f32⟩
  | .hbm, ⟨75, _⟩ => ⟨S39936x128, .f32⟩
  | .hbm, ⟨76, _⟩ => ⟨S39936x128, .f32⟩
  | .hbm, ⟨77, _⟩ => ⟨S39936x128, .f32⟩
  | .hbm, ⟨78, _⟩ => ⟨S39936x128, .f32⟩
  | .hbm, ⟨79, _⟩ => ⟨S39936x128, .f32⟩
  | .hbm, ⟨80, _⟩ => ⟨S39936x128, .f32⟩
  | .hbm, ⟨81, _⟩ => ⟨S5111808, .f32⟩
  | .hbm, ⟨82, _⟩ => ⟨S_, .f32⟩
  | .hbm, ⟨83, _⟩ => ⟨S100000, .f32⟩
  | .hbm, ⟨84, _⟩ => ⟨S5111808x1, .i32⟩
  | .hbm, ⟨85, _⟩ => ⟨S100000, .f32⟩
  | .hbm, ⟨86, _⟩ => ⟨S_, .f32⟩
  | .hbm, ⟨87, _⟩ => ⟨S352, .f32⟩
  | .hbm, ⟨88, _⟩ => ⟨S100352, .f32⟩
  | .hbm, ⟨89, _⟩ => ⟨S1x100352, .f32⟩
  | .hbm, ⟨90, _⟩ => ⟨S16x1, .f32⟩
  | .hbm, ⟨91, _⟩ => ⟨S16x1, .f32⟩
  | .hbm, ⟨92, _⟩ => ⟨S1x16, .f32⟩
  | .hbm, ⟨93, _⟩ => ⟨S1x100352, .f32⟩
  | .hbm, ⟨94, _⟩ => ⟨S100352, .f32⟩
  | .hbm, ⟨95, _⟩ => ⟨S100000, .f32⟩
  | .hbm, ⟨96, _⟩ => ⟨S_, .i32⟩
  | .hbm, ⟨97, _⟩ => ⟨S5111808, .i32⟩
  | .hbm, ⟨98, _⟩ => ⟨S5111808, .i1⟩
  | .hbm, ⟨99, _⟩ => ⟨S_, .i32⟩
  | .hbm, ⟨100, _⟩ => ⟨S5111808, .i32⟩
  | .hbm, ⟨101, _⟩ => ⟨S5111808, .i32⟩
  | .hbm, ⟨102, _⟩ => ⟨S5111808, .i32⟩
  | .hbm, ⟨103, _⟩ => ⟨S5111808x1, .i32⟩
  | .hbm, ⟨104, _⟩ => ⟨S5111808, .f32⟩
  | .hbm, ⟨105, _⟩ => ⟨S39936x128, .f32⟩
  | .hbm, ⟨106, _⟩ => ⟨S39936x128, .f32⟩
  | .hbm, ⟨107, _⟩ => ⟨S5111808, .f32⟩
  | .hbm, ⟨108, _⟩ => ⟨S_, .f32⟩
  | .hbm, ⟨109, _⟩ => ⟨S100000, .f32⟩
  | .hbm, ⟨110, _⟩ => ⟨S5111808x1, .i32⟩
  | .hbm, ⟨111, _⟩ => ⟨S100000, .f32⟩
  | .hbm, ⟨112, _⟩ => ⟨S100000, .f32⟩
  | .hbm, ⟨113, _⟩ => ⟨S100000, .f32⟩
  | .hbm, ⟨114, _⟩ => ⟨S100000x1, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x2048, .f32⟩
  | .local _ .vmem, ⟨13, _⟩ => ⟨S1x2048, .f32⟩
  | .local _ .vmem, ⟨14, _⟩ => ⟨S16x1, .f32⟩
  | .local _ .vmem, ⟨15, _⟩ => ⟨S16x1, .f32⟩
  | .local _ .vmem, ⟨16, _⟩ => ⟨S1x16, .f32⟩
  | .local _ .vmem, ⟨17, _⟩ => ⟨S1x2048, .f32⟩
  | .local _ .vmem, ⟨18, _⟩ => ⟨S1x2048, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_c_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_12 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53_0 : Ref sig .tc := ⟨.hbm, 79, rfl⟩
abbrev main_v53_1 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_17 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24

abbrev nD : Nat := 1
abbrev τ : Topo := Topo.v7x

variable {F : FTy → Type} [FloatOps F]

abbrev grid0 : Pipeline.Grid := ⟨1, ![78], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![78], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S100000_S5100000_d0 : Shape.Concatenates [S5000000, S100000] S5100000 0
  bcast_S_S100000 : S_.BroadcastsInDim S100000 (![] : Fin 0 → Fin S100000.rank)
  bcast_S_S11808 : S_.BroadcastsInDim S11808 (![] : Fin 0 → Fin S11808.rank)
  concatenates_S5100000_S11808_S5111808_d0 : Shape.Concatenates [S5100000, S11808] S5111808 0
  bcast_S5111808_S5111808x1_0 : S5111808.BroadcastsInDim S5111808x1 (![0] : Fin 1 → Fin S5111808x1.rank)
  bcast_S_S5111808 : S_.BroadcastsInDim S5111808 (![] : Fin 0 → Fin S5111808.rank)
  concatenates_S5111808x1_S5111808x1_S5111808x2_d1 : Shape.Concatenates [S5111808x1, S5111808x1] S5111808x2 1
  shapeCasts_S5111808_S39936x128 : S5111808.ShapeCasts S39936x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S39936x128_S5111808 : S39936x128.ShapeCasts S5111808
  bcast_S_S352 : S_.BroadcastsInDim S352 (![] : Fin 0 → Fin S352.rank)
  concatenates_S100000_S352_S100352_d0 : Shape.Concatenates [S100000, S352] S100352 0
  shapeCasts_S100352_S1x100352 : S100352.ShapeCasts S1x100352
  transposes_S1x16_S16x1_1_0 : S1x16.Transposes [1, 0] S16x1
  shapeCasts_S16_S16x1 : S16.ShapeCasts S16x1
  transposes_S16x1_S1x16_1_0 : S16x1.Transposes [1, 0] S1x16
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S16x1_S16x2048 : S16x1.Broadcasts S16x2048
  broadcasts_S1x2048_S16x2048 : S1x2048.Broadcasts S16x2048
  bitsLt_bf16_f32 : FTy.bits .bf16 < FTy.bits .f32
  shapeCasts_S1x100352_S100352 : S1x100352.ShapeCasts S100352
  slices_S100352_S100000_0 : S100352.Slices ![0] S100000
  bcast_S1_S100000_0 : S1.BroadcastsInDim S100000 (![0] : Fin 1 → Fin S100000.rank)
  shapeCasts_S100000_S100000x1 : S100000.ShapeCasts S100000x1
  scatter_S100000_S5111808x1_S5111808_n_0_0_1_wf : ScatterDims.WF S100000 S5111808x1 S5111808 [] [0] [0] 1
  gather_S100000_S5111808x1_S5111808_n_0_n_n_0_1_1_wf : GatherDims.WF S100000 S5111808x1 S5111808 [] [0] [] [0] [] 1 ![1]
  gather_S100000x1_S5111808x2_S5111808_n_01_n_n_01_1_11_wf : GatherDims.WF S100000x1 S5111808x2 S5111808 [] [0, 1] [] [0, 1] [] 1 ![1, 1]
  dot_S1x16_S16x2048_S1x2048_1_0_0_1_n_n_wf : DotDims.WF S1x16 S16x2048 S1x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S39936x128.size a
  hwx0_0 : ∀ i : grid0.Coords, EltTy.bits .f32 = 32 ∨ (Rect.block (s := S39936x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S39936x128.size a
  hwx0_1 : ∀ i : grid0.Coords, EltTy.bits .f32 = 32 ∨ (Rect.block (s := S39936x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S39936x128.size a
  hwx0_2 : ∀ i : grid0.Coords, EltTy.bits .f32 = 32 ∨ (Rect.block (s := S39936x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S39936x128.size a
  hwx0_3 : ∀ i : grid0.Coords, EltTy.bits .f32 = 32 ∨ (Rect.block (s := S39936x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S39936x128.size a
  hwx0_4 : ∀ i : grid0.Coords, EltTy.bits .f32 = 32 ∨ (Rect.block (s := S39936x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S39936x128.size a
  hwx0_5 : ∀ i : grid0.Coords, EltTy.bits .f32 = 32 ∨ (Rect.block (s := S39936x128) S512x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x100352.size a
  hwx1_0 : ∀ i : grid1.Coords, EltTy.bits .f32 = 32 ∨ (Rect.block (s := S1x100352) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x100352.size a
  hwx1_4 : ∀ i : grid1.Coords, EltTy.bits .f32 = 32 ∨ (Rect.block (s := S1x100352) S1x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S39936x128.size a
  hwx2_0 : ∀ i : grid2.Coords, EltTy.bits .f32 = 32 ∨ (Rect.block (s := S39936x128) S512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S39936x128.size a
  hwx2_1 : ∀ i : grid2.Coords, EltTy.bits .f32 = 32 ∨ (Rect.block (s := S39936x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S39936x128.size a
  hwx2_2 : ∀ i : grid2.Coords, EltTy.bits .f32 = 32 ∨ (Rect.block (s := S39936x128) S512x128.size (cc2_transform_2 i) (hinb2_2 i)).WholeWords (EltTy.packing .f32)

variable [Facts₀]

def scatter_S100000_S5111808x1_S5111808_n_0_0_1 : ScatterDims S100000 S5111808x1 S5111808 where
  updateWindowDims := []
  insertedWindowDims := [0]
  scatterDimsToOperandDims := [0]
  indexVectorDim := 1
  wf := scatter_S100000_S5111808x1_S5111808_n_0_0_1_wf
def gather_S100000_S5111808x1_S5111808_n_0_n_n_0_1_1 : GatherDims S100000 S5111808x1 S5111808 where
  offsetDims := []
  collapsedSliceDims := [0]
  operandBatchingDims := []
  startIndicesBatchingDims := []
  startIndexMap := [0]
  indexVectorDim := 1
  sliceSizes := ![1]
  wf := gather_S100000_S5111808x1_S5111808_n_0_n_n_0_1_1_wf
def gather_S100000x1_S5111808x2_S5111808_n_01_n_n_01_1_11 : GatherDims S100000x1 S5111808x2 S5111808 where
  offsetDims := []
  collapsedSliceDims := [0, 1]
  operandBatchingDims := []
  startIndicesBatchingDims := []
  startIndexMap := [0, 1]
  indexVectorDim := 1
  sliceSizes := ![1, 1]
  wf := gather_S100000x1_S5111808x2_S5111808_n_01_n_n_01_1_11_wf
def dot_S1x16_S16x2048_S1x2048_1_0_0_1_n_n : DotDims S1x16 S16x2048 S1x2048 where
  lhsContracting := [1]
  rhsContracting := [0]
  lhsNonContracting := [0]
  rhsNonContracting := [1]
  lhsBatch := []
  rhsBatch := []
  wf := dot_S1x16_S16x2048_S1x2048_1_0_0_1_n_n_wf

abbrev win0_0 : Pipeline.Window sig grid0 :=
  Pipeline.Window.ofSpec (Memref.whole main_v49) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53_0) S512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v53_1) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v60) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S1x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53_0) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S512x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x5000000 : Shape := ⟨2, ![2, 5000000]⟩
abbrev S5000000 : Shape := ⟨1, ![5000000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S1x5000000 : Shape := ⟨2, ![1, 5000000]⟩
abbrev S100000 : Shape := ⟨1, ![100000]⟩
abbrev S5100000 : Shape := ⟨1, ![5100000]⟩
abbrev S_ : Shape := ⟨0, ![]⟩
abbrev S5100000x1 : Shape := ⟨2, ![5100000, 1]⟩
abbrev S100000x16 : Shape := ⟨2, ![100000, 16]⟩
abbrev S5100000x16 : Shape := ⟨2, ![5100000, 16]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S100000x1, .f32⟩
  | 1 => ⟨S2x5000000, .i32⟩
  | 2 => ⟨S5000000, .f32⟩
  | 3 => ⟨S1x16, .f32⟩
  | 4 => ⟨S16, .f32⟩
  | 5 => ⟨S16x1, .f32⟩
  | 6 => ⟨S1, .f32⟩
  | 7 => ⟨S1x5000000, .i32⟩
  | 8 => ⟨S5000000, .i32⟩
  | 9 => ⟨S1x5000000, .i32⟩
  | 10 => ⟨S5000000, .i32⟩
  | 11 => ⟨S100000, .i32⟩
  | 12 => ⟨S5100000, .i32⟩
  | 13 => ⟨S5100000, .i32⟩
  | 14 => ⟨S_, .f32⟩
  | 15 => ⟨S100000, .f32⟩
  | 16 => ⟨S5100000, .f32⟩
  | 17 => ⟨S_, .f32⟩
  | 18 => ⟨S100000, .f32⟩
  | 19 => ⟨S5100000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .i1⟩
  | 27 => ⟨S_, .f32⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S5100000, .i32⟩
  | 38 => ⟨S5100000, .i1⟩
  | 39 => ⟨S_, .i32⟩
  | 40 => ⟨S5100000, .i32⟩
  | 41 => ⟨S5100000, .i32⟩
  | 42 => ⟨S5100000, .i32⟩
  | 43 => ⟨S5100000x1, .i32⟩
  | 44 => ⟨S5100000, .f32⟩
  | 45 => ⟨S5100000, .f32⟩
  | 46 => ⟨S_, .i32⟩
  | 47 => ⟨S5100000, .i32⟩
  | 48 => ⟨S5100000, .i1⟩
  | 49 => ⟨S_, .i32⟩
  | 50 => ⟨S5100000, .i32⟩
  | 51 => ⟨S5100000, .i32⟩
  | 52 => ⟨S5100000, .i32⟩
  | 53 => ⟨S5100000x1, .i32⟩
  | 54 => ⟨S5100000, .f32⟩
  | 55 => ⟨S5100000, .f32⟩
  | 56 => ⟨S100000x16, .f32⟩
  | 57 => ⟨S5100000x1, .f32⟩
  | 58 => ⟨S_, .i32⟩
  | 59 => ⟨S5100000, .i32⟩
  | 60 => ⟨S5100000, .i1⟩
  | 61 => ⟨S_, .i32⟩
  | 62 => ⟨S5100000, .i32⟩
  | 63 => ⟨S5100000, .i32⟩
  | 64 => ⟨S5100000, .i32⟩
  | 65 => ⟨S5100000x1, .i32⟩
  | 66 => ⟨S5100000x16, .f32⟩
  | 67 => ⟨S5100000x16, .f32⟩
  | 68 => ⟨S5100000x16, .f32⟩
  | 69 => ⟨S_, .f32⟩
  | 70 => ⟨S100000x16, .f32⟩
  | 71 => ⟨S5100000x1, .i32⟩
  | 72 => ⟨S100000x16, .f32⟩
  | 73 => ⟨S1x16, .f32⟩
  | 74 => ⟨S100000x16, .f32⟩
  | 75 => ⟨S100000x16, .f32⟩
  | 76 => ⟨S_, .f32⟩
  | 77 => ⟨S100000x16, .f32⟩
  | 78 => ⟨S100000x16, .f32⟩
  | 79 => ⟨S1x5000000, .i32⟩
  | 80 => ⟨S5000000, .i32⟩
  | 81 => ⟨S1x5000000, .i32⟩
  | 82 => ⟨S5000000, .i32⟩
  | 83 => ⟨S100000, .i32⟩
  | 84 => ⟨S5100000, .i32⟩
  | 85 => ⟨S5100000, .i32⟩
  | 86 => ⟨S_, .f32⟩
  | 87 => ⟨S100000, .f32⟩
  | 88 => ⟨S5100000, .f32⟩
  | 89 => ⟨S_, .f32⟩
  | 90 => ⟨S100000, .f32⟩
  | 91 => ⟨S5100000x1, .i32⟩
  | 92 => ⟨S100000, .f32⟩
  | 93 => ⟨S_, .f32⟩
  | 94 => ⟨S100000, .f32⟩
  | 95 => ⟨S100000, .i1⟩
  | 96 => ⟨S_, .f32⟩
  | 97 => ⟨S100000, .f32⟩
  | 98 => ⟨S100000, .i1⟩
  | 99 => ⟨S_, .f32⟩
  | 100 => ⟨S_, .f32⟩
  | 101 => ⟨S100000, .f32⟩
  | 102 => ⟨S100000, .f32⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S5100000, .i32⟩
  | 110 => ⟨S5100000, .i1⟩
  | 111 => ⟨S_, .i32⟩
  | 112 => ⟨S5100000, .i32⟩
  | 113 => ⟨S5100000, .i32⟩
  | 114 => ⟨S5100000, .i32⟩
  | 115 => ⟨S5100000x1, .i32⟩
  | 116 => ⟨S5100000, .f32⟩
  | 117 => ⟨S5100000, .f32⟩
  | 118 => ⟨S_, .i32⟩
  | 119 => ⟨S5100000, .i32⟩
  | 120 => ⟨S5100000, .i1⟩
  | 121 => ⟨S_, .i32⟩
  | 122 => ⟨S5100000, .i32⟩
  | 123 => ⟨S5100000, .i32⟩
  | 124 => ⟨S5100000, .i32⟩
  | 125 => ⟨S5100000x1, .i32⟩
  | 126 => ⟨S5100000, .f32⟩
  | 127 => ⟨S5100000, .f32⟩
  | _ => ⟨S100000x1, .f32⟩

abbrev hbmTy0_1 (i : Nat) : BufTy := match i % 128 with
  | 0 => ⟨S100000x1, .f32⟩
  | 1 => ⟨S5100000x1, .f32⟩
  | 2 => ⟨S_, .i32⟩
  | 3 => ⟨S5100000, .i32⟩
  | 4 => ⟨S5100000, .i1⟩
  | 5 => ⟨S_, .i32⟩
  | 6 => ⟨S5100000, .i32⟩
  | 7 => ⟨S5100000, .i32⟩
  | 8 => ⟨S5100000, .i32⟩
  | 9 => ⟨S5100000x1, .i32⟩
  | 10 => ⟨S5100000x1, .f32⟩
  | 11 => ⟨S5100000x1, .f32⟩
  | 12 => ⟨S_, .f32⟩
  | 13 => ⟨S100000x1, .f32⟩
  | 14 => ⟨S5100000x1, .i32⟩
  | 15 => ⟨S100000x1, .f32⟩
  | 16 => ⟨S1x1, .f32⟩
  | 17 => ⟨S100000x1, .f32⟩
  | 18 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_call3_v0 : Ref sig .tc := ⟨.hbm, 100, rfl⟩
abbrev main_call3_v1 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_call4_v0 : Ref sig .tc := ⟨.hbm, 105, rfl⟩
abbrev main_call4_v1 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_19 : Ref sig .tc := ⟨.hbm, 118, rfl⟩
abbrev main_v80 : Ref sig .tc := ⟨.hbm, 119, rfl⟩
abbrev main_v81 : Ref sig .tc := ⟨.hbm, 120, rfl⟩
abbrev main_c_20 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_21 : Ref sig .tc := ⟨.hbm, 130, rfl⟩
abbrev main_v90 : Ref sig .tc := ⟨.hbm, 131, rfl⟩
abbrev main_v91 : Ref sig .tc := ⟨.hbm, 132, rfl⟩
abbrev main_c_22 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_23 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S100000_S5100000_d0 : Shape.Concatenates [S5000000, S100000] S5100000 0
  bcast_S_S100000 : S_.BroadcastsInDim S100000 (![] : Fin 0 → Fin S100000.rank)
  bcast_S5100000_S5100000x1_0 : S5100000.BroadcastsInDim S5100000x1 (![0] : Fin 1 → Fin S5100000x1.rank)
  bcast_S_S5100000 : S_.BroadcastsInDim S5100000 (![] : Fin 0 → Fin S5100000.rank)
  bcast_S5100000x1_S5100000x16_0_1 : S5100000x1.BroadcastsInDim S5100000x16 (![0, 1] : Fin 2 → Fin S5100000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S5100000x1_S5100000_n_0_0_1_wf : ScatterDims.WF S100000 S5100000x1 S5100000 [] [0] [0] 1
  gather_S100000_S5100000x1_S5100000_n_0_n_n_0_1_1_wf : GatherDims.WF S100000 S5100000x1 S5100000 [] [0] [] [0] [] 1 ![1]
  dot_S100000x1_S1x16_S100000x16_1_0_0_1_n_n_wf : DotDims.WF S100000x1 S1x16 S100000x16 [1] [0] [0] [1] [] []
  gather_S100000x16_S5100000x1_S5100000x16_1_0_n_n_0_1_116_wf : GatherDims.WF S100000x16 S5100000x1 S5100000x16 [1] [0] [] [0] [] 1 ![1, 16]
  scatter_S100000x16_S5100000x1_S5100000x16_1_0_0_1_wf : ScatterDims.WF S100000x16 S5100000x1 S5100000x16 [1] [0] [0] 1
  dot_S100000x16_S16x1_S100000x1_1_0_0_1_n_n_wf : DotDims.WF S100000x16 S16x1 S100000x1 [1] [0] [0] [1] [] []
  gather_S100000x1_S5100000x1_S5100000x1_1_0_n_n_0_1_11_wf : GatherDims.WF S100000x1 S5100000x1 S5100000x1 [1] [0] [] [0] [] 1 ![1, 1]
  scatter_S100000x1_S5100000x1_S5100000x1_1_0_0_1_wf : ScatterDims.WF S100000x1 S5100000x1 S5100000x1 [1] [0] [0] 1

variable [Facts₀]

def scatter_S100000_S5100000x1_S5100000_n_0_0_1 : ScatterDims S100000 S5100000x1 S5100000 where
  updateWindowDims := []
  insertedWindowDims := [0]
  scatterDimsToOperandDims := [0]
  indexVectorDim := 1
  wf := scatter_S100000_S5100000x1_S5100000_n_0_0_1_wf
def gather_S100000_S5100000x1_S5100000_n_0_n_n_0_1_1 : GatherDims S100000 S5100000x1 S5100000 where
  offsetDims := []
  collapsedSliceDims := [0]
  operandBatchingDims := []
  startIndicesBatchingDims := []
  startIndexMap := [0]
  indexVectorDim := 1
  sliceSizes := ![1]
  wf := gather_S100000_S5100000x1_S5100000_n_0_n_n_0_1_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S5100000x1_S5100000x16_1_0_n_n_0_1_116 : GatherDims S100000x16 S5100000x1 S5100000x16 where
  offsetDims := [1]
  collapsedSliceDims := [0]
  operandBatchingDims := []
  startIndicesBatchingDims := []
  startIndexMap := [0]
  indexVectorDim := 1
  sliceSizes := ![1, 16]
  wf := gather_S100000x16_S5100000x1_S5100000x16_1_0_n_n_0_1_116_wf
def scatter_S100000x16_S5100000x1_S5100000x16_1_0_0_1 : ScatterDims S100000x16 S5100000x1 S5100000x16 where
  updateWindowDims := [1]
  insertedWindowDims := [0]
  scatterDimsToOperandDims := [0]
  indexVectorDim := 1
  wf := scatter_S100000x16_S5100000x1_S5100000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S5100000x1_S5100000x1_1_0_n_n_0_1_11 : GatherDims S100000x1 S5100000x1 S5100000x1 where
  offsetDims := [1]
  collapsedSliceDims := [0]
  operandBatchingDims := []
  startIndicesBatchingDims := []
  startIndexMap := [0]
  indexVectorDim := 1
  sliceSizes := ![1, 1]
  wf := gather_S100000x1_S5100000x1_S5100000x1_1_0_n_n_0_1_11_wf
def scatter_S100000x1_S5100000x1_S5100000x1_1_0_0_1 : ScatterDims S100000x1 S5100000x1 S5100000x1 where
  updateWindowDims := [1]
  insertedWindowDims := [0]
  scatterDimsToOperandDims := [0]
  indexVectorDim := 1
  wf := scatter_S100000x1_S5100000x1_S5100000x1_1_0_0_1_wf

class Facts : Prop extends Facts₀ where

variable [Facts]
-- ==== Proof.KerRun.lean ====
/-
  The idealized kernel's run, with its result named.

  @main is eleven segments: five stretches of host operations, the edge pass, a stretch, the node pass, a stretch, the
  message pass, and a last stretch.  The buffer contents at the segment boundaries are a fold from the launch memory
  (`W0` … `W11` of the frame module: a host stretch applies its operations; a pallas_call replaces its arrays by what
  its write-backs leave).  The frame module runs the segments to conclude that the seven argument arrays end as
  launched; its conclusion does not mention the result buffer.  Here the segments are run once more, to the stronger
  conclusion the same run supports: in every final state EVERY unscoped buffer of every core holds the last
  boundary's contents (`run_ends`).  The result buffer is one of them, so it ends at `W11 … main_v82`
  (`run_named`).  What that fold is as a function of the arguments is the business of the modules that import this.
-/
import proofs.«124087_j22385369546840_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s unscoped buffers in the memory `s` hold the last boundary's contents. -/
def EndsAt (c : Dev nD) (s : MemSt nD τ sig (Elt F)) : Prop :=
  ∀ b ∈ Pipeline.ucRefs τ sig, s.mem (((c : Thread nD τ)).1, b) = W11 m ρ c b

/-- The thread state the first segment is entered from: the unscoped buffers at the launch contents, beside the
    generator register and the core owing nothing. -/
abbrev Start (c : Dev nD) : sProp 𝕄 :=
  iprop(StableHlo.held (c : Thread nD τ) (Pipeline.ucRefs τ sig) (W0 m ρ c) ∗ R c)

/-- The launch element of the pipelines' staging cells. -/
abbrev launchElt := initOf (Pipeline.cells cfgs cellOf_inj) (Pipeline.launchToks cfgs cellOf_inj)

-- the segment theorem's implicit arguments are found by unifying its conclusion with this one, which takes unfolding
-- plain definitions in a metavariable's type
set_option backward.isDefEq.respectTransparency.types false in
/-- Every weakly fair execution of @main terminates, nothing faulting, and any property of the final memory that
    follows from "every unscoped buffer of every core holds the last boundary's contents" holds of it. -/
theorem run_ends {Q : PUnit × MemSt nD τ sig (Elt F) → Prop}
    (hQ : ∀ s : MemSt nD τ sig (Elt F), (∀ c : Dev nD, EndsAt m ρ c s) → Q (⟨⟩, s)) :
    θ_run defs (onTc (τ := τ) (main (F := F))) ⟨m, fun _ => 0, ρ⟩ Q := by
  refine Pipeline.θ_run_regions_kit (pcfgs (F := F)) adm (pdats m ρ) () cellOf_inj emb₁ defs₀ 𝒱₀ L lv m ρ main (segs m ρ)
    (fun c P => by rw [main_run m ρ c]) ?pipesOnce (O₀ := 0) (hL := fun _ _ => rfl) (G := fun _ => iprop(emp))
    (u₀ := launchElt) ?launch (T₀ := Start m ρ) (Tₙ := Tₙ m ρ) ?chain ?first (QY := EndsAt m ρ) ?last hQ
  case pipesOnce =>
    -- the three pallas_calls are entered once each, in order
    simp only [segs, Pipeline.Seg.pipes_host, Pipeline.Seg.pipes_region, Pipeline.Seg.pipes_nil]; decide
  case launch =>
    -- owning the launch element is owning the cells' element under the embedding; beside it goes a product of
    -- `emp`s over the cores, which is `emp`; nothing is updated
    have noGhosts : (BI.emp : sProp 𝕄) ⊢ bigSep Finset.univ (fun _ : Dev nD => (BI.emp : sProp 𝕄)) := by
      rw [BI.bigSep_emp_const]
    iintro Helt
    imodintro
    isplitl [Helt]
    · iapply (show (ownU launchElt : sProp 𝕄) ⊢ BI.own (emb₁ launchElt) from .rfl)
      iexact Helt
    · iapply noGhosts
      iempintro
  case chain =>
    -- a host stretch is entered from its boundary's contents and leaves them at the next boundary's, which is by
    -- definition what the following segment is entered from; a pallas_call likewise, from its entry to its exit
    -- contents: eleven links that hold by unfolding.  After the last stretch the state is the buffers at `W11`
    -- beside (register ∗ nothing owed), and what is asked is (buffers ∗ register) beside nothing owed
    refine ⟨fun _ => .rfl, fun _ => .rfl, fun _ => .rfl, fun _ => .rfl, fun _ => .rfl, fun _ => .rfl, fun _ => .rfl,
      fun _ => .rfl, fun _ => .rfl, fun _ => .rfl, fun _ => .rfl, fun c => ?_⟩
    exact BI.sep_assoc'
  case first =>
    -- core by core.  The launch deals a core its unscoped buffers at the launch memory (the first boundary's
    -- contents), its semaphores at zero, an empty debt, the launch credit and its generator register: the buffers,
    -- the register and the debt make the first thread state, the rest is let go
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Hdebt, -, Hreg, -⟩, -⟩
    imodintro
    isplitl [Hbufs]; · iexact Hbufs
    isplitl [Hreg]
    · iexists _; iexact Hreg
    · iexists ∅; iexact Hdebt
  case last =>
    -- the last thread state holds every unscoped buffer at `W11`; read against the final state's interpretation,
    -- each points-to says what the memory holds there (the register plays no part)
    intro c s'
    iintro ⟨⟨Hbufs, -⟩, Hstate⟩
    unfold StableHlo.held
    imodintro
    iapply (pointsTo_read_all (Pipeline.ucRefs τ sig) (fun b => (((c : Thread nD τ)).1, b)) (W11 m ρ c) s')
    isplitl [Hbufs]
    · iexact Hbufs
    · iexact Hstate

/-- The run with the result named: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_ends m ρ fun s h c =>
    -- each buffer named below is unscoped, so the final state holds it at the fold; an argument's fold walks back to
    -- the launch memory (no host operation and no region writes an argument)
    have at_ (b : Ref sig .tc) (hb : ¬ (Proc.devRef .tc b : DevRef τ sig).isScoped) := h c _ (mem_uc b hb)
    ⟨at_ main_v82 (by decide),
     (at_ main_arg0 (by decide)).trans (W11_main_arg0 m ρ c), (at_ main_arg1 (by decide)).trans (W11_main_arg1 m ρ c),
     (at_ main_arg2 (by decide)).trans (W11_main_arg2 m ρ c), (at_ main_arg3 (by decide)).trans (W11_main_arg3 m ρ c),
     (at_ main_arg4 (by decide)).trans (W11_main_arg4 m ρ c), (at_ main_arg5 (by decide)).trans (W11_main_arg5 m ρ c),
     (at_ main_arg6 (by decide)).trans (W11_main_arg6 m ρ c)⟩

end Cert.KernelIdeal.Named

end
-- ==== Proof.KerTerm.lean ====
/-
  The idealized kernel's arrays, stage by stage, as functions of the argument arrays.

  The edge list is the input's `edge_index` followed by one self loop per node and then by 11808 padding edges
  `0 → 0` of weight zero, 5111808 edges in all (`rowK`, `colK`, `wK`).  From it: the weighted in-degree of every
  node by a scatter-add (`degK`), the node factor (`dinvK`: the inverse square root of a positive degree, zero
  otherwise), and the factor gathered along the sources and along the destinations (`drK`, `dcK`), the indices
  wrapped once by the number of nodes when negative (`wrapIdx`).  The edge pass multiplies, edge by edge,
  `(drK · wK) · dcK` (`normK`) and that by the gathered input scalar (`s1K`); a scatter-add aggregates the latter per node
  (`S1K`); the node pass applies the 1 × 16 weights, the bias, the rectifier and the 16 × 1 weights to each node's
  aggregate (`h2K`); the message pass multiplies the gathered result by `normK` (`msgK`); a last scatter-add and the
  bias give the result (`outK`).  The arrays the three passes work on are the edge arrays laid out 39936 × 128 and
  the node aggregate laid out 1 × 100352 behind 352 zeros of padding.
-/
import proofs.«124087_j22385369546840_1_alg».proof.KernelIdeal
import proofs.«124087_j22385369546840_1_alg».proof.Proof.Gen.KernelIdeal
import Idealize.ShloMosaic.PureOps.Ideal
import Idealize.ShloMosaic.Lib.ValueIdx

noncomputable section

namespace Cert.KernelIdeal.Term

open Cert.KernelIdeal Cert.KernelIdeal.Facts₀ Cert.KernelIdeal.Facts Idealize.ShloMosaic Idealize.ShloMosaic.ValueIdx

variable (x0 : FVec Ideal S100000x1 .f32) (ei : IVec S2x5000000 32) (ea : FVec Ideal S5000000 .f32)
  (w1 : FVec Ideal S1x16 .f32) (b1 : FVec Ideal S16 .f32) (w2 : FVec Ideal S16x1 .f32) (b2 : FVec Ideal S1 .f32)

/-- A vector of zeros over the nodes: what every scatter-add accumulates into. -/
abbrev zerosN : FVec Ideal S100000 .f32 :=
  broadcastInDim S100000 ![] bcast_S_S100000 (constant S_ .f32 0x00000000#32)

/-- The sources as given: row 0 of `edge_index` followed by the self loops `0, 1, …, 99999`. -/
def rowRaw : IVec S5100000 32 :=
  concatenate S5100000 0
    [⟨S5000000, shapeCast S5000000 (extractStridedSlice S1x5000000 ![0, 0] ei slices_S2x5000000_S1x5000000_0_0)
        shapeCasts_S1x5000000_S5000000⟩,
     ⟨S100000, iotaInDim S100000 32 0⟩] concatenates_S5000000_S100000_S5100000_d0

/-- The destinations as given: row 1 of `edge_index` followed by the same self loops. -/
def colRaw : IVec S5100000 32 :=
  concatenate S5100000 0
    [⟨S5000000, shapeCast S5000000 (extractStridedSlice S1x5000000 ![1, 0] ei slices_S2x5000000_S1x5000000_1_0)
        shapeCasts_S1x5000000_S5000000⟩,
     ⟨S100000, iotaInDim S100000 32 0⟩] concatenates_S5000000_S100000_S5100000_d0

/-- An edge array of integers padded with zeros to 5111808 entries. -/
def padI (v : IVec S5100000 32) : IVec S5111808 32 :=
  concatenate S5111808 0
    [⟨S5100000, v⟩, ⟨S11808, broadcastInDim S11808 ![] bcast_S_S11808 (constantI S_ 32 0#32)⟩]
    concatenates_S5100000_S11808_S5111808_d0

/-- The sources of the padded edge list. -/
def rowK : IVec S5111808 32 := padI (rowRaw ei)
/-- The destinations of the padded edge list. -/
def colK : IVec S5111808 32 := padI (colRaw ei)

/-- The weights: `edge_attr`, one per self loop, zero per padding edge. -/
def wK : FVec Ideal S5111808 .f32 :=
  concatenate S5111808 0
    [⟨S5100000, concatenate S5100000 0
        [⟨S5000000, ea⟩, ⟨S100000, broadcastInDim S100000 ![] bcast_S_S100000 (constant S_ .f32 0x3F800000#32)⟩]
        concatenates_S5000000_S100000_S5100000_d0⟩,
     ⟨S11808, broadcastInDim S11808 ![] bcast_S_S11808 (constant S_ .f32 0x00000000#32)⟩]
    concatenates_S5100000_S11808_S5111808_d0

/-- The destinations as a column of scatter indices (not wrapped: a scatter drops what is out of range). -/
def colCol : IVec S5111808x1 32 := broadcastInDim S5111808x1 ![0] bcast_S5111808_S5111808x1_0 (colK ei)

/-- An edge array aggregated per destination node. -/
def aggregate (u : FVec Ideal S5111808 .f32) : FVec Ideal S100000 .f32 :=
  Host.scatterAdd scatter_S100000_S5111808x1_S5111808_n_0_0_1 zerosN (colCol ei) u

/-- The weighted in-degree. -/
def degK : FVec Ideal S100000 .f32 := aggregate ei (wK ea)

/-- The node factor: the inverse square root of a positive degree, zero otherwise (two selections on `0 < deg`). -/
def dinvK : FVec Ideal S100000 .f32 :=
  select (cmpf .ogt (degK ei ea) zerosN)
    (Host.rsqrt (select (cmpf .ogt (degK ei ea) zerosN) (degK ei ea)
      (broadcastInDim S100000 ![] bcast_S_S100000 (id (constant S_ .f32 0x3F800000#32)))))
    (broadcastInDim S100000 ![] bcast_S_S100000 (id (constant S_ .f32 0x00000000#32)))

/-- Node indices as a column of gather indices: a negative one is wrapped once by the number of nodes. -/
def wrapIdx (v : IVec S5111808 32) : IVec S5111808x1 32 :=
  broadcastInDim S5111808x1 ![0] bcast_S5111808_S5111808x1_0
    (select (cmpi .slt v (broadcastInDim S5111808 ![] bcast_S_S5111808 (constantI S_ 32 0#32)))
      (addi v (broadcastInDim S5111808 ![] bcast_S_S5111808 (constantI S_ 32 100000#32))) v)

/-- A node vector gathered along the sources. -/
def alongRow (y : FVec Ideal S100000 .f32) : FVec Ideal S5111808 .f32 :=
  Host.gather gather_S100000_S5111808x1_S5111808_n_0_n_n_0_1_1 y (wrapIdx (rowK ei))

/-- The factor along the sources, along the destinations, and the input scalar along the sources (the input is a
    100000 × 1 matrix: its gather pairs each source with the column index zero). -/
def drK : FVec Ideal S5111808 .f32 := alongRow ei (dinvK ei ea)
def dcK : FVec Ideal S5111808 .f32 :=
  Host.gather gather_S100000_S5111808x1_S5111808_n_0_n_n_0_1_1 (dinvK ei ea) (wrapIdx (colK ei))
def xrK : FVec Ideal S5111808 .f32 :=
  Host.gather gather_S100000x1_S5111808x2_S5111808_n_01_n_n_01_1_11 x0
    (concatenate S5111808x2 1
      [⟨S5111808x1, wrapIdx (rowK ei)⟩,
       ⟨S5111808x1, broadcastInDim S5111808x1 ![0] bcast_S5111808_S5111808x1_0
          (id (broadcastInDim S5111808 ![] bcast_S_S5111808 (constantI S_ 32 0#32)))⟩]
      concatenates_S5111808x1_S5111808x1_S5111808x2_d1)

/-- An edge array laid out 39936 × 128, and back. -/
def to2d (v : FVec Ideal S5111808 .f32) : FVec Ideal S39936x128 .f32 := shapeCast S39936x128 v shapeCasts_S5111808_S39936x128
def to1d (v : FVec Ideal S39936x128 .f32) : FVec Ideal S5111808 .f32 := shapeCast S5111808 v shapeCasts_S39936x128_S5111808

/-- The edge pass: the edge coefficient, and the first layer's message. -/
def normK : FVec Ideal S39936x128 .f32 := fun i => (to2d (drK ei ea) i * to2d (wK ea) i) * to2d (dcK ei ea) i
def s1K : FVec Ideal S39936x128 .f32 := fun i => normK ei ea i * to2d (xrK x0 ei) i

/-- The first layer's aggregate per node, then laid out 1 × 100352 behind 352 zeros. -/
def S1K : FVec Ideal S100000 .f32 := aggregate ei (to1d (s1K x0 ei ea))
def S1rowK : FVec Ideal S1x100352 .f32 :=
  shapeCast S1x100352
    (concatenate S100352 0 [⟨S100000, S1K x0 ei ea⟩, ⟨S352, broadcastInDim S352 ![] bcast_S_S352 (constant S_ .f32 0x00000000#32)⟩]
      concatenates_S100000_S352_S100352_d0) shapeCasts_S100352_S1x100352

/-- The dense weights as the node pass takes them: 16 × 1, 16 × 1 and 1 × 16. -/
def w1tK : FVec Ideal S16x1 .f32 := transpose S16x1 [1, 0] w1 transposes_S1x16_S16x1_1_0
def b1cK : FVec Ideal S16x1 .f32 := shapeCast S16x1 b1 shapeCasts_S16_S16x1
def w2tK : FVec Ideal S1x16 .f32 := transpose S1x16 [1, 0] w2 transposes_S16x1_S1x16_1_0

/-- The node pass: per node, weights, bias, rectifier, weights. -/
def h2K : FVec Ideal S1x100352 .f32 := fun i =>
  ∑ k : Fin 16, w2tK w2 (ix2 (0 : Fin 1) k)
    * max (w1tK w1 (ix2 k (0 : Fin 1)) * S1rowK x0 ei ea (ix2 (0 : Fin 1) (i 1)) + b1cK b1 (ix2 k (0 : Fin 1))) 0

/-- The node pass's result on the 100000 nodes, gathered along the sources, laid out 39936 × 128. -/
def hgK : FVec Ideal S39936x128 .f32 :=
  to2d (alongRow ei (extractStridedSlice S100000 ![0]
    (shapeCast S100352 (h2K x0 ei ea w1 b1 w2) shapeCasts_S1x100352_S100352) slices_S100352_S100000_0))

/-- The message pass. -/
def msgK : FVec Ideal S39936x128 .f32 := fun i => normK ei ea i * hgK x0 ei ea w1 b1 w2 i

/-- The result: the messages aggregated per node, the bias, as a 100000 × 1 matrix. -/
def outK : FVec Ideal S100000x1 .f32 :=
  shapeCast S100000x1
    (addf (aggregate ei (to1d (msgK x0 ei ea w1 b1 w2))) (broadcastInDim S100000 ![0] bcast_S1_S100000_0 b2))
    shapeCasts_S100000_S100000x1

end Cert.KernelIdeal.Term

end
-- ==== Proof.KerRegions.lean ====
import proofs.«124087_j22385369546840_1_alg».proof.Proof.Gen.KernelIdeal.Frame
import Idealize.ShloMosaic.Lib.Pipeline.Value
import Idealize.ShloMosaic.Lib.ValueIdx
import Idealize.ShloMosaic.PureOps.Ideal.Laws

/-!
# The three tiled regions, each read as one function of the whole arrays

Each region sweeps a one-dimensional grid; at a point it loads one block of every input array, computes a
block of the output and writes it back.  The blocks of an output tile its array, and what a point writes is the
restriction to its block of ONE function of the whole input arrays, so after the sweep the output array IS that
function.  Over the extended reals the element arithmetic is the plain product, sum and maximum.
-/

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The buffer contents on entry to a region: every buffer of every core. -/
abbrev Entry := (c : Dev nD) → (b : Ref sig .tc) → Buf (Elt Ideal) ((c : Thread nD τ).loc b)

/-- The offsets of a whole-block access are all zero. -/
theorem origin2 : (![0, 0] : Fin 2 → Nat) = fun _ => 0 := funext fun a => by fin_cases a <;> rfl

/-! ## The edge-preparation region: the edge coefficient, and the coefficient times the gathered feature -/

section EdgePrep

/-- The coefficient array: source factor times weight, times destination factor, slot by slot. -/
abbrev normFn (dr dc w : S39936x128.Idx → EReal) : S39936x128.Idx → EReal := fun i => (dr i * w i) * dc i

/-- The scaled-feature array: the coefficient times the gathered feature, slot by slot. -/
abbrev scaledFn (dr dc w xr : S39936x128.Idx → EReal) : S39936x128.Idx → EReal :=
  fun i => ((dr i * w i) * dc i) * xr i

/-- The coefficient block is the elementwise product of the loaded blocks, in the order the body multiplies them. -/
theorem norm_payload (x0 x1 x2 : Vec Ideal S512x128 .f32) :
    k0_pay1 x0 x1 x2 = fun j => (x0 j * x2 j) * x1 j := by
  unfold k0_pay1
  simp only [shapeCast_self]
  rfl

/-- The scaled-feature block multiplies the coefficient block by the fourth loaded block. -/
theorem scaled_payload (x0 x1 x2 x3 : Vec Ideal S512x128 .f32) :
    k0_pay2 x0 x1 x2 x3 = fun j => ((x0 j * x2 j) * x1 j) * x3 j := by
  unfold k0_pay2
  rw [norm_payload]
  simp only [shapeCast_self]
  rfl

/-- Reading every factor of the coefficient at the same slot of the whole arrays. -/
theorem norm_at (dr dc w : S39936x128.Idx → EReal) {i0 i1 i2 i : S39936x128.Idx}
    (h0 : i0 = i) (h1 : i1 = i) (h2 : i2 = i) : (dr i0 * w i2) * dc i1 = normFn dr dc w i := by
  rw [h0, h1, h2]

/-- Reading every factor of the scaled feature at the same slot of the whole arrays. -/
theorem scaled_at (dr dc w xr : S39936x128.Idx → EReal) {i0 i1 i2 i3 i : S39936x128.Idx}
    (h0 : i0 = i) (h1 : i1 = i) (h2 : i2 = i) (h3 : i3 = i) :
    ((dr i0 * w i2) * dc i1) * xr i3 = scaledFn dr dc w xr i := by
  rw [h0, h1, h2, h3]

/-- Along the grid, every window of the region sits at block row `t`, block column `0`. -/
theorem prep_index : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0 :=
  (by decide +kernel : ∀ t : Fin grid0.N, _)

/-- What point `t` writes back to the coefficient array is block `t` of the coefficient of the whole arrays. -/
theorem norm_flushed (V : Entry) (c : Dev nD) (t : Fin cfg0.N) :
    (dat0 (F := Ideal) V c).flushed 4 t
      = ((cfg0.win 4).blk t).view.read (Elt Ideal) (normFn (V c main_v49) (V c main_v50) (V c main_v51)) := by
  show (cfg0.win 4).cut (grid0.coords t) ((dat0 (F := Ideal) V c).after 4 t) = _
  rw [after0_4]
  unfold out0_4
  rw [View.canon_unit_zero origin2]
  simp only [View.ld_unit_zero (S := S512x128) origin2]
  rw [norm_payload]
  obtain ⟨a0, b0, a1, b1, a2, b2, a3, b3, a4, b4, a5, b5⟩ := prep_index t
  funext j
  have h0 : ((cfg0.win 0).blk t).view.emb j = ((cfg0.win 4).blk t).view.emb j := by
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 512 + 1 * (j 0).val = win0_4.index t (0 : Fin 2) * 512 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 512 + 1 * (j 0).val = win0_4.index t (0 : Fin 2) * 512 + 1 * (j 0).val; omega
    | ⟨1, _⟩ => show win0_2.index t (1 : Fin 2) * 128 + 1 * (j 1).val = win0_4.index t (1 : Fin 2) * 128 + 1 * (j 1).val; omega
  exact norm_at (V c main_v49) (V c main_v50) (V c main_v51) h0 h1 h2

/-- What point `t` writes back to the scaled-feature array is block `t` of the scaled feature of the whole arrays. -/
theorem scaled_flushed (V : Entry) (c : Dev nD) (t : Fin cfg0.N) :
    (dat0 (F := Ideal) V c).flushed 5 t
      = ((cfg0.win 5).blk t).view.read (Elt Ideal)
          (scaledFn (V c main_v49) (V c main_v50) (V c main_v51) (V c main_v52)) := by
  show (cfg0.win 5).cut (grid0.coords t) ((dat0 (F := Ideal) V c).after 5 t) = _
  rw [after0_5]
  unfold out0_5
  rw [View.canon_unit_zero origin2]
  simp only [View.ld_unit_zero (S := S512x128) origin2]
  rw [scaled_payload]
  obtain ⟨a0, b0, a1, b1, a2, b2, a3, b3, a4, b4, a5, b5⟩ := prep_index t
  funext j
  have h0 : ((cfg0.win 0).blk t).view.emb j = ((cfg0.win 5).blk t).view.emb j := by
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 512 + 1 * (j 0).val = win0_5.index t (0 : Fin 2) * 512 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb j = ((cfg0.win 5).blk t).view.emb j := by
    funext a; apply Fin.ext
    match a with
    | ⟨0, _⟩ => show win0_2.index t (0 : Fin 2) * 512 + 1 * (j 0).val = win0_5.index t (0 : Fin 2) * 512 + 1 * (j 0).val; omega
    | ⟨1, _⟩ => show win0_2.index t (1 : Fin 2) * 128 + 1 * (j 1).val = win0_5.index t (1 : Fin 2) * 128 + 1 * (j 1).val; omega
  have h3 : ((cfg0.win 3).blk t).view.emb j = ((cfg0.win 5).blk t).view.emb j := by
    funext a; apply Fin.ext
    match a with
    | ⟨0, _⟩ => show win0_3.index t (0 : Fin 2) * 512 + 1 * (j 0).val = win0_5.index t (0 : Fin 2) * 512 + 1 * (j 0).val; omega
    | ⟨1, _⟩ => show win0_3.index t (1 : Fin 2) * 128 + 1 * (j 1).val = win0_5.index t (1 : Fin 2) * 128 + 1 * (j 1).val; omega
  exact scaled_at (V c main_v49) (V c main_v50) (V c main_v51) (V c main_v52) h0 h1 h2 h3

/-- An index lies in point `t`'s block of this output iff each coordinate lies in the block's range. -/
theorem norm_mem_blk (t : Fin cfg0.N) (i : S39936x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v53_0).slice (win0_4.rect t)).set ↔ _
  rw [View.set_slice_whole, Rect.mem_set_unit]
  exact Iff.rfl

/-- Row `r` of this output is written by point `r / 512`: the 78 blocks of 512 rows tile the 39936 rows. -/
theorem norm_cover (i : S39936x128.Idx) :
    ∃ t : Fin cfg0.N, (cfg0.win 4).flush t = true ∧ i ∈ ((cfg0.win 4).blk t).view.set := by
  have hi0 : (i 0).val < 39936 := (i 0).isLt
  have hi1 : (i 1).val < 128 := (i 1).isLt
  let t : Fin cfg0.N := ⟨(i 0).val / 512, by show (i 0).val / 512 < 78; omega⟩
  have hrow : win0_4.index t (0 : Fin 2) = (i 0).val / 512 := (prep_index t).2.2.2.2.2.2.2.2.1
  have hcol : win0_4.index t (1 : Fin 2) = 0 := (prep_index t).2.2.2.2.2.2.2.2.2.1
  refine ⟨t, flush0_4 t, ?_⟩
  rw [norm_mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- An index lies in point `t`'s block of this output iff each coordinate lies in the block's range. -/
theorem scaled_mem_blk (t : Fin cfg0.N) (i : S39936x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v53_1).slice (win0_5.rect t)).set ↔ _
  rw [View.set_slice_whole, Rect.mem_set_unit]
  exact Iff.rfl

/-- Row `r` of this output is written by point `r / 512`: the 78 blocks of 512 rows tile the 39936 rows. -/
theorem scaled_cover (i : S39936x128.Idx) :
    ∃ t : Fin cfg0.N, (cfg0.win 5).flush t = true ∧ i ∈ ((cfg0.win 5).blk t).view.set := by
  have hi0 : (i 0).val < 39936 := (i 0).isLt
  have hi1 : (i 1).val < 128 := (i 1).isLt
  let t : Fin cfg0.N := ⟨(i 0).val / 512, by show (i 0).val / 512 < 78; omega⟩
  have hrow : win0_5.index t (0 : Fin 2) = (i 0).val / 512 := (prep_index t).2.2.2.2.2.2.2.2.2.2.1
  have hcol : win0_5.index t (1 : Fin 2) = 0 := (prep_index t).2.2.2.2.2.2.2.2.2.2.2
  refine ⟨t, flush0_5 t, ?_⟩
  rw [scaled_mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 128 ≤ (i 1).val ∧ (i 1).val < win0_5.index t (1 : Fin 2) * 128 + 128; omega

/-- After the sweep the coefficient array is source factor times weight times destination factor, slot by slot. -/
theorem region0_norm (V : Entry) (c : Dev nD) :
    (dat0 (F := Ideal) V c).arrAt 4 cfg0.N = normFn (V c main_v49) (V c main_v50) (V c main_v51) :=
  (dat0 (F := Ideal) V c).arrAt_eq_of_cover 4 (normFn (V c main_v49) (V c main_v50) (V c main_v51))
    (fun t _ => norm_flushed V c t) norm_cover

/-- After the sweep the scaled-feature array is the coefficient times the gathered feature, slot by slot. -/
theorem region0_s1 (V : Entry) (c : Dev nD) :
    (dat0 (F := Ideal) V c).arrAt 5 cfg0.N
      = scaledFn (V c main_v49) (V c main_v50) (V c main_v51) (V c main_v52) :=
  (dat0 (F := Ideal) V c).arrAt_eq_of_cover 5
    (scaledFn (V c main_v49) (V c main_v50) (V c main_v51) (V c main_v52))
    (fun t _ => scaled_flushed V c t) scaled_cover

end EdgePrep

/-! ## The per-node region: sixteen rectified hidden units combined into one scalar per node -/

section Node

/-- The whole output row: at node `i 1` the sum over the sixteen hidden units of the second weight times the
    rectified affine image of the node's scalar. -/
abbrev nodeFn (s : S1x100352.Idx → EReal) (w1 b1 : S16x1.Idx → EReal) (w2 : S1x16.Idx → EReal) :
    S1x100352.Idx → EReal :=
  fun i => ∑ k : Fin 16, w2 (ix2 0 k) * max (w1 (ix2 k 0) * s (ix2 0 (i 1)) + b1 (ix2 k 0)) 0

/-- The row of the left factor read by output `(0, q)` at contraction index `r` is row `0`. -/
theorem dot_lhs_row (i : S1x2048.Idx) (r : dot_S1x16_S16x2048_S1x2048_1_0_0_1_n_n.contr.Idx) :
    (dot_S1x16_S16x2048_S1x2048_1_0_0_1_n_n.lhsIdx i r 0).val = (i 0).val := by
  unfold DotDims.lhsIdx
  rw [dif_neg (show ¬(0 : Fin S1x16.rank) ∈ dot_S1x16_S16x2048_S1x2048_1_0_0_1_n_n.lhsBatch by decide), dif_pos (show (0 : Fin S1x16.rank) ∈ dot_S1x16_S16x2048_S1x2048_1_0_0_1_n_n.lhsNonContracting by decide)]
  rfl

/-- Its column is the contraction index. -/
theorem dot_lhs_col (i : S1x2048.Idx) (r : dot_S1x16_S16x2048_S1x2048_1_0_0_1_n_n.contr.Idx) :
    (dot_S1x16_S16x2048_S1x2048_1_0_0_1_n_n.lhsIdx i r 1).val = (r ⟨0, by decide⟩).val :=
  dot_S1x16_S16x2048_S1x2048_1_0_0_1_n_n.lhsIdx_val_of_single rfl i r

/-- The row of the right factor is the contraction index. -/
theorem dot_rhs_row (i : S1x2048.Idx) (r : dot_S1x16_S16x2048_S1x2048_1_0_0_1_n_n.contr.Idx) :
    (dot_S1x16_S16x2048_S1x2048_1_0_0_1_n_n.rhsIdx i r 0).val = (r ⟨0, by decide⟩).val :=
  dot_S1x16_S16x2048_S1x2048_1_0_0_1_n_n.rhsIdx_val_of_single rfl i r

/-- Its column is the output's column. -/
theorem dot_rhs_col (i : S1x2048.Idx) (r : dot_S1x16_S16x2048_S1x2048_1_0_0_1_n_n.contr.Idx) :
    (dot_S1x16_S16x2048_S1x2048_1_0_0_1_n_n.rhsIdx i r 1).val = (i 1).val := by
  unfold DotDims.rhsIdx
  rw [dif_neg (show ¬(1 : Fin S16x2048.rank) ∈ dot_S1x16_S16x2048_S1x2048_1_0_0_1_n_n.rhsBatch by decide), dif_pos (show (1 : Fin S16x2048.rank) ∈ dot_S1x16_S16x2048_S1x2048_1_0_0_1_n_n.rhsNonContracting by decide)]
  rfl

/-- The stored block at column `q`: the matrix product of the 1×16 second weights with the 16×2048 rectified
    hidden block, whose entry `(k, q)` is `max (w1 k · s q + b1 k) 0` (a column vector and the row of scalars
    broadcast against each other); the changes of float format are the identity on extended reals and the product
    accumulates into zero. -/
theorem node_payload (s : FVec Ideal S1x2048 .f32) (w1 b1 : FVec Ideal S16x1 .f32) (w2 : FVec Ideal S1x16 .f32)
    (q : Fin 2048) :
    k1_pay1 s w1 b1 w2 (ix2 0 q)
      = ∑ k : Fin 16, w2 (ix2 0 k) * max (w1 (ix2 k 0) * s (ix2 0 q) + b1 (ix2 k 0)) 0 := by
  unfold k1_pay1
  simp only [matmul]
  rw [Ideal.matmul_constant_zero_apply, ← Equiv.sum_comp (contrEquiv1 dot_S1x16_S16x2048_S1x2048_1_0_0_1_n_n 16 rfl rfl).symm]
  refine Finset.sum_congr rfl fun k _ => ?_
  have hk := contrEquiv1_symm_val dot_S1x16_S16x2048_S1x2048_1_0_0_1_n_n 16 rfl rfl k
  have el : dot_S1x16_S16x2048_S1x2048_1_0_0_1_n_n.lhsIdx (ix2 0 q) ((contrEquiv1 dot_S1x16_S16x2048_S1x2048_1_0_0_1_n_n 16 rfl rfl).symm k) = ix2 0 k := funext fun a => Fin.ext (by
    match a with
    | ⟨0, _⟩ => exact dot_lhs_row _ _
    | ⟨1, _⟩ => exact (dot_lhs_col _ _).trans hk)
  have er : dot_S1x16_S16x2048_S1x2048_1_0_0_1_n_n.rhsIdx (ix2 0 q) ((contrEquiv1 dot_S1x16_S16x2048_S1x2048_1_0_0_1_n_n 16 rfl rfl).symm k) = ix2 k q := funext fun a => Fin.ext (by
    match a with
    | ⟨0, _⟩ => exact (dot_rhs_row _ _).trans hk
    | ⟨1, _⟩ => exact dot_rhs_col _ _)
  rw [el, er]
  simp only [shapeCast_self]
  show w2 (ix2 0 k) * max (broadcastTo S16x2048 w1 broadcasts_S16x1_S16x2048 (ix2 k q) * broadcastTo S16x2048 s broadcasts_S1x2048_S16x2048 (ix2 k q) + broadcastTo S16x2048 b1 broadcasts_S16x1_S16x2048 (ix2 k q)) (Ideal.ofBits .f32 0x00000000#32) = _
  have hcol : ∀ a : Fin S16x1.rank, ((ix2 k (0 : Fin 1) : S16x1.Idx) a).val = if S16x1.size a = 1 then 0 else ((ix2 k q : S16x2048.Idx) ⟨a.val + (S16x2048.rank - S16x1.rank), by have := a.isLt; omega⟩).val := fun a => match a with
    | ⟨0, _⟩ => by show k.val = if (16 : Nat) = 1 then 0 else k.val; rw [if_neg (by decide)]
    | ⟨1, _⟩ => by show (0 : Nat) = if (1 : Nat) = 1 then 0 else q.val; rw [if_pos rfl]
  have hrow : ∀ a : Fin S1x2048.rank, ((ix2 (0 : Fin 1) q : S1x2048.Idx) a).val = if S1x2048.size a = 1 then 0 else ((ix2 k q : S16x2048.Idx) ⟨a.val + (S16x2048.rank - S1x2048.rank), by have := a.isLt; omega⟩).val := fun a => match a with
    | ⟨0, _⟩ => by show (0 : Nat) = if (1 : Nat) = 1 then 0 else k.val; rw [if_pos rfl]
    | ⟨1, _⟩ => by show q.val = if (2048 : Nat) = 1 then 0 else q.val; rw [if_neg (by decide)]
  rw [broadcastTo_apply w1 broadcasts_S16x1_S16x2048 (ix2 k q) (ix2 k 0) hcol,
    broadcastTo_apply b1 broadcasts_S16x1_S16x2048 (ix2 k q) (ix2 k 0) hcol,
    broadcastTo_apply s broadcasts_S1x2048_S16x2048 (ix2 k q) (ix2 0 q) hrow, Ideal.ofBits_zero_f32]

/-- The same at any index of the block: its row coordinate can only be `0`. -/
theorem node_payload_at (s : FVec Ideal S1x2048 .f32) (w1 b1 : FVec Ideal S16x1 .f32) (w2 : FVec Ideal S1x16 .f32)
    (j : S1x2048.Idx) :
    k1_pay1 s w1 b1 w2 j = ∑ k : Fin 16, w2 (ix2 0 k) * max (w1 (ix2 k 0) * s j + b1 (ix2 k 0)) 0 := by
  obtain ⟨p, q, rfl⟩ : ∃ (p : Fin 1) (q : Fin 2048), j = ix2 p q := ⟨j 0, j 1, eq_ix2 j⟩
  obtain rfl : p = 0 := Subsingleton.elim _ _
  exact node_payload s w1 b1 w2 q

/-- Reading the block's scalar at its place in the whole row, and the three small arrays whole. -/
theorem node_at (s : S1x100352.Idx → EReal) (w1 b1 : S16x1.Idx → EReal) (w2 : S1x16.Idx → EReal)
    (s' : S1x2048.Idx → EReal) (w1' b1' : S16x1.Idx → EReal) (w2' : S1x16.Idx → EReal)
    (j : S1x2048.Idx) (i : S1x100352.Idx)
    (hs : s' j = s (ix2 0 (i 1))) (h1 : w1' = w1) (hb : b1' = b1) (h2 : w2' = w2) :
    ∑ k : Fin 16, w2' (ix2 0 k) * max (w1' (ix2 k 0) * s' j + b1' (ix2 k 0)) 0 = nodeFn s w1 b1 w2 i := by
  subst h1 hb h2
  rw [hs]

/-- Along the grid the scalar row and the output sit at block column `t`; the three small arrays are whole. -/
theorem node_index : ∀ t : Fin cfg1.N, win1_0.index t (0 : Fin 2) = 0
    ∧ win1_0.index t (1 : Fin 2) = t.val
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = t.val :=
  (by decide +kernel : ∀ t : Fin grid1.N, _)

/-- Reading a whole-row function through point `t`'s output block evaluates it at the block's place in the row. -/
theorem node_read (t : Fin cfg1.N) (G : S1x100352.Idx → EReal) (j : S1x2048.Idx) :
    ((cfg1.win 4).blk t).view.read (Elt Ideal) G j = G (((cfg1.win 4).blk t).view.emb j) := rfl

/-- What point `t` writes back is block `t` of the per-node map of the whole arrays. -/
theorem node_flushed (V : Entry) (c : Dev nD) (t : Fin cfg1.N) :
    (dat1 (F := Ideal) V c).flushed 4 t
      = ((cfg1.win 4).blk t).view.read (Elt Ideal)
          (nodeFn (V c main_v60) (V c main_v61) (V c main_v62) (V c main_v63)) := by
  show (cfg1.win 4).cut (grid1.coords t) ((dat1 (F := Ideal) V c).after 4 t) = _
  rw [after1_4]
  unfold out1_4
  rw [View.canon_unit_zero origin2]
  simp only [View.ld_unit_zero (S := S1x2048) origin2, View.ld_unit_zero (S := S16x1) origin2,
    View.ld_unit_zero (S := S1x16) origin2]
  obtain ⟨a0, b0, a1, b1, a2, b2, a3, b3, a4, b4⟩ := node_index t
  funext j
  refine (node_payload_at (iblk1 (F := Ideal) V c 0 t) (iblk1 (F := Ideal) V c 1 t) (iblk1 (F := Ideal) V c 2 t)
    (iblk1 (F := Ideal) V c 3 t) j).trans ?_
  have hs : iblk1 (F := Ideal) V c 0 t j
      = V c main_v60 (ix2 0 ((((cfg1.win 4).blk t).view.emb j) 1)) := by
    show V c main_v60 (((cfg1.win 0).blk t).view.emb j) = _
    refine congrArg (V c main_v60) ?_
    funext a; apply Fin.ext
    match a with
    | ⟨0, _⟩ => show win1_0.index t (0 : Fin 2) * 1 + 1 * (j 0).val = 0; have hj0 : (j 0).val < 1 := (j 0).isLt; omega
    | ⟨1, _⟩ => show win1_0.index t (1 : Fin 2) * 2048 + 1 * (j 1).val = win1_4.index t (1 : Fin 2) * 2048 + 1 * (j 1).val; omega
  have h1 : iblk1 (F := Ideal) V c 1 t = V c main_v61 := by
    funext y
    show V c main_v61 (((cfg1.win 1).blk t).view.emb y) = V c main_v61 y
    refine congrArg (V c main_v61) ?_
    funext a; apply Fin.ext
    match a with
    | ⟨0, _⟩ => show win1_1.index t (0 : Fin 2) * 16 + 1 * (y 0).val = (y 0).val; omega
    | ⟨1, _⟩ => show win1_1.index t (1 : Fin 2) * 1 + 1 * (y 1).val = (y 1).val; omega
  have hb : iblk1 (F := Ideal) V c 2 t = V c main_v62 := by
    funext y
    show V c main_v62 (((cfg1.win 2).blk t).view.emb y) = V c main_v62 y
    refine congrArg (V c main_v62) ?_
    funext a; apply Fin.ext
    match a with
    | ⟨0, _⟩ => show win1_2.index t (0 : Fin 2) * 16 + 1 * (y 0).val = (y 0).val; omega
    | ⟨1, _⟩ => show win1_2.index t (1 : Fin 2) * 1 + 1 * (y 1).val = (y 1).val; omega
  have h2 : iblk1 (F := Ideal) V c 3 t = V c main_v63 := by
    funext y
    show V c main_v63 (((cfg1.win 3).blk t).view.emb y) = V c main_v63 y
    refine congrArg (V c main_v63) ?_
    funext a; apply Fin.ext
    match a with
    | ⟨0, _⟩ => show win1_3.index t (0 : Fin 2) * 1 + 1 * (y 0).val = (y 0).val; omega
    | ⟨1, _⟩ => show win1_3.index t (1 : Fin 2) * 16 + 1 * (y 1).val = (y 1).val; omega
  refine (node_at (V c main_v60) (V c main_v61) (V c main_v62) (V c main_v63)
    (iblk1 (F := Ideal) V c 0 t) (iblk1 (F := Ideal) V c 1 t) (iblk1 (F := Ideal) V c 2 t)
    (iblk1 (F := Ideal) V c 3 t) j (((cfg1.win 4).blk t).view.emb j) hs h1 hb h2).trans ?_
  exact (node_read t (nodeFn (V c main_v60) (V c main_v61) (V c main_v62) (V c main_v63)) j).symm

/-- An index lies in point `t`'s output block iff each coordinate lies in the block's range. -/
theorem node_mem_blk (t : Fin cfg1.N) (i : S1x100352.Idx) :
    i ∈ ((cfg1.win 4).blk t).view.set ↔ ∀ a : Fin 2, win1_4.index t a * S1x2048.size a ≤ (i a).val ∧ (i a).val < win1_4.index t a * S1x2048.size a + S1x2048.size a := by
  show i ∈ ((View.whole main_v64).slice (win1_4.rect t)).set ↔ _
  rw [View.set_slice_whole, Rect.mem_set_unit]
  exact Iff.rfl

/-- Column `q` of the row is written by point `q / 2048`: the 49 blocks of 2048 columns tile the 100352 columns. -/
theorem node_cover (i : S1x100352.Idx) :
    ∃ t : Fin cfg1.N, (cfg1.win 4).flush t = true ∧ i ∈ ((cfg1.win 4).blk t).view.set := by
  have hi0 : (i 0).val < 1 := (i 0).isLt
  have hi1 : (i 1).val < 100352 := (i 1).isLt
  let t : Fin cfg1.N := ⟨(i 1).val / 2048, by show (i 1).val / 2048 < 49; omega⟩
  have hrow : win1_4.index t (0 : Fin 2) = 0 := (node_index t).2.2.2.2.2.2.2.2.1
  have hcol : win1_4.index t (1 : Fin 2) = (i 1).val / 2048 := (node_index t).2.2.2.2.2.2.2.2.2
  refine ⟨t, flush1_4 t, ?_⟩
  rw [node_mem_blk]
  intro a
  match a with
  | ⟨0, _⟩ => show win1_4.index t (0 : Fin 2) * 1 ≤ (i 0).val ∧ (i 0).val < win1_4.index t (0 : Fin 2) * 1 + 1; omega
  | ⟨1, _⟩ => show win1_4.index t (1 : Fin 2) * 2048 ≤ (i 1).val ∧ (i 1).val < win1_4.index t (1 : Fin 2) * 2048 + 2048; omega

/-- After the sweep the output row is the per-node map of the scalar row and the three small weight arrays. -/
theorem region1_h2 (V : Entry) (c : Dev nD) :
    (dat1 (F := Ideal) V c).arrAt 4 cfg1.N
      = nodeFn (V c main_v60) (V c main_v61) (V c main_v62) (V c main_v63) :=
  (dat1 (F := Ideal) V c).arrAt_eq_of_cover 4
    (nodeFn (V c main_v60) (V c main_v61) (V c main_v62) (V c main_v63))
    (fun t _ => node_flushed V c t) node_cover

end Node

/-! ## The edge-message region: one product per edge slot -/

section Message

/-- The whole message array: the product of the two input arrays, slot by slot. -/
abbrev msgFn (a b : S39936x128.Idx → EReal) : S39936x128.Idx → EReal := fun i => a i * b i

/-- The message block is the elementwise product of the two loaded blocks. -/
theorem msg_payload (x0 x1 : Vec Ideal S512x128 .f32) :
    k2_pay1 x0 x1 = fun j => x0 j * x1 j := by
  unfold k2_pay1
  simp only [shapeCast_self]
  rfl

/-- Reading both factors at the same slot of the whole arrays. -/
theorem msg_at (a b : S39936x128.Idx → EReal) {i0 i1 i : S39936x128.Idx} (h0 : i0 = i) (h1 : i1 = i) :
    a i0 * b i1 = msgFn a b i := by rw [h0, h1]

/-- Along the grid, every window of the region sits at block row `t`, block column `0`. -/
theorem msg_index : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val
    ∧ win2_2.index t (1 : Fin 2) = 0 :=
  (by decide +kernel : ∀ t : Fin grid2.N, _)

/-- What point `t` writes back is block `t` of the product of the two whole arrays. -/
theorem msg_flushed (V : Entry) (c : Dev nD) (t : Fin cfg2.N) :
    (dat2 (F := Ideal) V c).flushed 2 t
      = ((cfg2.win 2).blk t).view.read (Elt Ideal) (msgFn (V c main_v53_0) (V c main_v74)) := by
  show (cfg2.win 2).cut (grid2.coords t) ((dat2 (F := Ideal) V c).after 2 t) = _
  rw [after2_2]
  unfold out2_2
  rw [View.canon_unit_zero origin2]
  simp only [View.ld_unit_zero (S := S512x128) origin2]
  rw [msg_payload]
  obtain ⟨e0, e1, e2, e3, e4, e5⟩ := msg_index t
  funext j
  have h0 : ((cfg2.win 0).blk t).view.emb j = ((cfg2.win 2).blk t).view.emb j := by
    funext a; apply Fin.ext
    match a with
    | ⟨0, _⟩ => show win2_0.index t (0 : Fin 2) * 512 + 1 * (j 0).val = win2_2.index t (0 : Fin 2) * 512 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 512 + 1 * (j 0).val = win2_2.index t (0 : Fin 2) * 512 + 1 * (j 0).val; omega
    | ⟨1, _⟩ => show win2_1.index t (1 : Fin 2) * 128 + 1 * (j 1).val = win2_2.index t (1 : Fin 2) * 128 + 1 * (j 1).val; omega
  exact msg_at (V c main_v53_0) (V c main_v74) h0 h1

/-- An index lies in point `t`'s output block iff each coordinate lies in the block's range. -/
theorem msg_mem_blk (t : Fin cfg2.N) (i : S39936x128.Idx) :
    i ∈ ((cfg2.win 2).blk t).view.set ↔ ∀ a : Fin 2, win2_2.index t a * S512x128.size a ≤ (i a).val ∧ (i a).val < win2_2.index t a * S512x128.size a + S512x128.size a := by
  show i ∈ ((View.whole main_v75).slice (win2_2.rect t)).set ↔ _
  rw [View.set_slice_whole, Rect.mem_set_unit]
  exact Iff.rfl

/-- Row `r` of the array is written by point `r / 512`: the 78 blocks of 512 rows tile the 39936 rows. -/
theorem msg_cover (i : S39936x128.Idx) :
    ∃ t : Fin cfg2.N, (cfg2.win 2).flush t = true ∧ i ∈ ((cfg2.win 2).blk t).view.set := by
  have hi0 : (i 0).val < 39936 := (i 0).isLt
  have hi1 : (i 1).val < 128 := (i 1).isLt
  let t : Fin cfg2.N := ⟨(i 0).val / 512, by show (i 0).val / 512 < 78; omega⟩
  obtain ⟨e0, e1, e2, e3, e4, e5⟩ := msg_index t
  have e4' : win2_2.index t (0 : Fin 2) = (i 0).val / 512 := e4
  refine ⟨t, flush2_2 t, ?_⟩
  rw [msg_mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 128 ≤ (i 1).val ∧ (i 1).val < win2_2.index t (1 : Fin 2) * 128 + 128; omega

/-- After the sweep the message array is the product of the two input arrays, slot by slot. -/
theorem region2_msg (V : Entry) (c : Dev nD) :
    (dat2 (F := Ideal) V c).arrAt 2 cfg2.N = msgFn (V c main_v53_0) (V c main_v74) :=
  (dat2 (F := Ideal) V c).arrAt_eq_of_cover 2 (msgFn (V c main_v53_0) (V c main_v74))
    (fun t _ => msg_flushed V c t) msg_cover

end Message

end Cert.KernelIdeal.Regions

end
-- ==== Proof.KerAcross.lean ====
/-
  The idealized kernel's result buffer as a function of its arguments.

  The buffer contents at the boundaries of @main's eleven segments are a fold from the launch memory.  Walking it:
  when the edge pass is entered its four operands are the factor gathered along the sources, along the destinations,
  the weights and the gathered input scalar, laid out 39936 × 128; it leaves the edge coefficient and the first
  layer's message; a stretch of host operations aggregates the message per node and lays the aggregate out
  1 × 100352 beside the transposed weights; the node pass leaves the per-node scalar after both dense products; a
  stretch gathers it along the sources; the message pass multiplies it by the coefficient; the last stretch
  aggregates per node and adds the bias.  At every boundary the buffers a later segment still reads (the sources, the
  destinations, the coefficient, the remaining arguments) are carried unchanged.
-/
import proofs.«124087_j22385369546840_1_alg».proof.Proof.Gen.KernelIdeal.Frame
import proofs.«124087_j22385369546840_1_alg».proof.Proof.KerTerm
import proofs.«124087_j22385369546840_1_alg».proof.Proof.KerRegions

set_option maxRecDepth 16384

noncomputable section

namespace Cert.KernelIdeal.Fold

open Cert.KernelIdeal Cert.KernelIdeal.Gen Cert.KernelIdeal.Facts₀ Cert.KernelIdeal.Facts Cert.KernelIdeal.Regions
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Across a pallas_call: its output arrays at the closed forms, every other buffer as entered -/

/-- After the edge pass the coefficient array is `(dr · w) · dc` of the pass's operands as entered. -/
theorem edge_norm : W6 (F := Ideal) m ρ c (Proc.devRef .tc main_v53_0)
    = normFn (V5 m ρ c main_v49) (V5 m ρ c main_v50) (V5 m ρ c main_v51) :=
  (W6_arr m ρ c 4).trans (region0_norm (V5 m ρ) c)

/-- After the edge pass the message array is the coefficient times the gathered input scalar. -/
theorem edge_s1 : W6 (F := Ideal) m ρ c (Proc.devRef .tc main_v53_1)
    = scaledFn (V5 m ρ c main_v49) (V5 m ρ c main_v50) (V5 m ρ c main_v51) (V5 m ρ c main_v52) :=
  (W6_arr m ρ c 5).trans (region0_s1 (V5 m ρ) c)

/-- After the node pass its output array is the per-node scalar of the pass's operands as entered. -/
theorem node_h2 : W8 (F := Ideal) m ρ c (Proc.devRef .tc main_v64)
    = nodeFn (V7 m ρ c main_v60) (V7 m ρ c main_v61) (V7 m ρ c main_v62) (V7 m ρ c main_v63) :=
  (W8_arr m ρ c 4).trans (region1_h2 (V7 m ρ) c)

/-- After the message pass its output array is the product of its two operands as entered. -/
theorem msg_out : W10 (F := Ideal) m ρ c (Proc.devRef .tc main_v75)
    = msgFn (V9 m ρ c main_v53_0) (V9 m ρ c main_v74) :=
  (W10_arr m ρ c 2).trans (region2_msg (V9 m ρ) c)

/-- The buffers later segments read are none of a pallas_call's arrays, so each call leaves them as entered. -/
theorem edge_keeps_row : W6 (F := Ideal) m ρ c (Proc.devRef .tc main_v11) = W5 m ρ c (Proc.devRef .tc main_v11) := W6_of_ne m ρ c main_v11 (by decide)
theorem edge_keeps_col : W6 (F := Ideal) m ρ c (Proc.devRef .tc main_v12) = W5 m ρ c (Proc.devRef .tc main_v12) := W6_of_ne m ρ c main_v12 (by decide)
theorem edge_keeps_arg3 : W6 (F := Ideal) m ρ c (Proc.devRef .tc main_arg3) = W5 m ρ c (Proc.devRef .tc main_arg3) := W6_of_ne m ρ c main_arg3 (by decide)
theorem edge_keeps_arg4 : W6 (F := Ideal) m ρ c (Proc.devRef .tc main_arg4) = W5 m ρ c (Proc.devRef .tc main_arg4) := W6_of_ne m ρ c main_arg4 (by decide)
theorem edge_keeps_arg5 : W6 (F := Ideal) m ρ c (Proc.devRef .tc main_arg5) = W5 m ρ c (Proc.devRef .tc main_arg5) := W6_of_ne m ρ c main_arg5 (by decide)
theorem edge_keeps_arg6 : W6 (F := Ideal) m ρ c (Proc.devRef .tc main_arg6) = W5 m ρ c (Proc.devRef .tc main_arg6) := W6_of_ne m ρ c main_arg6 (by decide)
theorem node_keeps_row : W8 (F := Ideal) m ρ c (Proc.devRef .tc main_v11) = W7 m ρ c (Proc.devRef .tc main_v11) := W8_of_ne m ρ c main_v11 (by decide)
theorem node_keeps_col : W8 (F := Ideal) m ρ c (Proc.devRef .tc main_v12) = W7 m ρ c (Proc.devRef .tc main_v12) := W8_of_ne m ρ c main_v12 (by decide)
theorem node_keeps_norm : W8 (F := Ideal) m ρ c (Proc.devRef .tc main_v53_0) = W7 m ρ c (Proc.devRef .tc main_v53_0) := W8_of_ne m ρ c main_v53_0 (by decide)
theorem node_keeps_arg6 : W8 (F := Ideal) m ρ c (Proc.devRef .tc main_arg6) = W7 m ρ c (Proc.devRef .tc main_arg6) := W8_of_ne m ρ c main_arg6 (by decide)
theorem msg_keeps_col : W10 (F := Ideal) m ρ c (Proc.devRef .tc main_v12) = W9 m ρ c (Proc.devRef .tc main_v12) := W10_of_ne m ρ c main_v12 (by decide)
theorem msg_keeps_arg6 : W10 (F := Ideal) m ρ c (Proc.devRef .tc main_arg6) = W9 m ρ c (Proc.devRef .tc main_arg6) := W10_of_ne m ρ c main_arg6 (by decide)

end Cert.KernelIdeal.Fold

end
-- ==== Proof.KerPre.lean ====
/-
  The idealized kernel's buffers when its first pass over the edges is entered.

  The program runs, before that pass, five stretches of array operations.  The first builds the padded edge list
  (sources, destinations, weights), the weighted in-degree by a scatter-add and the two comparisons of the degree
  with zero; the second and the fourth are the two selections of the node factor, the third its inverse square
  root; the fifth gathers the factor along the wrapped sources and destinations and the input scalar along the
  sources, and lays the four edge arrays out 39936 × 128.  Each stretch is read over arbitrary buffer contents,
  and the five are then chained from the launch contents.
-/
import proofs.«124087_j22385369546840_1_alg».proof.Proof.Gen.KernelIdeal.Frame
import proofs.«124087_j22385369546840_1_alg».proof.Proof.KerTerm
import Idealize.ShloMosaic.Lib.StableHlo.Run

set_option maxRecDepth 16384

noncomputable section

namespace Cert.KernelIdeal.Fold

open Cert.KernelIdeal Cert.KernelIdeal.Gen Cert.KernelIdeal.Facts₀ Cert.KernelIdeal.Facts
open Idealize.ShloMosaic Idealize.ShloMosaic.TcCoe Idealize.SL.Sem Idealize.ShloMosaic.StableHlo

/-! ## The stretches over arbitrary contents -/

section Stretches
variable (V : Valuation τ sig (Elt Ideal))

/-! ### The first stretch: the padded edge list, the degree and its two comparisons with zero -/

set_option maxHeartbeats 4000000 in
/-- The padded sources. -/
theorem s0_v11 : StableHlo.after hostOps0 V (Proc.devRef .tc main_v11) = Term.rowK (V (Proc.devRef .tc main_arg1)) := by
  delta hostOps0
  after_results <;> rfl
set_option maxHeartbeats 4000000 in
/-- The padded destinations. -/
theorem s0_v12 : StableHlo.after hostOps0 V (Proc.devRef .tc main_v12) = Term.colK (V (Proc.devRef .tc main_arg1)) := by
  delta hostOps0
  after_results <;> rfl
set_option maxHeartbeats 4000000 in
/-- The padded weights. -/
theorem s0_v13 : StableHlo.after hostOps0 V (Proc.devRef .tc main_v13) = Term.wK (V (Proc.devRef .tc main_arg2)) := by
  delta hostOps0
  after_results <;> rfl
set_option maxHeartbeats 4000000 in
/-- The weighted in-degree. -/
theorem s0_v16 : StableHlo.after hostOps0 V (Proc.devRef .tc main_v16) = Term.degK (V (Proc.devRef .tc main_arg1)) (V (Proc.devRef .tc main_arg2)) := by
  delta hostOps0
  after_results <;> rfl
set_option maxHeartbeats 4000000 in
/-- Where the degree is positive. -/
theorem s0_v18 : StableHlo.after hostOps0 V (Proc.devRef .tc main_v18) = (cmpf .ogt (Term.degK (V (Proc.devRef .tc main_arg1)) (V (Proc.devRef .tc main_arg2))) Term.zerosN : IVec S100000 1) := by
  delta hostOps0
  after_results <;> rfl
set_option maxHeartbeats 4000000 in
/-- Where the degree is positive, once more. -/
theorem s0_v20 : StableHlo.after hostOps0 V (Proc.devRef .tc main_v20) = (cmpf .ogt (Term.degK (V (Proc.devRef .tc main_arg1)) (V (Proc.devRef .tc main_arg2))) Term.zerosN : IVec S100000 1) := by
  delta hostOps0
  after_results <;> rfl
set_option maxHeartbeats 4000000 in
/-- The constant one. -/
theorem s0_cst_4 : StableHlo.after hostOps0 V (Proc.devRef .tc main_cst_4) = (constant S_ .f32 0x3F800000#32 : FVec Ideal S_ .f32) := by
  delta hostOps0
  after_results <;> rfl
set_option maxHeartbeats 4000000 in
theorem s0_arg0 : StableHlo.after hostOps0 V (Proc.devRef .tc main_arg0) = V (Proc.devRef .tc main_arg0) := by
  delta hostOps0
  after_results <;> rfl
set_option maxHeartbeats 4000000 in
theorem s0_arg3 : StableHlo.after hostOps0 V (Proc.devRef .tc main_arg3) = V (Proc.devRef .tc main_arg3) := by
  delta hostOps0
  after_results <;> rfl
set_option maxHeartbeats 4000000 in
theorem s0_arg4 : StableHlo.after hostOps0 V (Proc.devRef .tc main_arg4) = V (Proc.devRef .tc main_arg4) := by
  delta hostOps0
  after_results <;> rfl
set_option maxHeartbeats 4000000 in
theorem s0_arg5 : StableHlo.after hostOps0 V (Proc.devRef .tc main_arg5) = V (Proc.devRef .tc main_arg5) := by
  delta hostOps0
  after_results <;> rfl
set_option maxHeartbeats 4000000 in
theorem s0_arg6 : StableHlo.after hostOps0 V (Proc.devRef .tc main_arg6) = V (Proc.devRef .tc main_arg6) := by
  delta hostOps0
  after_results <;> rfl

/-! ### The second stretch: the degree where positive, one elsewhere -/

set_option maxHeartbeats 4000000 in
theorem s1_v21 : StableHlo.after hostOps0_1 V (Proc.devRef .tc main_v21) = (select (V (Proc.devRef .tc main_v20) : IVec S100000 1) (V (Proc.devRef .tc main_v16) : FVec Ideal S100000 .f32)
      (broadcastInDim S100000 ![] Facts₀.bcast_S_S100000 (id (V (Proc.devRef .tc main_cst_4) : FVec Ideal S_ .f32))) : FVec Ideal S100000 .f32) := by
  delta hostOps0_1
  after_results <;> rfl
set_option maxHeartbeats 4000000 in
theorem s1_v11 : StableHlo.after hostOps0_1 V (Proc.devRef .tc main_v11) = V (Proc.devRef .tc main_v11) := by
  delta hostOps0_1
  after_results <;> rfl
set_option maxHeartbeats 4000000 in
theorem s1_v12 : StableHlo.after hostOps0_1 V (Proc.devRef .tc main_v12) = V (Proc.devRef .tc main_v12) := by
  delta hostOps0_1
  after_results <;> rfl
set_option maxHeartbeats 4000000 in
theorem s1_v13 : StableHlo.after hostOps0_1 V (Proc.devRef .tc main_v13) = V (Proc.devRef .tc main_v13) := by
  delta hostOps0_1
  after_results <;> rfl
set_option maxHeartbeats 4000000 in
theorem s1_v18 : StableHlo.after hostOps0_1 V (Proc.devRef .tc main_v18) = V (Proc.devRef .tc main_v18) := by
  delta hostOps0_1
  after_results <;> rfl
set_option maxHeartbeats 4000000 in
theorem s1_arg0 : StableHlo.after hostOps0_1 V (Proc.devRef .tc main_arg0) = V (Proc.devRef .tc main_arg0) := by
  delta hostOps0_1
  after_results <;> rfl
set_option maxHeartbeats 4000000 in
theorem s1_arg3 : StableHlo.after hostOps0_1 V (Proc.devRef .tc main_arg3) = V (Proc.devRef .tc main_arg3) := by
  delta hostOps0_1
  after_results <;> rfl
set_option maxHeartbeats 4000000 in
theorem s1_arg4 : StableHlo.after hostOps0_1 V (Proc.devRef .tc main_arg4) = V (Proc.devRef .tc main_arg4) := by
  delta hostOps0_1
  after_results <;> rfl
set_option maxHeartbeats 4000000 in
theorem s1_arg5 : StableHlo.after hostOps0_1 V (Proc.devRef .tc main_arg5) = V (Proc.devRef .tc main_arg5) := by
  delta hostOps0_1
  after_results <;> rfl
set_option maxHeartbeats 4000000 in
theorem s1_arg6 : StableHlo.after hostOps0_1 V (Proc.devRef .tc main_arg6) = V (Proc.devRef .tc main_arg6) := by
  delta hostOps0_1
  after_results <;> rfl

/-! ### The third stretch: the inverse square root -/

set_option maxHeartbeats 4000000 in
theorem s2_v22 : StableHlo.after hostOps0_2 V (Proc.devRef .tc main_v22) = (Host.rsqrt (V (Proc.devRef .tc main_v21) : FVec Ideal S100000 .f32) : FVec Ideal S100000 .f32) := by
  delta hostOps0_2
  after_results <;> rfl
set_option maxHeartbeats 4000000 in
theorem s2_cst_5 : StableHlo.after hostOps0_2 V (Proc.devRef .tc main_cst_5) = (constant S_ .f32 0x00000000#32 : FVec Ideal S_ .f32) := by
  delta hostOps0_2
  after_results <;> rfl
set_option maxHeartbeats 4000000 in
theorem s2_v11 : StableHlo.after hostOps0_2 V (Proc.devRef .tc main_v11) = V (Proc.devRef .tc main_v11) := by
  delta hostOps0_2
  after_results <;> rfl
set_option maxHeartbeats 4000000 in
theorem s2_v12 : StableHlo.after hostOps0_2 V (Proc.devRef .tc main_v12) = V (Proc.devRef .tc main_v12) := by
  delta hostOps0_2
  after_results <;> rfl
set_option maxHeartbeats 4000000 in
theorem s2_v13 : StableHlo.after hostOps0_2 V (Proc.devRef .tc main_v13) = V (Proc.devRef .tc main_v13) := by
  delta hostOps0_2
  after_results <;> rfl
set_option maxHeartbeats 4000000 in
theorem s2_v18 : StableHlo.after hostOps0_2 V (Proc.devRef .tc main_v18) = V (Proc.devRef .tc main_v18) := by
  delta hostOps0_2
  after_results <;> rfl
set_option maxHeartbeats 4000000 in
theorem s2_arg0 : StableHlo.after hostOps0_2 V (Proc.devRef .tc main_arg0) = V (Proc.devRef .tc main_arg0) := by
  delta hostOps0_2
  after_results <;> rfl
set_option maxHeartbeats 4000000 in
theorem s2_arg3 : StableHlo.after hostOps0_2 V (Proc.devRef .tc main_arg3) = V (Proc.devRef .tc main_arg3) := by
  delta hostOps0_2
  after_results <;> rfl
set_option maxHeartbeats 4000000 in
theorem s2_arg4 : StableHlo.after hostOps0_2 V (Proc.devRef .tc main_arg4) = V (Proc.devRef .tc main_arg4) := by
  delta hostOps0_2
  after_results <;> rfl
set_option maxHeartbeats 4000000 in
theorem s2_arg5 : StableHlo.after hostOps0_2 V (Proc.devRef .tc main_arg5) = V (Proc.devRef .tc main_arg5) := by
  delta hostOps0_2
  after_results <;> rfl
set_option maxHeartbeats 4000000 in
theorem s2_arg6 : StableHlo.after hostOps0_2 V (Proc.devRef .tc main_arg6) = V (Proc.devRef .tc main_arg6) := by
  delta hostOps0_2
  after_results <;> rfl

/-! ### The fourth stretch: the inverse square root where the degree is positive, zero elsewhere -/

set_option maxHeartbeats 4000000 in
theorem s3_v23 : StableHlo.after hostOps0_3 V (Proc.devRef .tc main_v23) = (select (V (Proc.devRef .tc main_v18) : IVec S100000 1) (V (Proc.devRef .tc main_v22) : FVec Ideal S100000 .f32)
      (broadcastInDim S100000 ![] Facts₀.bcast_S_S100000 (id (V (Proc.devRef .tc main_cst_5) : FVec Ideal S_ .f32))) : FVec Ideal S100000 .f32) := by
  delta hostOps0_3
  after_results <;> rfl
set_option maxHeartbeats 4000000 in
theorem s3_v11 : StableHlo.after hostOps0_3 V (Proc.devRef .tc main_v11) = V (Proc.devRef .tc main_v11) := by
  delta hostOps0_3
  after_results <;> rfl
set_option maxHeartbeats 4000000 in
theorem s3_v12 : StableHlo.after hostOps0_3 V (Proc.devRef .tc main_v12) = V (Proc.devRef .tc main_v12) := by
  delta hostOps0_3
  after_results <;> rfl
set_option maxHeartbeats 4000000 in
theorem s3_v13 : StableHlo.after hostOps0_3 V (Proc.devRef .tc main_v13) = V (Proc.devRef .tc main_v13) := by
  delta hostOps0_3
  after_results <;> rfl
set_option maxHeartbeats 4000000 in
theorem s3_arg0 : StableHlo.after hostOps0_3 V (Proc.devRef .tc main_arg0) = V (Proc.devRef .tc main_arg0) := by
  delta hostOps0_3
  after_results <;> rfl
set_option maxHeartbeats 4000000 in
theorem s3_arg3 : StableHlo.after hostOps0_3 V (Proc.devRef .tc main_arg3) = V (Proc.devRef .tc main_arg3) := by
  delta hostOps0_3
  after_results <;> rfl
set_option maxHeartbeats 4000000 in
theorem s3_arg4 : StableHlo.after hostOps0_3 V (Proc.devRef .tc main_arg4) = V (Proc.devRef .tc main_arg4) := by
  delta hostOps0_3
  after_results <;> rfl
set_option maxHeartbeats 4000000 in
theorem s3_arg5 : StableHlo.after hostOps0_3 V (Proc.devRef .tc main_arg5) = V (Proc.devRef .tc main_arg5) := by
  delta hostOps0_3
  after_results <;> rfl
set_option maxHeartbeats 4000000 in
theorem s3_arg6 : StableHlo.after hostOps0_3 V (Proc.devRef .tc main_arg6) = V (Proc.devRef .tc main_arg6) := by
  delta hostOps0_3
  after_results <;> rfl

/-! ### The fifth stretch: the gathers along the wrapped indices, laid out 39936 × 128 -/

set_option maxHeartbeats 4000000 in
theorem s4_v49 : StableHlo.after hostOps0_4 V (Proc.devRef .tc main_v49) = Term.to2d (Host.gather gather_S100000_S5111808x1_S5111808_n_0_n_n_0_1_1 (V (Proc.devRef .tc main_v23) : FVec Ideal S100000 .f32) (Term.wrapIdx (V (Proc.devRef .tc main_v11)))) := by
  delta hostOps0_4
  after_results <;> rfl
set_option maxHeartbeats 4000000 in
theorem s4_v50 : StableHlo.after hostOps0_4 V (Proc.devRef .tc main_v50) = Term.to2d (Host.gather gather_S100000_S5111808x1_S5111808_n_0_n_n_0_1_1 (V (Proc.devRef .tc main_v23) : FVec Ideal S100000 .f32) (Term.wrapIdx (V (Proc.devRef .tc main_v12)))) := by
  delta hostOps0_4
  after_results <;> rfl
set_option maxHeartbeats 4000000 in
theorem s4_v51 : StableHlo.after hostOps0_4 V (Proc.devRef .tc main_v51) = Term.to2d (V (Proc.devRef .tc main_v13)) := by
  delta hostOps0_4
  after_results <;> rfl
set_option maxHeartbeats 4000000 in
theorem s4_v52 : StableHlo.after hostOps0_4 V (Proc.devRef .tc main_v52) = Term.to2d (Host.gather gather_S100000x1_S5111808x2_S5111808_n_01_n_n_01_1_11 (V (Proc.devRef .tc main_arg0) : FVec Ideal S100000x1 .f32)
      (concatenate S5111808x2 1
        [⟨S5111808x1, Term.wrapIdx (V (Proc.devRef .tc main_v11))⟩,
         ⟨S5111808x1, broadcastInDim S5111808x1 ![0] Facts₀.bcast_S5111808_S5111808x1_0
            (id (broadcastInDim S5111808 ![] Facts₀.bcast_S_S5111808 (constantI S_ 32 0#32)))⟩]
        Facts₀.concatenates_S5111808x1_S5111808x1_S5111808x2_d1)) := by
  delta hostOps0_4
  after_results <;> rfl
set_option maxHeartbeats 4000000 in
theorem s4_v11 : StableHlo.after hostOps0_4 V (Proc.devRef .tc main_v11) = V (Proc.devRef .tc main_v11) := by
  delta hostOps0_4
  after_results <;> rfl
set_option maxHeartbeats 4000000 in
theorem s4_v12 : StableHlo.after hostOps0_4 V (Proc.devRef .tc main_v12) = V (Proc.devRef .tc main_v12) := by
  delta hostOps0_4
  after_results <;> rfl
set_option maxHeartbeats 4000000 in
theorem s4_arg3 : StableHlo.after hostOps0_4 V (Proc.devRef .tc main_arg3) = V (Proc.devRef .tc main_arg3) := by
  delta hostOps0_4
  after_results <;> rfl
set_option maxHeartbeats 4000000 in
theorem s4_arg4 : StableHlo.after hostOps0_4 V (Proc.devRef .tc main_arg4) = V (Proc.devRef .tc main_arg4) := by
  delta hostOps0_4
  after_results <;> rfl
set_option maxHeartbeats 4000000 in
theorem s4_arg5 : StableHlo.after hostOps0_4 V (Proc.devRef .tc main_arg5) = V (Proc.devRef .tc main_arg5) := by
  delta hostOps0_4
  after_results <;> rfl
set_option maxHeartbeats 4000000 in
theorem s4_arg6 : StableHlo.after hostOps0_4 V (Proc.devRef .tc main_arg6) = V (Proc.devRef .tc main_arg6) := by
  delta hostOps0_4
  after_results <;> rfl

end Stretches

/-! ## The chain from the launch contents -/

section Chain
variable (m : (ℓ : Loc nD τ sig) → Buf (Elt Ideal) ℓ) (ρ : Dev nD → PrngReg) (c : Dev nD)

/-! ### After the first stretch -/

theorem w1_v11 : W1 (F := Ideal) m ρ c (Proc.devRef .tc main_v11) = Term.rowK (m ((c : Thread nD τ).loc main_arg1)) := s0_v11 (W0 (F := Ideal) m ρ c)
theorem w1_v12 : W1 (F := Ideal) m ρ c (Proc.devRef .tc main_v12) = Term.colK (m ((c : Thread nD τ).loc main_arg1)) := s0_v12 (W0 (F := Ideal) m ρ c)
theorem w1_v13 : W1 (F := Ideal) m ρ c (Proc.devRef .tc main_v13) = Term.wK (m ((c : Thread nD τ).loc main_arg2)) := s0_v13 (W0 (F := Ideal) m ρ c)
theorem w1_v16 : W1 (F := Ideal) m ρ c (Proc.devRef .tc main_v16) = Term.degK (m ((c : Thread nD τ).loc main_arg1)) (m ((c : Thread nD τ).loc main_arg2)) := s0_v16 (W0 (F := Ideal) m ρ c)
theorem w1_v18 : W1 (F := Ideal) m ρ c (Proc.devRef .tc main_v18) = (cmpf .ogt (Term.degK (m ((c : Thread nD τ).loc main_arg1)) (m ((c : Thread nD τ).loc main_arg2))) Term.zerosN) := s0_v18 (W0 (F := Ideal) m ρ c)
theorem w1_v20 : W1 (F := Ideal) m ρ c (Proc.devRef .tc main_v20) = (cmpf .ogt (Term.degK (m ((c : Thread nD τ).loc main_arg1)) (m ((c : Thread nD τ).loc main_arg2))) Term.zerosN) := s0_v20 (W0 (F := Ideal) m ρ c)
theorem w1_cst_4 : W1 (F := Ideal) m ρ c (Proc.devRef .tc main_cst_4) = (constant S_ .f32 0x3F800000#32 : FVec Ideal S_ .f32) := s0_cst_4 (W0 (F := Ideal) m ρ c)
theorem w1_arg0 : W1 (F := Ideal) m ρ c (Proc.devRef .tc main_arg0) = m ((c : Thread nD τ).loc main_arg0) := s0_arg0 (W0 (F := Ideal) m ρ c)
theorem w1_arg3 : W1 (F := Ideal) m ρ c (Proc.devRef .tc main_arg3) = m ((c : Thread nD τ).loc main_arg3) := s0_arg3 (W0 (F := Ideal) m ρ c)
theorem w1_arg4 : W1 (F := Ideal) m ρ c (Proc.devRef .tc main_arg4) = m ((c : Thread nD τ).loc main_arg4) := s0_arg4 (W0 (F := Ideal) m ρ c)
theorem w1_arg5 : W1 (F := Ideal) m ρ c (Proc.devRef .tc main_arg5) = m ((c : Thread nD τ).loc main_arg5) := s0_arg5 (W0 (F := Ideal) m ρ c)
theorem w1_arg6 : W1 (F := Ideal) m ρ c (Proc.devRef .tc main_arg6) = m ((c : Thread nD τ).loc main_arg6) := s0_arg6 (W0 (F := Ideal) m ρ c)

/-! ### After the second stretch -/

theorem w2_v21 : W2 (F := Ideal) m ρ c (Proc.devRef .tc main_v21) = (select (cmpf .ogt (Term.degK (m ((c : Thread nD τ).loc main_arg1)) (m ((c : Thread nD τ).loc main_arg2))) Term.zerosN) (Term.degK (m ((c : Thread nD τ).loc main_arg1)) (m ((c : Thread nD τ).loc main_arg2))) (broadcastInDim S100000 ![] Facts₀.bcast_S_S100000 (id (constant S_ .f32 0x3F800000#32 : FVec Ideal S_ .f32)))) := by
  refine (s1_v21 (W1 (F := Ideal) m ρ c)).trans ?_
  rw [w1_v20 m ρ c, w1_v16 m ρ c, w1_cst_4 m ρ c]
theorem w2_v11 : W2 (F := Ideal) m ρ c (Proc.devRef .tc main_v11) = Term.rowK (m ((c : Thread nD τ).loc main_arg1)) := (s1_v11 (W1 (F := Ideal) m ρ c)).trans (w1_v11 m ρ c)
theorem w2_v12 : W2 (F := Ideal) m ρ c (Proc.devRef .tc main_v12) = Term.colK (m ((c : Thread nD τ).loc main_arg1)) := (s1_v12 (W1 (F := Ideal) m ρ c)).trans (w1_v12 m ρ c)
theorem w2_v13 : W2 (F := Ideal) m ρ c (Proc.devRef .tc main_v13) = Term.wK (m ((c : Thread nD τ).loc main_arg2)) := (s1_v13 (W1 (F := Ideal) m ρ c)).trans (w1_v13 m ρ c)
theorem w2_v18 : W2 (F := Ideal) m ρ c (Proc.devRef .tc main_v18) = (cmpf .ogt (Term.degK (m ((c : Thread nD τ).loc main_arg1)) (m ((c : Thread nD τ).loc main_arg2))) Term.zerosN) := (s1_v18 (W1 (F := Ideal) m ρ c)).trans (w1_v18 m ρ c)
theorem w2_arg0 : W2 (F := Ideal) m ρ c (Proc.devRef .tc main_arg0) = m ((c : Thread nD τ).loc main_arg0) := (s1_arg0 (W1 (F := Ideal) m ρ c)).trans (w1_arg0 m ρ c)
theorem w2_arg3 : W2 (F := Ideal) m ρ c (Proc.devRef .tc main_arg3) = m ((c : Thread nD τ).loc main_arg3) := (s1_arg3 (W1 (F := Ideal) m ρ c)).trans (w1_arg3 m ρ c)
theorem w2_arg4 : W2 (F := Ideal) m ρ c (Proc.devRef .tc main_arg4) = m ((c : Thread nD τ).loc main_arg4) := (s1_arg4 (W1 (F := Ideal) m ρ c)).trans (w1_arg4 m ρ c)
theorem w2_arg5 : W2 (F := Ideal) m ρ c (Proc.devRef .tc main_arg5) = m ((c : Thread nD τ).loc main_arg5) := (s1_arg5 (W1 (F := Ideal) m ρ c)).trans (w1_arg5 m ρ c)
theorem w2_arg6 : W2 (F := Ideal) m ρ c (Proc.devRef .tc main_arg6) = m ((c : Thread nD τ).loc main_arg6) := (s1_arg6 (W1 (F := Ideal) m ρ c)).trans (w1_arg6 m ρ c)

/-! ### After the third stretch -/

theorem w3_v22 : W3 (F := Ideal) m ρ c (Proc.devRef .tc main_v22) = Host.rsqrt (select (cmpf .ogt (Term.degK (m ((c : Thread nD τ).loc main_arg1)) (m ((c : Thread nD τ).loc main_arg2))) Term.zerosN) (Term.degK (m ((c : Thread nD τ).loc main_arg1)) (m ((c : Thread nD τ).loc main_arg2))) (broadcastInDim S100000 ![] Facts₀.bcast_S_S100000 (id (constant S_ .f32 0x3F800000#32 : FVec Ideal S_ .f32)))) := by
  refine (s2_v22 (W2 (F := Ideal) m ρ c)).trans ?_
  rw [w2_v21 m ρ c]
theorem w3_cst_5 : W3 (F := Ideal) m ρ c (Proc.devRef .tc main_cst_5) = (constant S_ .f32 0x00000000#32 : FVec Ideal S_ .f32) := s2_cst_5 (W2 (F := Ideal) m ρ c)
theorem w3_v11 : W3 (F := Ideal) m ρ c (Proc.devRef .tc main_v11) = Term.rowK (m ((c : Thread nD τ).loc main_arg1)) := (s2_v11 (W2 (F := Ideal) m ρ c)).trans (w2_v11 m ρ c)
theorem w3_v12 : W3 (F := Ideal) m ρ c (Proc.devRef .tc main_v12) = Term.colK (m ((c : Thread nD τ).loc main_arg1)) := (s2_v12 (W2 (F := Ideal) m ρ c)).trans (w2_v12 m ρ c)
theorem w3_v13 : W3 (F := Ideal) m ρ c (Proc.devRef .tc main_v13) = Term.wK (m ((c : Thread nD τ).loc main_arg2)) := (s2_v13 (W2 (F := Ideal) m ρ c)).trans (w2_v13 m ρ c)
theorem w3_v18 : W3 (F := Ideal) m ρ c (Proc.devRef .tc main_v18) = (cmpf .ogt (Term.degK (m ((c : Thread nD τ).loc main_arg1)) (m ((c : Thread nD τ).loc main_arg2))) Term.zerosN) := (s2_v18 (W2 (F := Ideal) m ρ c)).trans (w2_v18 m ρ c)
theorem w3_arg0 : W3 (F := Ideal) m ρ c (Proc.devRef .tc main_arg0) = m ((c : Thread nD τ).loc main_arg0) := (s2_arg0 (W2 (F := Ideal) m ρ c)).trans (w2_arg0 m ρ c)
theorem w3_arg3 : W3 (F := Ideal) m ρ c (Proc.devRef .tc main_arg3) = m ((c : Thread nD τ).loc main_arg3) := (s2_arg3 (W2 (F := Ideal) m ρ c)).trans (w2_arg3 m ρ c)
theorem w3_arg4 : W3 (F := Ideal) m ρ c (Proc.devRef .tc main_arg4) = m ((c : Thread nD τ).loc main_arg4) := (s2_arg4 (W2 (F := Ideal) m ρ c)).trans (w2_arg4 m ρ c)
theorem w3_arg5 : W3 (F := Ideal) m ρ c (Proc.devRef .tc main_arg5) = m ((c : Thread nD τ).loc main_arg5) := (s2_arg5 (W2 (F := Ideal) m ρ c)).trans (w2_arg5 m ρ c)
theorem w3_arg6 : W3 (F := Ideal) m ρ c (Proc.devRef .tc main_arg6) = m ((c : Thread nD τ).loc main_arg6) := (s2_arg6 (W2 (F := Ideal) m ρ c)).trans (w2_arg6 m ρ c)

/-! ### After the fourth stretch: the node factor -/

theorem w4_v23 : W4 (F := Ideal) m ρ c (Proc.devRef .tc main_v23) = Term.dinvK (m ((c : Thread nD τ).loc main_arg1)) (m ((c : Thread nD τ).loc main_arg2)) := by
  refine (s3_v23 (W3 (F := Ideal) m ρ c)).trans ?_
  rw [w3_v18 m ρ c, w3_v22 m ρ c, w3_cst_5 m ρ c]
  rfl
theorem w4_v11 : W4 (F := Ideal) m ρ c (Proc.devRef .tc main_v11) = Term.rowK (m ((c : Thread nD τ).loc main_arg1)) := (s3_v11 (W3 (F := Ideal) m ρ c)).trans (w3_v11 m ρ c)
theorem w4_v12 : W4 (F := Ideal) m ρ c (Proc.devRef .tc main_v12) = Term.colK (m ((c : Thread nD τ).loc main_arg1)) := (s3_v12 (W3 (F := Ideal) m ρ c)).trans (w3_v12 m ρ c)
theorem w4_v13 : W4 (F := Ideal) m ρ c (Proc.devRef .tc main_v13) = Term.wK (m ((c : Thread nD τ).loc main_arg2)) := (s3_v13 (W3 (F := Ideal) m ρ c)).trans (w3_v13 m ρ c)
theorem w4_arg0 : W4 (F := Ideal) m ρ c (Proc.devRef .tc main_arg0) = m ((c : Thread nD τ).loc main_arg0) := (s3_arg0 (W3 (F := Ideal) m ρ c)).trans (w3_arg0 m ρ c)
theorem w4_arg3 : W4 (F := Ideal) m ρ c (Proc.devRef .tc main_arg3) = m ((c : Thread nD τ).loc main_arg3) := (s3_arg3 (W3 (F := Ideal) m ρ c)).trans (w3_arg3 m ρ c)
theorem w4_arg4 : W4 (F := Ideal) m ρ c (Proc.devRef .tc main_arg4) = m ((c : Thread nD τ).loc main_arg4) := (s3_arg4 (W3 (F := Ideal) m ρ c)).trans (w3_arg4 m ρ c)
theorem w4_arg5 : W4 (F := Ideal) m ρ c (Proc.devRef .tc main_arg5) = m ((c : Thread nD τ).loc main_arg5) := (s3_arg5 (W3 (F := Ideal) m ρ c)).trans (w3_arg5 m ρ c)
theorem w4_arg6 : W4 (F := Ideal) m ρ c (Proc.devRef .tc main_arg6) = m ((c : Thread nD τ).loc main_arg6) := (s3_arg6 (W3 (F := Ideal) m ρ c)).trans (w3_arg6 m ρ c)

/-! ### At the entry of the first pass over the edges -/

/-- The factor along the sources. -/
theorem entry_dr : W5 (F := Ideal) m ρ c (Proc.devRef .tc main_v49) = Term.to2d (Term.drK (m ((c : Thread nD τ).loc main_arg1)) (m ((c : Thread nD τ).loc main_arg2))) := by
  refine (s4_v49 (W4 (F := Ideal) m ρ c)).trans ?_
  rw [w4_v23 m ρ c, w4_v11 m ρ c]
  rfl
/-- The factor along the destinations. -/
theorem entry_dc : W5 (F := Ideal) m ρ c (Proc.devRef .tc main_v50) = Term.to2d (Term.dcK (m ((c : Thread nD τ).loc main_arg1)) (m ((c : Thread nD τ).loc main_arg2))) := by
  refine (s4_v50 (W4 (F := Ideal) m ρ c)).trans ?_
  rw [w4_v23 m ρ c, w4_v12 m ρ c]
  rfl
/-- The weights. -/
theorem entry_w : W5 (F := Ideal) m ρ c (Proc.devRef .tc main_v51) = Term.to2d (Term.wK (m ((c : Thread nD τ).loc main_arg2))) :=
  (s4_v51 (W4 (F := Ideal) m ρ c)).trans (congrArg Term.to2d (w4_v13 m ρ c))
/-- The input scalar along the sources. -/
theorem entry_xr : W5 (F := Ideal) m ρ c (Proc.devRef .tc main_v52) = Term.to2d (Term.xrK (m ((c : Thread nD τ).loc main_arg0)) (m ((c : Thread nD τ).loc main_arg1))) := by
  refine (s4_v52 (W4 (F := Ideal) m ρ c)).trans ?_
  rw [w4_arg0 m ρ c, w4_v11 m ρ c]
  rfl
/-- The padded sources and destinations. -/
theorem entry_row : W5 (F := Ideal) m ρ c (Proc.devRef .tc main_v11) = Term.rowK (m ((c : Thread nD τ).loc main_arg1)) := (s4_v11 (W4 (F := Ideal) m ρ c)).trans (w4_v11 m ρ c)
theorem entry_col : W5 (F := Ideal) m ρ c (Proc.devRef .tc main_v12) = Term.colK (m ((c : Thread nD τ).loc main_arg1)) := (s4_v12 (W4 (F := Ideal) m ρ c)).trans (w4_v12 m ρ c)
/-- The dense weights and biases are as launched. -/
theorem entry_arg3 : W5 (F := Ideal) m ρ c (Proc.devRef .tc main_arg3) = m ((c : Thread nD τ).loc main_arg3) := (s4_arg3 (W4 (F := Ideal) m ρ c)).trans (w4_arg3 m ρ c)
theorem entry_arg4 : W5 (F := Ideal) m ρ c (Proc.devRef .tc main_arg4) = m ((c : Thread nD τ).loc main_arg4) := (s4_arg4 (W4 (F := Ideal) m ρ c)).trans (w4_arg4 m ρ c)
theorem entry_arg5 : W5 (F := Ideal) m ρ c (Proc.devRef .tc main_arg5) = m ((c : Thread nD τ).loc main_arg5) := (s4_arg5 (W4 (F := Ideal) m ρ c)).trans (w4_arg5 m ρ c)
theorem entry_arg6 : W5 (F := Ideal) m ρ c (Proc.devRef .tc main_arg6) = m ((c : Thread nD τ).loc main_arg6) := (s4_arg6 (W4 (F := Ideal) m ρ c)).trans (w4_arg6 m ρ c)

end Chain

end Cert.KernelIdeal.Fold

end
-- ==== Proof.KerPost.lean ====
import proofs.«124087_j22385369546840_1_alg».proof.Proof.Gen.KernelIdeal.Frame
import proofs.«124087_j22385369546840_1_alg».proof.Proof.KerTerm
import Idealize.ShloMosaic.Lib.StableHlo.Run

set_option maxRecDepth 16384

/-!
# The host operations between and after the three tiled regions

After each region a short stretch of whole-array operations prepares the next one: the edge values are flattened
and summed per destination node, padded and laid out as a row; the dense weights are transposed or reshaped; the
node results are cut back to the nodes, gathered along the sources and laid out as edge blocks; the messages are
summed per destination node and the bias added.  Each stretch is read here as a function of ARBITRARY buffer contents
on entry, so that reading it never looks further back than the stretch itself; a buffer a stretch does not write
keeps its contents.
-/

noncomputable section

namespace Cert.KernelIdeal.Fold

open Cert.KernelIdeal Cert.KernelIdeal.Facts₀ Cert.KernelIdeal.Facts Idealize.ShloMosaic
  Idealize.ShloMosaic.TcCoe Idealize.SL.Sem Idealize.ShloMosaic.StableHlo

/-! ## After the edge-preparation region: the node aggregate as a padded row, and the dense weights as the node pass takes them -/

section Aggregate

set_option maxHeartbeats 4000000 in
/-- The scalar row: the scaled features flattened, summed per destination node into zeros, 352 zeros appended, laid
    out as one row. -/
theorem stretch1_S1row (V : Valuation τ sig (Elt Ideal)) :
    StableHlo.after (Gen.hostOps1 (F := Ideal)) V (Proc.devRef .tc main_v60)
      = shapeCast S1x100352
          (concatenate S100352 0
            [⟨S100000, Host.scatterAdd scatter_S100000_S5111808x1_S5111808_n_0_0_1 Term.zerosN
                (broadcastInDim S5111808x1 ![0] bcast_S5111808_S5111808x1_0 (V (Proc.devRef .tc main_v12)))
                (Term.to1d (V (Proc.devRef .tc main_v53_1)))⟩,
             ⟨S352, broadcastInDim S352 ![] bcast_S_S352 (constant S_ .f32 0x00000000#32)⟩]
            concatenates_S100000_S352_S100352_d0) shapeCasts_S100352_S1x100352 := by
  delta Gen.hostOps1
  after_results
  rfl

set_option maxHeartbeats 4000000 in
/-- The first weights, transposed to a column. -/
theorem stretch1_w1t (V : Valuation τ sig (Elt Ideal)) :
    StableHlo.after (Gen.hostOps1 (F := Ideal)) V (Proc.devRef .tc main_v61)
      = transpose S16x1 [1, 0] (V (Proc.devRef .tc main_arg3)) transposes_S1x16_S16x1_1_0 := by
  delta Gen.hostOps1
  after_results

set_option maxHeartbeats 4000000 in
/-- The first bias, as a column. -/
theorem stretch1_b1c (V : Valuation τ sig (Elt Ideal)) :
    StableHlo.after (Gen.hostOps1 (F := Ideal)) V (Proc.devRef .tc main_v62)
      = shapeCast S16x1 (V (Proc.devRef .tc main_arg4)) shapeCasts_S16_S16x1 := by
  delta Gen.hostOps1
  after_results
  rfl

set_option maxHeartbeats 4000000 in
/-- The second weights, transposed to a row. -/
theorem stretch1_w2t (V : Valuation τ sig (Elt Ideal)) :
    StableHlo.after (Gen.hostOps1 (F := Ideal)) V (Proc.devRef .tc main_v63)
      = transpose S1x16 [1, 0] (V (Proc.devRef .tc main_arg5)) transposes_S16x1_S1x16_1_0 := by
  delta Gen.hostOps1
  after_results

set_option maxHeartbeats 4000000 in
/-- The padded sources pass through untouched. -/
theorem stretch1_keeps_row (V : Valuation τ sig (Elt Ideal)) :
    StableHlo.after (Gen.hostOps1 (F := Ideal)) V (Proc.devRef .tc main_v11) = V (Proc.devRef .tc main_v11) := by
  delta Gen.hostOps1
  after_results

set_option maxHeartbeats 4000000 in
/-- The padded destinations pass through untouched. -/
theorem stretch1_keeps_col (V : Valuation τ sig (Elt Ideal)) :
    StableHlo.after (Gen.hostOps1 (F := Ideal)) V (Proc.devRef .tc main_v12) = V (Proc.devRef .tc main_v12) := by
  delta Gen.hostOps1
  after_results

set_option maxHeartbeats 4000000 in
/-- The edge coefficients pass through untouched. -/
theorem stretch1_keeps_norm (V : Valuation τ sig (Elt Ideal)) :
    StableHlo.after (Gen.hostOps1 (F := Ideal)) V (Proc.devRef .tc main_v53_0) = V (Proc.devRef .tc main_v53_0) := by
  delta Gen.hostOps1
  after_results

set_option maxHeartbeats 4000000 in
/-- The last bias passes through untouched. -/
theorem stretch1_keeps_arg6 (V : Valuation τ sig (Elt Ideal)) :
    StableHlo.after (Gen.hostOps1 (F := Ideal)) V (Proc.devRef .tc main_arg6) = V (Proc.devRef .tc main_arg6) := by
  delta Gen.hostOps1
  after_results

end Aggregate

/-! ## After the node region: the node results gathered along the sources, as edge blocks -/

section Gather

set_option maxHeartbeats 4000000 in
/-- The gathered node results: the row flattened and cut back to the 100000 nodes, gathered along the sources
    (a negative index wrapped once), laid out as edge blocks. -/
theorem stretch2_hg (V : Valuation τ sig (Elt Ideal)) :
    StableHlo.after (Gen.hostOps2 (F := Ideal)) V (Proc.devRef .tc main_v74)
      = Term.to2d (Host.gather gather_S100000_S5111808x1_S5111808_n_0_n_n_0_1_1
          (extractStridedSlice S100000 ![0]
            (shapeCast S100352 (V (Proc.devRef .tc main_v64)) shapeCasts_S1x100352_S100352) slices_S100352_S100000_0)
          (Term.wrapIdx (V (Proc.devRef .tc main_v11)))) := by
  delta Gen.hostOps2
  after_results
  rfl

set_option maxHeartbeats 4000000 in
/-- The padded destinations pass through untouched. -/
theorem stretch2_keeps_col (V : Valuation τ sig (Elt Ideal)) :
    StableHlo.after (Gen.hostOps2 (F := Ideal)) V (Proc.devRef .tc main_v12) = V (Proc.devRef .tc main_v12) := by
  delta Gen.hostOps2
  after_results

set_option maxHeartbeats 4000000 in
/-- The edge coefficients pass through untouched. -/
theorem stretch2_keeps_norm (V : Valuation τ sig (Elt Ideal)) :
    StableHlo.after (Gen.hostOps2 (F := Ideal)) V (Proc.devRef .tc main_v53_0) = V (Proc.devRef .tc main_v53_0) := by
  delta Gen.hostOps2
  after_results

set_option maxHeartbeats 4000000 in
/-- The last bias passes through untouched. -/
theorem stretch2_keeps_arg6 (V : Valuation τ sig (Elt Ideal)) :
    StableHlo.after (Gen.hostOps2 (F := Ideal)) V (Proc.devRef .tc main_arg6) = V (Proc.devRef .tc main_arg6) := by
  delta Gen.hostOps2
  after_results

end Gather

/-! ## After the message region: sum per destination node, add the bias, shape as a column -/

section Result

set_option maxHeartbeats 4000000 in
/-- The result column: the messages flattened, summed per destination node into zeros, the bias added. -/
theorem stretch3_out (V : Valuation τ sig (Elt Ideal)) :
    StableHlo.after (Gen.hostOps3 (F := Ideal)) V (Proc.devRef .tc main_v82)
      = shapeCast S100000x1
          (addf (Host.scatterAdd scatter_S100000_S5111808x1_S5111808_n_0_0_1 Term.zerosN
              (broadcastInDim S5111808x1 ![0] bcast_S5111808_S5111808x1_0 (V (Proc.devRef .tc main_v12)))
              (Term.to1d (V (Proc.devRef .tc main_v75))))
            (broadcastInDim S100000 ![0] bcast_S1_S100000_0 (V (Proc.devRef .tc main_arg6))))
          shapeCasts_S100000_S100000x1 := by
  delta Gen.hostOps3
  after_results
  rfl

end Result

end Cert.KernelIdeal.Fold

end
-- ==== Proof.KerFold.lean ====
/-
  The idealized kernel's result buffer as a function of its arguments: the fold through @main's segments, walked.

  Boundary by boundary, what the buffers a later segment reads hold, as the stage functions of the argument arrays:
  at the edge pass's exit the coefficient and the first layer's message; at the node pass's entry the per-node
  aggregate laid out in one row beside the transposed weights, at its exit the per-node scalar after both dense
  products; at the message pass's entry that scalar gathered along the sources, at its exit the second layer's
  message; at the end the aggregate of the message plus the bias.  The sources, the destinations, the coefficient
  and the last bias are carried unchanged from where they are made to where they are last read.
-/
import proofs.«124087_j22385369546840_1_alg».proof.Proof.KerAcross
import proofs.«124087_j22385369546840_1_alg».proof.Proof.KerPre
import proofs.«124087_j22385369546840_1_alg».proof.Proof.KerPost

set_option maxRecDepth 16384

noncomputable section

namespace Cert.KernelIdeal.Fold

open Cert.KernelIdeal Cert.KernelIdeal.Gen Cert.KernelIdeal.Facts₀ Cert.KernelIdeal.Facts Cert.KernelIdeal.Regions
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The edge pass's exit -/

theorem exit_edge_norm : W6 (F := Ideal) m ρ c (Proc.devRef .tc main_v53_0) = Term.normK (m ((c : Thread nD τ).loc main_arg1)) (m ((c : Thread nD τ).loc main_arg2)) := by
  rw [edge_norm]
  show normFn (W5 (F := Ideal) m ρ c (Proc.devRef .tc main_v49)) (W5 (F := Ideal) m ρ c (Proc.devRef .tc main_v50))
    (W5 (F := Ideal) m ρ c (Proc.devRef .tc main_v51)) = _
  rw [entry_dr, entry_dc, entry_w]; rfl

theorem exit_edge_s1 : W6 (F := Ideal) m ρ c (Proc.devRef .tc main_v53_1) = Term.s1K (m ((c : Thread nD τ).loc main_arg0)) (m ((c : Thread nD τ).loc main_arg1)) (m ((c : Thread nD τ).loc main_arg2)) := by
  rw [edge_s1]
  show scaledFn (W5 (F := Ideal) m ρ c (Proc.devRef .tc main_v49)) (W5 (F := Ideal) m ρ c (Proc.devRef .tc main_v50))
    (W5 (F := Ideal) m ρ c (Proc.devRef .tc main_v51)) (W5 (F := Ideal) m ρ c (Proc.devRef .tc main_v52)) = _
  rw [entry_dr, entry_dc, entry_w, entry_xr]; rfl

theorem exit_edge_row : W6 (F := Ideal) m ρ c (Proc.devRef .tc main_v11) = Term.rowK (m ((c : Thread nD τ).loc main_arg1)) := (edge_keeps_row m ρ c).trans (entry_row m ρ c)
theorem exit_edge_col : W6 (F := Ideal) m ρ c (Proc.devRef .tc main_v12) = Term.colK (m ((c : Thread nD τ).loc main_arg1)) := (edge_keeps_col m ρ c).trans (entry_col m ρ c)
theorem exit_edge_arg3 : W6 (F := Ideal) m ρ c (Proc.devRef .tc main_arg3) = (m ((c : Thread nD τ).loc main_arg3)) := (edge_keeps_arg3 m ρ c).trans (entry_arg3 m ρ c)
theorem exit_edge_arg4 : W6 (F := Ideal) m ρ c (Proc.devRef .tc main_arg4) = (m ((c : Thread nD τ).loc main_arg4)) := (edge_keeps_arg4 m ρ c).trans (entry_arg4 m ρ c)
theorem exit_edge_arg5 : W6 (F := Ideal) m ρ c (Proc.devRef .tc main_arg5) = (m ((c : Thread nD τ).loc main_arg5)) := (edge_keeps_arg5 m ρ c).trans (entry_arg5 m ρ c)
theorem exit_edge_arg6 : W6 (F := Ideal) m ρ c (Proc.devRef .tc main_arg6) = (m ((c : Thread nD τ).loc main_arg6)) := (edge_keeps_arg6 m ρ c).trans (entry_arg6 m ρ c)

/-! ## The node pass's entry and exit -/

theorem entry_node_S1row : W7 (F := Ideal) m ρ c (Proc.devRef .tc main_v60) = Term.S1rowK (m ((c : Thread nD τ).loc main_arg0)) (m ((c : Thread nD τ).loc main_arg1)) (m ((c : Thread nD τ).loc main_arg2)) :=
  (stretch1_S1row (W6 (F := Ideal) m ρ c)).trans (by rw [exit_edge_col, exit_edge_s1]; rfl)
theorem entry_node_w1t : W7 (F := Ideal) m ρ c (Proc.devRef .tc main_v61) = Term.w1tK (m ((c : Thread nD τ).loc main_arg3)) :=
  (stretch1_w1t (W6 (F := Ideal) m ρ c)).trans (by rw [exit_edge_arg3]; rfl)
theorem entry_node_b1c : W7 (F := Ideal) m ρ c (Proc.devRef .tc main_v62) = Term.b1cK (m ((c : Thread nD τ).loc main_arg4)) :=
  (stretch1_b1c (W6 (F := Ideal) m ρ c)).trans (by rw [exit_edge_arg4]; rfl)
theorem entry_node_w2t : W7 (F := Ideal) m ρ c (Proc.devRef .tc main_v63) = Term.w2tK (m ((c : Thread nD τ).loc main_arg5)) :=
  (stretch1_w2t (W6 (F := Ideal) m ρ c)).trans (by rw [exit_edge_arg5]; rfl)
theorem entry_node_row : W7 (F := Ideal) m ρ c (Proc.devRef .tc main_v11) = Term.rowK (m ((c : Thread nD τ).loc main_arg1)) :=
  (stretch1_keeps_row (W6 (F := Ideal) m ρ c)).trans (exit_edge_row m ρ c)
theorem entry_node_col : W7 (F := Ideal) m ρ c (Proc.devRef .tc main_v12) = Term.colK (m ((c : Thread nD τ).loc main_arg1)) :=
  (stretch1_keeps_col (W6 (F := Ideal) m ρ c)).trans (exit_edge_col m ρ c)
theorem entry_node_norm : W7 (F := Ideal) m ρ c (Proc.devRef .tc main_v53_0) = Term.normK (m ((c : Thread nD τ).loc main_arg1)) (m ((c : Thread nD τ).loc main_arg2)) :=
  (stretch1_keeps_norm (W6 (F := Ideal) m ρ c)).trans (exit_edge_norm m ρ c)
theorem entry_node_arg6 : W7 (F := Ideal) m ρ c (Proc.devRef .tc main_arg6) = (m ((c : Thread nD τ).loc main_arg6)) :=
  (stretch1_keeps_arg6 (W6 (F := Ideal) m ρ c)).trans (exit_edge_arg6 m ρ c)

theorem exit_node_h2 : W8 (F := Ideal) m ρ c (Proc.devRef .tc main_v64) = Term.h2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [node_h2]
  show nodeFn (W7 (F := Ideal) m ρ c (Proc.devRef .tc main_v60)) (W7 (F := Ideal) m ρ c (Proc.devRef .tc main_v61))
    (W7 (F := Ideal) m ρ c (Proc.devRef .tc main_v62)) (W7 (F := Ideal) m ρ c (Proc.devRef .tc main_v63)) = _
  rw [entry_node_S1row, entry_node_w1t, entry_node_b1c, entry_node_w2t]; rfl
theorem exit_node_row : W8 (F := Ideal) m ρ c (Proc.devRef .tc main_v11) = Term.rowK (m ((c : Thread nD τ).loc main_arg1)) := (node_keeps_row m ρ c).trans (entry_node_row m ρ c)
theorem exit_node_col : W8 (F := Ideal) m ρ c (Proc.devRef .tc main_v12) = Term.colK (m ((c : Thread nD τ).loc main_arg1)) := (node_keeps_col m ρ c).trans (entry_node_col m ρ c)
theorem exit_node_norm : W8 (F := Ideal) m ρ c (Proc.devRef .tc main_v53_0) = Term.normK (m ((c : Thread nD τ).loc main_arg1)) (m ((c : Thread nD τ).loc main_arg2)) := (node_keeps_norm m ρ c).trans (entry_node_norm m ρ c)
theorem exit_node_arg6 : W8 (F := Ideal) m ρ c (Proc.devRef .tc main_arg6) = (m ((c : Thread nD τ).loc main_arg6)) := (node_keeps_arg6 m ρ c).trans (entry_node_arg6 m ρ c)

/-! ## The message pass's entry and exit -/

theorem entry_msg_hg : W9 (F := Ideal) m ρ c (Proc.devRef .tc main_v74) = Term.hgK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (stretch2_hg (W8 (F := Ideal) m ρ c)).trans (by rw [exit_node_h2, exit_node_row]; rfl)
theorem entry_msg_col : W9 (F := Ideal) m ρ c (Proc.devRef .tc main_v12) = Term.colK (m ((c : Thread nD τ).loc main_arg1)) :=
  (stretch2_keeps_col (W8 (F := Ideal) m ρ c)).trans (exit_node_col m ρ c)
theorem entry_msg_norm : W9 (F := Ideal) m ρ c (Proc.devRef .tc main_v53_0) = Term.normK (m ((c : Thread nD τ).loc main_arg1)) (m ((c : Thread nD τ).loc main_arg2)) :=
  (stretch2_keeps_norm (W8 (F := Ideal) m ρ c)).trans (exit_node_norm m ρ c)
theorem entry_msg_arg6 : W9 (F := Ideal) m ρ c (Proc.devRef .tc main_arg6) = (m ((c : Thread nD τ).loc main_arg6)) :=
  (stretch2_keeps_arg6 (W8 (F := Ideal) m ρ c)).trans (exit_node_arg6 m ρ c)

theorem exit_msg_out : W10 (F := Ideal) m ρ c (Proc.devRef .tc main_v75) = Term.msgK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [msg_out]
  show msgFn (W9 (F := Ideal) m ρ c (Proc.devRef .tc main_v53_0)) (W9 (F := Ideal) m ρ c (Proc.devRef .tc main_v74)) = _
  rw [entry_msg_norm, entry_msg_hg]; rfl
theorem exit_msg_col : W10 (F := Ideal) m ρ c (Proc.devRef .tc main_v12) = Term.colK (m ((c : Thread nD τ).loc main_arg1)) := (msg_keeps_col m ρ c).trans (entry_msg_col m ρ c)
theorem exit_msg_arg6 : W10 (F := Ideal) m ρ c (Proc.devRef .tc main_arg6) = (m ((c : Thread nD τ).loc main_arg6)) := (msg_keeps_arg6 m ρ c).trans (entry_msg_arg6 m ρ c)

/-! ## The result -/

/-- The last boundary's contents at the result buffer: the result function of the seven argument arrays. -/
theorem result_eq : W11 (F := Ideal) m ρ c (Proc.devRef .tc main_v82) = Term.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (stretch3_out (W10 (F := Ideal) m ρ c)).trans (by rw [exit_msg_col, exit_msg_out, exit_msg_arg6]; rfl)

end Cert.KernelIdeal.Fold

end
-- ==== Proof.LibRowGather.lean ====
/-
  Row gathers and row scatters read at an index.

  `x[idx]` of a matrix `x : [N, F]` (or a vector `x : [N]`) at a column of integers `idx : [E, 1]` is a gather whose
  result row `e` is row `clamp (idx e)` of the operand: the start index is read signed, a negative one becomes `0`, and
  it is cut at `N - 1`. The matrix form and the vector form clamp in the same way, so the row a matrix gather reads is the
  entry a vector gather with the same indices reads.  A scatter of rows `u : [E, F]` into `[N, F]` at such a column
  sends update `(e, f)` to `(idx e, f)` when `0 ≤ idx e < N`, and drops it otherwise: nothing is clamped there.
-/
import Idealize.ShloMosaic.PureOps.ShapeOps
import Idealize.ShloMosaic.Lib.ValueIdx

noncomputable section

namespace Cert.RowIndexing

open Idealize.ShloMosaic Idealize.ShloMosaic.ValueIdx

/-- The dimension numbers of `x[idx]` for a matrix `x : [N, F]` and a column of indices `[E, 1]`. -/
abbrev rowGatherDims (N E F : Nat)
    (wf : GatherDims.WF (⟨2, ![N, F]⟩ : Shape) ⟨2, ![E, 1]⟩ ⟨2, ![E, F]⟩ [1] [0] [] [0] [] 1 ![1, F]) :
    GatherDims (⟨2, ![N, F]⟩ : Shape) ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x[idx]` for a vector `x : [N]` and a column of indices `[E, 1]`. -/
abbrev vecGatherDims (N E : Nat)
    (wf : GatherDims.WF (⟨1, ![N]⟩ : Shape) ⟨2, ![E, 1]⟩ ⟨1, ![E]⟩ [] [0] [] [0] [] 1 ![1]) :
    GatherDims (⟨1, ![N]⟩ : Shape) ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row an index column selects at position `e`: the entry read signed, cut to `[0, N - 1]`. -/
def clampRow {N E w : Nat} (hN : 0 < N) (idx : IVec (⟨2, ![E, 1]⟩ : Shape) w) (e : Fin E) : Fin N :=
  ⟨min (idx (ix2 e (0 : Fin 1))).toInt.toNat (N - 1), by omega⟩

/-- The operand index a matrix gather reads at `(e, f)`: row `clampRow idx e`, column `f`. -/
theorem rowGather_operandIdx {N E F w : Nat} (hN : 0 < N) (wf)
    (idx : IVec (⟨2, ![E, 1]⟩ : Shape) w) (e : Fin E) (f : Fin F) :
    (rowGatherDims N E F wf).operandIdx (ix2 e f) idx = ix2 (clampRow hN idx e) f := by
  funext a
  refine Fin.ext ?_
  have hsi : ∀ c, (rowGatherDims N E F wf).siIdx (ix2 e f) c = ix2 e (0 : Fin 1) := by
    intro c
    funext b; refine Fin.ext ?_
    match b with
    | ⟨0, _⟩ => rfl
    | ⟨1, _⟩ => show c.val = 0; have := c.isLt; exact Nat.lt_one_iff.mp this
  match a with
  | ⟨0, h0⟩ =>
    show (rowGatherDims N E F wf).start (ix2 e f) idx ⟨0, h0⟩ + (rowGatherDims N E F wf).batchCoord (ix2 e f) ⟨0, h0⟩
      + (rowGatherDims N E F wf).offCoord (ix2 e f) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E F wf).startIndexMap from List.mem_singleton.mpr rfl)]
    rw [hsi]
    rfl
  | ⟨1, h1⟩ =>
    show (rowGatherDims N E F wf).start (ix2 e f) idx ⟨1, h1⟩ + (rowGatherDims N E F wf).batchCoord (ix2 e f) ⟨1, h1⟩
      + (rowGatherDims N E F wf).offCoord (ix2 e f) ⟨1, h1⟩ = _
    rw [GatherDims.batchCoord_eq_zero _ _ _ List.not_mem_nil]
    unfold GatherDims.start
    rw [dif_neg (show ¬ (⟨1, h1⟩ : Fin 2) ∈ (rowGatherDims N E F wf).startIndexMap from
      fun h => absurd (congrArg Fin.val (List.mem_singleton.mp h)) Nat.one_ne_zero)]
    simp only [Nat.add_zero, Nat.zero_add]
    rfl

/-- A matrix gather at `(e, f)` reads row `clampRow idx e`, column `f`. -/
theorem rowGather_apply {N E F w : Nat} {α : Type} (hN : 0 < N) (wf)
    (x : (⟨2, ![N, F]⟩ : Shape).Idx → α) (idx : IVec (⟨2, ![E, 1]⟩ : Shape) w) (e : Fin E) (f : Fin F) :
    Host.gather (rowGatherDims N E F wf) x idx (ix2 e f) = x (ix2 (clampRow hN idx e) f) :=
  congrArg x (rowGather_operandIdx hN wf idx e f)

/-- The operand index a vector gather reads at `e`: entry `clampRow idx e`. -/
theorem vecGather_operandIdx {N E w : Nat} (hN : 0 < N) (wf)
    (idx : IVec (⟨2, ![E, 1]⟩ : Shape) w) (e : Fin E) :
    (vecGatherDims N E wf).operandIdx (ix1 e) idx = ix1 (clampRow hN idx e) := by
  funext a
  obtain rfl : a = 0 := Subsingleton.elim _ _
  refine Fin.ext ?_
  have hsi : ∀ c, (vecGatherDims N E wf).siIdx (ix1 e) c = ix2 e (0 : Fin 1) := by
    intro c
    funext b; refine Fin.ext ?_
    match b with
    | ⟨0, _⟩ => rfl
    | ⟨1, _⟩ => show c.val = 0; have := c.isLt; exact Nat.lt_one_iff.mp this
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [hsi]
  rfl

/-- A vector gather at `e` reads entry `clampRow idx e`. -/
theorem vecGather_apply {N E w : Nat} {α : Type} (hN : 0 < N) (wf)
    (x : (⟨1, ![N]⟩ : Shape).Idx → α) (idx : IVec (⟨2, ![E, 1]⟩ : Shape) w) (e : Fin E) :
    Host.gather (vecGatherDims N E wf) x idx (ix1 e) = x (ix1 (clampRow hN idx e)) :=
  congrArg x (vecGather_operandIdx hN wf idx e)

/-- The dimension numbers of a scatter of rows `[E, F]` into `[N, F]` at a column of indices `[E, 1]`. -/
abbrev rowScatterDims (N E F : Nat)
    (wf : ScatterDims.WF (⟨2, ![N, F]⟩ : Shape) ⟨2, ![E, 1]⟩ ⟨2, ![E, F]⟩ [1] [0] [0] 1) :
    ScatterDims (⟨2, ![N, F]⟩ : Shape) ⟨2, ![E, 1]⟩ ⟨2, ![E, F]⟩ where
  updateWindowDims := [1]
  insertedWindowDims := [0]
  scatterDimsToOperandDims := [0]
  indexVectorDim := 1
  wf := wf

/-- Where update row `e` lands, when it lands: the row its index names, read signed and NOT clamped. -/
theorem rowScatter_row {N E F w : Nat} (wf) (idx : IVec (⟨2, ![E, 1]⟩ : Shape) w) (j : (⟨2, ![E, F]⟩ : Shape).Idx)
    (i : (⟨2, ![N, F]⟩ : Shape).Idx) (h : (rowScatterDims N E F wf).resultIdx? j idx = some i) :
    (idx (ix2 (j 0) (0 : Fin 1))).toInt = ((i 0).val : Int) := by
  unfold ScatterDims.resultIdx? at h
  split at h
  · rename_i hall
    have hi := Option.some.inj h
    have h0 := congrArg (fun k : (⟨2, ![N, F]⟩ : Shape).Idx => (k 0).val) hi
    simp only at h0
    have hw : (rowScatterDims N E F wf).window j 0 = 0 := by
      unfold ScatterDims.window
      rw [dif_neg (fun hk => by
        have hk' : (0 : Fin 2) ∈ (List.finRange 2).filter (fun a : Fin 2 => a ∉ [(0 : Fin 2)]) := hk
        revert hk'; decide)]
    have hs : (rowScatterDims N E F wf).start j idx 0 = (idx (ix2 (j 0) (0 : Fin 1))).toInt := by
      unfold ScatterDims.start
      rw [dif_pos (show (0 : Fin 2) ∈ (rowScatterDims N E F wf).scatterDimsToOperandDims from List.mem_singleton.mpr rfl)]
      congr 2
      funext b; refine Fin.ext ?_
      match b with
      | ⟨0, _⟩ => rfl
      | ⟨1, _⟩ => rfl
    have hr := hall 0
    rw [hw, hs] at hr
    rw [hw, hs] at h0
    omega
  · exact absurd h (by simp)

end Cert.RowIndexing

end
-- ==== Proof.LibRowScatterSum.lean ====
/-
  A scatter-add of rows read at an entry, over the extended reals.

  A scatter of update rows `u : [E, F]` into `[N, F]` at a column of integers `idx : [E, 1]` sends update `(e, c)` to
  `(idx e, c)` when `0 ≤ idx e < N` and drops it otherwise.  So the update entries that land on `(n, f)` are exactly
  the entries `(e, f)` of the rows `e` whose index, read signed, is `n`; the set of those rows does not depend on the
  column `f`, nor on the width `F`.  With the host's accumulating scatter this makes the result at `(n, f)` the operand
  there plus the sum of `u (e, f)` over those rows.
-/
import proofs.«124087_j22385369546840_1_alg».proof.Proof.LibRowGather
import Idealize.ShloMosaic.PureOps.Ideal

noncomputable section

namespace Cert.RowIndexing

open Idealize.ShloMosaic Idealize.ShloMosaic.ValueIdx

/-- The rows of an index column that name node `n`: the index read signed equals `n`. -/
def rowsAt {N E w : Nat} (idx : IVec (⟨2, ![E, 1]⟩ : Shape) w) (n : Fin N) : Finset (Fin E) :=
  Finset.univ.filter fun e => (idx (ix2 e (0 : Fin 1))).toInt = ((n.val : Nat) : Int)

/-- Update `(e, c)` lands on `(n, f)` exactly when row `e` names `n` and the column is kept. -/
theorem rowScatter_lands_iff {N E F w : Nat} (wf) (idx : IVec (⟨2, ![E, 1]⟩ : Shape) w)
    (e : Fin E) (c : Fin F) (n : Fin N) (f : Fin F) :
    (rowScatterDims N E F wf).resultIdx? (ix2 e c) idx = some (ix2 n f)
      ↔ (idx (ix2 e (0 : Fin 1))).toInt = ((n.val : Nat) : Int) ∧ c = f := by
  have hw0 : (rowScatterDims N E F wf).window (ix2 e c) 0 = 0 := by
    unfold ScatterDims.window
    rw [dif_neg (fun hk => by
      have hk' : (0 : Fin 2) ∈ (List.finRange 2).filter (fun a : Fin 2 => a ∉ [(0 : Fin 2)]) := hk
      revert hk'; decide)]
  have hs0 : (rowScatterDims N E F wf).start (ix2 e c) idx 0 = (idx (ix2 e (0 : Fin 1))).toInt := by
    unfold ScatterDims.start
    rw [dif_pos (show (0 : Fin 2) ∈ (rowScatterDims N E F wf).scatterDimsToOperandDims from List.mem_singleton.mpr rfl)]
    congr 2
    funext b; refine Fin.ext ?_
    match b with
    | ⟨0, _⟩ => rfl
    | ⟨1, _⟩ => rfl
  have hs1 : (rowScatterDims N E F wf).start (ix2 e c) idx 1 = 0 := by
    unfold ScatterDims.start
    rw [dif_neg (show ¬ (1 : Fin 2) ∈ (rowScatterDims N E F wf).scatterDimsToOperandDims from
      fun h => absurd (congrArg Fin.val (List.mem_singleton.mp h)) Nat.one_ne_zero)]
  have hw1 : (rowScatterDims N E F wf).window (ix2 e c) 1 = c.val := by
    have hmem : (1 : Fin 2) ∈ (rowScatterDims N E F wf).sKept :=
      (by decide : (1 : Fin 2) ∈ (List.finRange 2).filter (fun a : Fin 2 => a ∉ [(0 : Fin 2)]))
    unfold ScatterDims.window
    rw [dif_pos hmem]
    rfl
  unfold ScatterDims.resultIdx?
  constructor
  · intro h
    split at h
    · rename_i hall
      have hi := Option.some.inj h
      have h0 := congrArg (fun k : (⟨2, ![N, F]⟩ : Shape).Idx => (k 0).val) hi
      have h1 := congrArg (fun k : (⟨2, ![N, F]⟩ : Shape).Idx => (k 1).val) hi
      simp only at h0 h1
      have r0 := hall 0
      rw [hs0, hw0] at r0 h0
      rw [hs1, hw1] at h1
      refine ⟨?_, Fin.ext ?_⟩
      · have : ((ix2 n f : (⟨2, ![N, F]⟩ : Shape).Idx) 0).val = n.val := rfl
        omega
      · have : ((ix2 n f : (⟨2, ![N, F]⟩ : Shape).Idx) 1).val = f.val := rfl
        omega
    · exact absurd h (by simp)
  · rintro ⟨hn, rfl⟩
    have hall : ∀ a, 0 ≤ (rowScatterDims N E F wf).start (ix2 e c) idx a + (rowScatterDims N E F wf).window (ix2 e c) a
        ∧ (rowScatterDims N E F wf).start (ix2 e c) idx a + (rowScatterDims N E F wf).window (ix2 e c) a
          < (⟨2, ![N, F]⟩ : Shape).size a := by
      intro a
      match a with
      | ⟨0, _⟩ =>
        show 0 ≤ (rowScatterDims N E F wf).start (ix2 e c) idx 0 + (rowScatterDims N E F wf).window (ix2 e c) 0
          ∧ (rowScatterDims N E F wf).start (ix2 e c) idx 0 + (rowScatterDims N E F wf).window (ix2 e c) 0 < (N : Int)
        rw [hs0, hw0, hn]; have := n.isLt; omega
      | ⟨1, _⟩ =>
        show 0 ≤ (rowScatterDims N E F wf).start (ix2 e c) idx 1 + (rowScatterDims N E F wf).window (ix2 e c) 1
          ∧ (rowScatterDims N E F wf).start (ix2 e c) idx 1 + (rowScatterDims N E F wf).window (ix2 e c) 1 < (F : Int)
        rw [hs1, hw1]; have := c.isLt; omega
    rw [dif_pos hall]
    refine congrArg some ?_
    funext a; refine Fin.ext ?_
    match a with
    | ⟨0, _⟩ =>
      show ((rowScatterDims N E F wf).start (ix2 e c) idx 0 + (rowScatterDims N E F wf).window (ix2 e c) 0).toNat = n.val
      rw [hs0, hw0, hn]; omega
    | ⟨1, _⟩ =>
      show ((rowScatterDims N E F wf).start (ix2 e c) idx 1 + (rowScatterDims N E F wf).window (ix2 e c) 1).toNat = c.val
      rw [hs1, hw1]; omega

/-- The host's accumulating scatter of rows at `(n, f)`: the operand there plus the sum over the rows naming `n` of
    their entry in column `f`. -/
theorem rowScatterAdd_apply {N E F w : Nat} (wf) (x : (⟨2, ![N, F]⟩ : Shape).Idx → EReal)
    (idx : IVec (⟨2, ![E, 1]⟩ : Shape) w) (u : (⟨2, ![E, F]⟩ : Shape).Idx → EReal) (n : Fin N) (f : Fin F) :
    Ideal.hostScatterAdd (rowScatterDims N E F wf) x idx u (ix2 n f)
      = x (ix2 n f) + ∑ e ∈ rowsAt idx n, u (ix2 e f) := by
  unfold Ideal.hostScatterAdd
  refine congrArg (x (ix2 n f) + ·) ?_
  symm
  refine Finset.sum_bij (fun e _ => ix2 e f) ?_ ?_ ?_ ?_
  · intro e he
    have he' := (Finset.mem_filter.mp he).2
    exact Finset.mem_filter.mpr ⟨Finset.mem_univ _, (rowScatter_lands_iff wf idx e f n f).mpr ⟨he', rfl⟩⟩
  · intro e _ e' _ h
    exact congrFun h 0
  · intro j hj
    have hj' := (Finset.mem_filter.mp hj).2
    rw [eq_ix2 j] at hj'
    obtain ⟨h0, h1⟩ := (rowScatter_lands_iff wf idx (j 0) (j 1) n f).mp hj'
    refine ⟨j 0, Finset.mem_filter.mpr ⟨Finset.mem_univ _, h0⟩, ?_⟩
    rw [eq_ix2 j]
    exact congrArg (ix2 (j 0)) h1.symm
  · intro e _
    rfl

end Cert.RowIndexing

end
-- ==== Proof.LibVecScatterSum.lean ====
/-
  A scatter-add of a vector read at an entry, over the extended reals.

  A scatter of updates `u : [E]` into `[N]` at a column of integers `idx : [E, 1]` sends update `e` to entry `idx e`
  when `0 ≤ idx e < N` and drops it otherwise: nothing is clamped.  So the updates that land on `n` are exactly those
  whose index, read signed, is `n`: the same set of rows as for a scatter of rows at the same column.  With the host's
  accumulating scatter the result at `n` is the operand there plus the sum of `u e` over those rows.
-/
import proofs.«124087_j22385369546840_1_alg».proof.Proof.LibRowScatterSum
import Idealize.ShloMosaic.PureOps.Ideal

noncomputable section

namespace Cert.RowIndexing

open Idealize.ShloMosaic Idealize.ShloMosaic.ValueIdx

/-- The dimension numbers of a scatter of a vector `[E]` into `[N]` at a column of indices `[E, 1]`. -/
abbrev vecScatterDims (N E : Nat)
    (wf : ScatterDims.WF (⟨1, ![N]⟩ : Shape) ⟨2, ![E, 1]⟩ ⟨1, ![E]⟩ [] [0] [0] 1) :
    ScatterDims (⟨1, ![N]⟩ : Shape) ⟨2, ![E, 1]⟩ ⟨1, ![E]⟩ where
  updateWindowDims := []
  insertedWindowDims := [0]
  scatterDimsToOperandDims := [0]
  indexVectorDim := 1
  wf := wf

/-- Update `e` lands on `n` exactly when row `e` of the index column names `n`. -/
theorem vecScatter_lands_iff {N E w : Nat} (wf) (idx : IVec (⟨2, ![E, 1]⟩ : Shape) w)
    (e : Fin E) (n : Fin N) :
    (vecScatterDims N E wf).resultIdx? (ix1 e) idx = some (ix1 n)
      ↔ (idx (ix2 e (0 : Fin 1))).toInt = ((n.val : Nat) : Int) := by
  have hw0 : (vecScatterDims N E wf).window (ix1 e) 0 = 0 := by
    unfold ScatterDims.window
    rw [dif_neg (fun hk => by
      have hk' : (0 : Fin 1) ∈ (List.finRange 1).filter (fun a : Fin 1 => a ∉ [(0 : Fin 1)]) := hk
      revert hk'; decide)]
  have hs0 : (vecScatterDims N E wf).start (ix1 e) idx 0 = (idx (ix2 e (0 : Fin 1))).toInt := by
    unfold ScatterDims.start
    rw [dif_pos (show (0 : Fin 1) ∈ (vecScatterDims N E wf).scatterDimsToOperandDims from List.mem_singleton.mpr rfl)]
    congr 2
    funext b; refine Fin.ext ?_
    match b with
    | ⟨0, _⟩ => rfl
    | ⟨1, _⟩ => rfl
  unfold ScatterDims.resultIdx?
  constructor
  · intro h
    split at h
    · rename_i hall
      have hi := Option.some.inj h
      have h0 := congrArg (fun k : (⟨1, ![N]⟩ : Shape).Idx => (k 0).val) hi
      simp only at h0
      have r0 := hall 0
      rw [hs0, hw0] at r0 h0
      have : ((ix1 n : (⟨1, ![N]⟩ : Shape).Idx) 0).val = n.val := rfl
      omega
    · exact absurd h (by simp)
  · intro hn
    have hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      obtain rfl : a = 0 := Subsingleton.elim _ _
      show 0 ≤ (vecScatterDims N E wf).start (ix1 e) idx 0 + (vecScatterDims N E wf).window (ix1 e) 0
        ∧ (vecScatterDims N E wf).start (ix1 e) idx 0 + (vecScatterDims N E wf).window (ix1 e) 0 < (N : Int)
      rw [hs0, hw0, hn]; have := n.isLt; omega
    rw [dif_pos hall]
    refine congrArg some ?_
    funext a; refine Fin.ext ?_
    obtain rfl : a = 0 := Subsingleton.elim _ _
    show ((vecScatterDims N E wf).start (ix1 e) idx 0 + (vecScatterDims N E wf).window (ix1 e) 0).toNat = n.val
    rw [hs0, hw0, hn]; omega

/-- The host's accumulating scatter of a vector at `n`: the operand there plus the sum of the updates of the rows
    naming `n`. -/
theorem vecScatterAdd_apply {N E w : Nat} (wf) (x : (⟨1, ![N]⟩ : Shape).Idx → EReal)
    (idx : IVec (⟨2, ![E, 1]⟩ : Shape) w) (u : (⟨1, ![E]⟩ : Shape).Idx → EReal) (n : Fin N) :
    Ideal.hostScatterAdd (vecScatterDims N E wf) x idx u (ix1 n)
      = x (ix1 n) + ∑ e ∈ rowsAt idx n, u (ix1 e) := by
  unfold Ideal.hostScatterAdd
  refine congrArg (x (ix1 n) + ·) ?_
  symm
  refine Finset.sum_bij (fun e _ => ix1 e) ?_ ?_ ?_ ?_
  · intro e he
    have he' := (Finset.mem_filter.mp he).2
    exact Finset.mem_filter.mpr ⟨Finset.mem_univ _, (vecScatter_lands_iff wf idx e n).mpr he'⟩
  · intro e _ e' _ h
    exact congrFun h 0
  · intro j hj
    have hj' := (Finset.mem_filter.mp hj).2
    have hje : j = ix1 (j 0) := by
      funext a
      obtain rfl : a = 0 := Subsingleton.elim _ _
      rfl
    rw [hje] at hj'
    have h0 := (vecScatter_lands_iff wf idx (j 0) n).mp hj'
    exact ⟨j 0, Finset.mem_filter.mpr ⟨Finset.mem_univ _, h0⟩, hje.symm⟩
  · intro e _
    rfl

end Cert.RowIndexing

end
-- ==== Proof.GcnSpec.lean ====
/-
  Two graph-convolution layers with symmetric normalisation, in the two arrangements compared here, over the
  extended reals.

  The graph is an edge list over an index type `ι`: `L n` is the set of edges that land on node `n` (the edges a
  scatter-add sends to `n`), `src e` the node an edge gathers from, `dstc e` the node whose factor the edge's
  coefficient gathers on the destination side, `w e` the edge weight.  The degree of a node is the sum of the weights
  landing on it, its factor is `φ` of the degree (the inverse square root where the degree is positive, zero elsewhere),
  and an edge's coefficient is `factor (src e) · w e · factor (dstc e)`.

  One arrangement (`rout`) transforms the features first: each layer is "dense product, gather along `src`, scale
  by the coefficient, scatter-add, bias".  The other (`kout`) uses that the first layer's input has ONE feature: it
  aggregates the scalar `x` over the edges first, then applies the `1 × 16` weights, the bias, the rectifier and the
  `16 × 1` weights per node, and aggregates the resulting scalar again.
-/
import Mathlib.Data.EReal.Basic
import Mathlib.Algebra.BigOperators.Group.Finset.Basic
import Mathlib.Algebra.BigOperators.Fin
import Mathlib.Data.Fintype.Basic

noncomputable section

namespace Cert.GcnTwoLayer

open scoped BigOperators

variable {ι : Type} {N : Nat}
variable (L : Fin N → Finset ι) (src dstc : ι → Fin N) (w : ι → EReal) (φ : EReal → EReal)

/-- The weighted in-degree of node `n`. -/
def deg (n : Fin N) : EReal := ∑ e ∈ L n, w e

/-- The coefficient of edge `e`: source factor, weight, destination factor, multiplied in that order. -/
def nrm (e : ι) : EReal := φ (deg L w (src e)) * w e * φ (deg L w (dstc e))

variable (x : Fin N → EReal) (W1 b1 W2 : Fin 16 → EReal) (b2 : EReal)

/-- Features after the first layer and the rectifier, transform-then-aggregate. -/
def rh1 (n : Fin N) (f : Fin 16) : EReal :=
  max ((∑ e ∈ L n, nrm L src dstc w φ e * (x (src e) * W1 f)) + b1 f) 0

/-- The result, transform-then-aggregate in both layers. -/
def rout (n : Fin N) : EReal :=
  (∑ e ∈ L n, nrm L src dstc w φ e * ∑ f : Fin 16, rh1 L src dstc w φ x W1 b1 (src e) f * W2 f) + b2

/-- The first layer's scalar aggregate. -/
def kS1 (n : Fin N) : EReal := ∑ e ∈ L n, nrm L src dstc w φ e * x (src e)

/-- The per-node scalar after both dense products, aggregate-then-transform. -/
def kh2 (n : Fin N) : EReal :=
  ∑ f : Fin 16, W2 f * max (W1 f * kS1 L src dstc w φ x n + b1 f) 0

/-- The result, aggregate-then-transform. -/
def kout (n : Fin N) : EReal :=
  (∑ e ∈ L n, nrm L src dstc w φ e * kh2 L src dstc w φ x W1 b1 W2 (src e)) + b2

end Cert.GcnTwoLayer

end
-- ==== Proof.LibGcnLayer.lean ====
/-
  The algebra of one graph-convolution layer with symmetric normalisation, over the extended reals.

  With `D` the per-node factor (the inverse square root of the degree), `h` the node features after the dense product,
  and an edge list (source row `s e`, destination row `t e`), the reference sums `h (s e) · (D (s e) · D (t e))` over the
  edges that land on node `i` and adds the self loop `h i · (D i · D i)`.  The kernel scales the features once,
  `hs = h · D`, sums `hs (s e)` over the same edges, adds `hs i`, and multiplies the total by `D i`.  The two agree because
  every edge in the sum has `D (t e) = D i`, multiplication distributes over a finite sum of REAL numbers, and products
  of reals commute; on the extended reals distributivity can fail at the infinities, so every quantity is first shown
  to be a real number.
-/
import Idealize.ShloMosaic.PureOps.Ideal

noncomputable section

namespace Cert.GcnAlgebra

open Idealize.ShloMosaic

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.max {x y : EReal} (hx : IsFin x) (hy : IsFin y) : IsFin (max x y) := by
  rcases max_choice x y with h | h <;> rw [h] <;> assumption

/-- A finite sum of coerced reals is the coerced sum. -/
theorem coe_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

theorem IsFin.sum {ι : Type} (s : Finset ι) (f : ι → EReal) (h : ∀ j, IsFin (f j)) : IsFin (∑ j ∈ s, f j) := by
  choose g hg using h
  exact ⟨∑ j ∈ s, g j, by rw [← coe_sum]; exact Finset.sum_congr rfl fun j _ => hg j⟩

/-- The inverse square root of a positive real is a real. -/
theorem IsFin.rsqrt_of_pos {r : ℝ} (hr : 0 < r) : IsFin (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- THE LAYER IDENTITY on one output entry.  `S` is the set of (edge, column) slots landing on the entry; `a j` the
    feature the slot gathers, `p j` the source node's factor, `q j` the destination node's factor as the reference
    gathers it, which on `S` is the entry's own factor `D`; `H` the entry's own feature. -/
theorem fold_scale {T : Type} (S : Finset T) (a p q : T → EReal) (H D : EReal)
    (ha : ∀ j, IsFin (a j)) (hp : ∀ j, IsFin (p j)) (hH : IsFin H) (hD : IsFin D)
    (hq : ∀ j ∈ S, q j = D) :
    D * ((0 + ∑ j ∈ S, a j * p j) + H * D) = (0 + ∑ j ∈ S, a j * (p j * q j)) + H * (D * D) := by
  obtain ⟨d, rfl⟩ := hD
  obtain ⟨h, rfl⟩ := hH
  choose a' ha' using ha
  choose p' hp' using hp
  have e1 : ∑ j ∈ S, a j * (p j * q j) = ∑ j ∈ S, ((a' j * (p' j * d) : ℝ) : EReal) :=
    Finset.sum_congr rfl fun j hj => by rw [hq j hj, ha', hp', EReal.coe_mul, EReal.coe_mul]
  have e2 : ∑ j ∈ S, a j * p j = ∑ j ∈ S, ((a' j * p' j : ℝ) : EReal) :=
    Finset.sum_congr rfl fun j _ => by rw [ha', hp', EReal.coe_mul]
  rw [e1, e2, coe_sum, coe_sum, zero_add, zero_add, ← EReal.coe_mul, ← EReal.coe_add, ← EReal.coe_mul,
    ← EReal.coe_mul, ← EReal.coe_mul, ← EReal.coe_add]
  refine congrArg _ ?_
  rw [mul_add, Finset.mul_sum]
  congr 1
  · exact Finset.sum_congr rfl fun j _ => by ring
  · ring

end Cert.GcnAlgebra

end
-- ==== Proof.DinvFn.lean ====
/-
  The per-node normalisation factor as a function of the weighted degree: the inverse square root where the degree
  is positive, zero elsewhere.  Both programs compute it by the same two selections around one inverse square root
  (the inner selection replaces a non-positive degree by one so that the root is taken of a positive number; the outer
  one then discards that value), so it is written here once, over the extended reals, in exactly that form.
-/
import Idealize.ShloMosaic.PureOps.Ideal
import Idealize.ShloMosaic.PureOps.Ideal.Laws
import proofs.«124087_j22385369546840_1_alg».proof.Proof.LibGcnLayer

noncomputable section

namespace Cert.GcnTwoLayer

open Idealize.ShloMosaic Cert.GcnAlgebra

/-- `d ↦ if 0 < d then 1/√d else 0`, as two selections on the comparison `0 < d` around the inverse square root. -/
def dinvFn (d : EReal) : EReal :=
  Scalar.select (Ideal.cmp .ogt d (Ideal.ofBits .f32 0x00000000#32))
    (Ideal.rsqrt (Scalar.select (Ideal.cmp .ogt d (Ideal.ofBits .f32 0x00000000#32)) d (Ideal.ofBits .f32 0x3F800000#32)))
    (Ideal.ofBits .f32 0x00000000#32)

/-- The factor of a real degree is a real number: a positive degree has a real inverse square root, and every other
    degree gives zero. -/
theorem dinvFn_isFin {d : EReal} (hd : IsFin d) : IsFin (dinvFn d) := by
  obtain ⟨r, rfl⟩ := hd
  unfold dinvFn
  rw [Ideal.ofBits_zero_f32]
  by_cases h : (0 : EReal) < (r : EReal)
  · have hc : Ideal.cmp .ogt (r : EReal) 0 = 1 := by
      show BitVec.ofBool (decide ((0 : EReal) < (r : EReal))) = 1
      rw [decide_eq_true h]; rfl
    rw [hc]
    show IsFin (Ideal.rsqrt (r : EReal))
    exact IsFin.rsqrt_of_pos (by exact_mod_cast h)
  · have hc : Ideal.cmp .ogt (r : EReal) 0 = 0 := by
      show BitVec.ofBool (decide ((0 : EReal) < (r : EReal))) = 0
      rw [decide_eq_false h]; rfl
    rw [hc]
    show IsFin (0 : EReal)
    exact IsFin.zero

end Cert.GcnTwoLayer

end
-- ==== Proof.Glue.lean ====
/-
  The kernel's edge list against the reference's.

  The reference works on 5100000 edges: the given edges followed by one self loop per node.  The kernel works on
  5111808 edges: the same 5100000 followed by 11808 padding edges 0 → 0 of weight zero.  Along the inclusion
  emb of the first 5100000 positions, the kernel's sources, destinations and weights are the reference's, and every
  position outside the range of the inclusion carries the weight zero.
-/
import proofs.«124087_j22385369546840_1_alg».proof.Proof.KerTerm
import proofs.«124087_j22385369546840_1_alg».proof.Proof.Gen.ReferenceIdeal.Read
import proofs.«124087_j22385369546840_1_alg».proof.Proof.LibRowGather
import proofs.«124087_j22385369546840_1_alg».proof.Proof.LibRowScatterSum
import Idealize.ShloMosaic.Lib.Pipeline.Value
import Idealize.ShloMosaic.Lib.ValueIdx
import Idealize.ShloMosaic.PureOps.Ideal.Laws

noncomputable section

namespace Cert.Glue

open Cert.RowIndexing Idealize.ShloMosaic Idealize.ShloMosaic.ValueIdx
open Cert.KernelIdeal (S2x5000000 S5000000 S5100000 S5111808 S5111808x1 S11808 S100000 S_)

/-! ## A concatenation of two vectors and a column broadcast, read at an index -/

section Generic
variable {α : Type}

/-- A concatenation of two vectors at a position below the first length reads the first vector there. -/
theorem cat1_left {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (hj : j.val < n₁) :
    concatenate (⟨1, ![n]⟩ : Shape) 0 [⟨⟨1, ![n₁]⟩, x₁⟩, ⟨⟨1, ![n₂]⟩, x₂⟩] h (ix1 j) = x₁ (ix1 ⟨j.val, hj⟩) := by
  refine concatenate_pair_apply_left 0 x₁ x₂ h (ix1 j) rfl (ix1 ⟨j.val, hj⟩) ?_
  intro b
  match b with
  | ⟨0, _⟩ => rfl

/-- A concatenation of two vectors at a position at or past the first length reads the second vector, the first
    length less. -/
theorem cat1_right {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (hj : n₁ ≤ j.val)
    (hj₂ : j.val - n₁ < n₂) :
    concatenate (⟨1, ![n]⟩ : Shape) 0 [⟨⟨1, ![n₁]⟩, x₁⟩, ⟨⟨1, ![n₂]⟩, x₂⟩] h (ix1 j) = x₂ (ix1 ⟨j.val - n₁, hj₂⟩) := by
  refine concatenate_pair_apply_right 0 x₁ x₂ h (ix1 j) rfl rfl (ix1 ⟨j.val - n₁, hj₂⟩) ?_ ?_
  · intro b hb
    match b with
    | ⟨0, _⟩ => exact absurd rfl hb
  · show (j.val - n₁) + n₁ = j.val
    omega

/-- A vector broadcast to a column, read at row e. -/
theorem col_apply {n : Nat} (hn : n ≠ 1)
    (h : (⟨1, ![n]⟩ : Shape).BroadcastsInDim (⟨2, ![n, 1]⟩ : Shape) (![0] : Fin 1 → Fin 2))
    (x : (⟨1, ![n]⟩ : Shape).Idx → α) (e : Fin n) :
    broadcastInDim (⟨2, ![n, 1]⟩ : Shape) ![0] h x (ix2 e (0 : Fin 1)) = x (ix1 e) := by
  refine broadcastInDim_apply _ h x _ (ix1 e) ?_
  intro a
  match a with
  | ⟨0, _⟩ =>
    show e.val = if n = 1 then 0 else e.val
    rw [if_neg hn]

end Generic

/-- An index below zero wrapped once by the number of nodes. -/
def wrap1 (b : BitVec 32) : BitVec 32 := Scalar.select (IntOp.cmpi .slt b 0#32) (IntOp.addi b 100000#32) b

/-! ## The inclusion of the reference's edges into the kernel's -/

/-- The reference's edge e is the kernel's edge e. -/
def emb : Fin 5100000 → Fin 5111808 := Fin.castLE (by decide)

theorem emb_injective : Function.Injective emb := Fin.castLE_injective _

theorem emb_val (e : Fin 5100000) : (emb e).val = e.val := rfl

/-- A position outside the range of the inclusion is at or past 5100000. -/
theorem le_of_not_range (e' : Fin 5111808) (h : ∀ e, emb e ≠ e') : 5100000 ≤ e'.val := by
  by_contra hlt
  exact h ⟨e'.val, by omega⟩ (Fin.ext rfl)

/-! ## The kernel's arrays along the inclusion -/

variable (ei : IVec S2x5000000 32) (ea : FVec Ideal S5000000 .f32)

theorem rowRaw_eq : Cert.KernelIdeal.Term.rowRaw ei = Cert.ReferenceIdeal.Read.val_main_v5 (F := Ideal) ei := rfl
theorem colRaw_eq : Cert.KernelIdeal.Term.colRaw ei = Cert.ReferenceIdeal.Read.val_main_v6 (F := Ideal) ei := rfl

/-- The padded array at an included position is the array there. -/
theorem padI_emb (v : IVec S5100000 32) (e : Fin 5100000) :
    Cert.KernelIdeal.Term.padI v (ix1 (emb e)) = v (ix1 e) := by
  unfold Cert.KernelIdeal.Term.padI
  exact cat1_left _ _ _ (emb e) e.isLt

theorem wrapIdx_entry (v : IVec S5111808 32) (e' : Fin 5111808) :
    Cert.KernelIdeal.Term.wrapIdx v (ix2 e' (0 : Fin 1)) = wrap1 (v (ix1 e')) := by
  unfold Cert.KernelIdeal.Term.wrapIdx
  rw [col_apply (by decide)]
  rfl

theorem v24_entry (e : Fin 5100000) :
    Cert.ReferenceIdeal.Read.val_main_v24 (F := Ideal) ei (ix2 e (0 : Fin 1))
      = wrap1 (Cert.ReferenceIdeal.Read.val_main_v5 (F := Ideal) ei (ix1 e)) := by
  unfold Cert.ReferenceIdeal.Read.val_main_v24
  rw [col_apply (by decide)]
  rfl

theorem v32_entry (e : Fin 5100000) :
    Cert.ReferenceIdeal.Read.val_main_v32 (F := Ideal) ei (ix2 e (0 : Fin 1))
      = wrap1 (Cert.ReferenceIdeal.Read.val_main_v6 (F := Ideal) ei (ix1 e)) := by
  unfold Cert.ReferenceIdeal.Read.val_main_v32
  rw [col_apply (by decide)]
  rfl

theorem colCol_entry (e : Fin 5100000) :
    Cert.KernelIdeal.Term.colCol ei (ix2 (emb e) (0 : Fin 1))
      = Cert.ReferenceIdeal.Read.val_main_v10 (F := Ideal) ei (ix2 e (0 : Fin 1)) := by
  unfold Cert.KernelIdeal.Term.colCol Cert.ReferenceIdeal.Read.val_main_v10
  rw [col_apply (by decide), col_apply (by decide)]
  unfold Cert.KernelIdeal.Term.colK
  rw [padI_emb, colRaw_eq]

theorem clampRow_congr {N E E' w : Nat} (hN : 0 < N) (idx : IVec (⟨2, ![E, 1]⟩ : Shape) w)
    (idx' : IVec (⟨2, ![E', 1]⟩ : Shape) w) (e : Fin E) (e' : Fin E')
    (h : idx (ix2 e (0 : Fin 1)) = idx' (ix2 e' (0 : Fin 1))) : clampRow hN idx e = clampRow hN idx' e' := by
  refine Fin.ext ?_
  show min (idx (ix2 e (0 : Fin 1))).toInt.toNat (N - 1) = min (idx' (ix2 e' (0 : Fin 1))).toInt.toNat (N - 1)
  rw [h]

theorem lands_iff (n : Fin 100000) (e : Fin 5100000) :
    emb e ∈ rowsAt (Cert.KernelIdeal.Term.colCol ei) n
      ↔ e ∈ rowsAt (Cert.ReferenceIdeal.Read.val_main_v10 (F := Ideal) ei) n := by
  unfold rowsAt
  rw [Finset.mem_filter, Finset.mem_filter, colCol_entry]
  simp only [Finset.mem_univ, true_and]

theorem src_eq (e : Fin 5100000) :
    clampRow (N := 100000) (by decide) (Cert.KernelIdeal.Term.wrapIdx (Cert.KernelIdeal.Term.rowK ei)) (emb e)
      = clampRow (N := 100000) (by decide) (Cert.ReferenceIdeal.Read.val_main_v24 (F := Ideal) ei) e := by
  refine clampRow_congr _ _ _ _ _ ?_
  rw [wrapIdx_entry, v24_entry]
  unfold Cert.KernelIdeal.Term.rowK
  rw [padI_emb, rowRaw_eq]

theorem dst_eq (e : Fin 5100000) :
    clampRow (N := 100000) (by decide) (Cert.KernelIdeal.Term.wrapIdx (Cert.KernelIdeal.Term.colK ei)) (emb e)
      = clampRow (N := 100000) (by decide) (Cert.ReferenceIdeal.Read.val_main_v32 (F := Ideal) ei) e := by
  refine clampRow_congr _ _ _ _ _ ?_
  rw [wrapIdx_entry, v32_entry]
  unfold Cert.KernelIdeal.Term.colK
  rw [padI_emb, colRaw_eq]

theorem w_eq (e : Fin 5100000) :
    Cert.KernelIdeal.Term.wK ea (ix1 (emb e)) = Cert.ReferenceIdeal.Read.val_main_v8 (F := Ideal) ea (ix1 e) := by
  unfold Cert.KernelIdeal.Term.wK
  exact cat1_left _ _ _ (emb e) e.isLt

theorem w_pad (e' : Fin 5111808) (h : ∀ e, emb e ≠ e') : Cert.KernelIdeal.Term.wK ea (ix1 e') = 0 := by
  have hle := le_of_not_range e' h
  unfold Cert.KernelIdeal.Term.wK
  rw [cat1_right _ _ _ e' hle (by have := e'.isLt; omega)]
  exact Ideal.ofBits_zero_f32

end Cert.Glue

end
-- ==== Proof.KerReadNode.lean ====
import proofs.«124087_j22385369546840_1_alg».proof.Proof.KerTerm
import proofs.«124087_j22385369546840_1_alg».proof.Proof.Glue
import Idealize.ShloMosaic.Lib.Pipeline.Value
import Idealize.ShloMosaic.Lib.ValueIdx

/-!
# The node-side stages read at an index

The node aggregate is stored as one row of 100352 scalars: the 100000 per-node sums followed by 352 zeros, so the
row at a column below 100000 is the sum of that node.  Cutting the row back to the nodes reads the same column.  The
dense weights are handed to the node pass transposed or as a column: each entry is the entry of the original with its two
coordinates exchanged (or its single coordinate as the row).  The result column at node `n` is the per-node sum of
the messages plus the one bias.
-/

noncomputable section

namespace Cert.KernelIdeal.TermRead

open Cert.KernelIdeal Cert.KernelIdeal.Facts₀ Cert.KernelIdeal.Facts Idealize.ShloMosaic Idealize.ShloMosaic.ValueIdx

variable (x0 : FVec Ideal S100000x1 .f32) (ei : IVec S2x5000000 32) (ea : FVec Ideal S5000000 .f32)
  (w1 : FVec Ideal S1x16 .f32) (b1 : FVec Ideal S16 .f32) (w2 : FVec Ideal S16x1 .f32) (b2 : FVec Ideal S1 .f32)

/-! ## Layout changes of literal shapes, over any entries -/

section Layout
variable {α : Type}

/-- A vector of 100352 entries laid out as one row: column `q` of the row is entry `q`. -/
theorem row_of_vec (v : S100352.Idx → α) (q : Fin 100352) :
    shapeCast S1x100352 v shapeCasts_S100352_S1x100352 (ix2 (0 : Fin 1) q) = v (ix1 q) :=
  shapeCast_apply v shapeCasts_S100352_S1x100352 (ix2 (0 : Fin 1) q) (ix1 q)
    (by rewrite [Shape.rowMajor_val_two, Shape.rowMajor_val_one]; show q.val = 0 * 100352 + q.val; omega)

/-- The row flattened back: entry `q` is column `q`. -/
theorem vec_of_row (v : S1x100352.Idx → α) (q : Fin 100352) :
    shapeCast S100352 v shapeCasts_S1x100352_S100352 (ix1 q) = v (ix2 (0 : Fin 1) q) :=
  shapeCast_apply v shapeCasts_S1x100352_S100352 (ix1 q) (ix2 (0 : Fin 1) q)
    (by rewrite [Shape.rowMajor_val_two, Shape.rowMajor_val_one]; show 0 * 100352 + q.val = q.val; omega)

/-- The first 100000 entries of a vector of 100352: entry `n` is entry `n`. -/
theorem head_of_vec (v : S100352.Idx → α) (n : Fin 100000) :
    extractStridedSlice S100000 ![0] v slices_S100352_S100000_0 (ix1 n)
      = v (ix1 (⟨n.val, by have := n.isLt; omega⟩ : Fin 100352)) :=
  extractStridedSlice_apply ![0] v slices_S100352_S100000_0 (ix1 n) (ix1 (⟨n.val, by have := n.isLt; omega⟩ : Fin 100352))
    (fun a => match a with
      | ⟨0, _⟩ => by show n.val = 0 + n.val; omega)

/-- A vector of 100000 entries laid out as a column: row `n` is entry `n`. -/
theorem col_of_vec (v : S100000.Idx → α) (n : Fin 100000) :
    shapeCast S100000x1 v shapeCasts_S100000_S100000x1 (ix2 n (0 : Fin 1)) = v (ix1 n) :=
  shapeCast_apply v shapeCasts_S100000_S100000x1 (ix2 n (0 : Fin 1)) (ix1 n)
    (by rewrite [Shape.rowMajor_val_two, Shape.rowMajor_val_one]; show n.val = n.val * 1 + 0; omega)

/-- A vector of 16 entries laid out as a column: row `k` is entry `k`. -/
theorem col16_of_vec (v : S16.Idx → α) (k : Fin 16) :
    shapeCast S16x1 v shapeCasts_S16_S16x1 (ix2 k (0 : Fin 1)) = v (ix1 k) :=
  shapeCast_apply v shapeCasts_S16_S16x1 (ix2 k (0 : Fin 1)) (ix1 k)
    (by rewrite [Shape.rowMajor_val_two, Shape.rowMajor_val_one]; show k.val = k.val * 1 + 0; omega)

/-- A 1 × 16 matrix transposed: entry `(k, 0)` is entry `(0, k)`. -/
theorem transpose_row (v : S1x16.Idx → α) (k : Fin 16) :
    transpose S16x1 [1, 0] v transposes_S1x16_S16x1_1_0 (ix2 k (0 : Fin 1)) = v (ix2 (0 : Fin 1) k) :=
  transpose_apply [1, 0] v transposes_S1x16_S16x1_1_0 (ix2 k (0 : Fin 1)) (ix2 (0 : Fin 1) k)
    (fun b => match b with
      | ⟨0, _⟩ => rfl
      | ⟨1, _⟩ => rfl)

/-- A 16 × 1 matrix transposed: entry `(0, k)` is entry `(k, 0)`. -/
theorem transpose_col (v : S16x1.Idx → α) (k : Fin 16) :
    transpose S1x16 [1, 0] v transposes_S16x1_S1x16_1_0 (ix2 (0 : Fin 1) k) = v (ix2 k (0 : Fin 1)) :=
  transpose_apply [1, 0] v transposes_S16x1_S1x16_1_0 (ix2 (0 : Fin 1) k) (ix2 k (0 : Fin 1))
    (fun b => match b with
      | ⟨0, _⟩ => rfl
      | ⟨1, _⟩ => rfl)

/-- One scalar spread over the nodes: every entry is that scalar. -/
theorem spread_scalar (v : S1.Idx → α) (n : Fin 100000) :
    broadcastInDim S100000 ![0] bcast_S1_S100000_0 v (ix1 n) = v (ix1 (0 : Fin 1)) :=
  broadcastInDim_apply ![0] bcast_S1_S100000_0 v (ix1 n) (ix1 (0 : Fin 1))
    (fun a => match a with
      | ⟨0, _⟩ => by show (0 : Nat) = if (1 : Nat) = 1 then 0 else n.val; rw [if_pos rfl])

end Layout

/-! ## The stages -/

/-- The padded row at a column below 100000 is that node's aggregate. -/
theorem S1row_apply (q : Fin 100352) (n : Fin 100000) (h : q.val = n.val) :
    Term.S1rowK x0 ei ea (ix2 (0 : Fin 1) q) = Term.S1K x0 ei ea (ix1 n) := by
  unfold Term.S1rowK
  generalize Term.S1K x0 ei ea = y
  rw [row_of_vec]
  have hq : q.val < 100000 := by have := n.isLt; omega
  rw [Cert.Glue.cat1_left y _ concatenates_S100000_S352_S100352_d0 q hq]
  exact congrArg y (congrArg ix1 (Fin.ext h))

/-- The row flattened and cut back to the nodes reads the row at the node's column. -/
theorem hslice_apply (v : FVec Ideal S1x100352 .f32) (n : Fin 100000) :
    extractStridedSlice S100000 ![0] (shapeCast S100352 v shapeCasts_S1x100352_S100352) slices_S100352_S100000_0 (ix1 n)
      = v (ix2 (0 : Fin 1) ⟨n.val, by have := n.isLt; omega⟩) := by
  rw [head_of_vec, vec_of_row]

/-- The first weights as a column. -/
theorem w1t_apply (k : Fin 16) : Term.w1tK w1 (ix2 k (0 : Fin 1)) = w1 (ix2 (0 : Fin 1) k) := by
  unfold Term.w1tK
  exact transpose_row w1 k

/-- The first bias as a column. -/
theorem b1c_apply (k : Fin 16) : Term.b1cK b1 (ix2 k (0 : Fin 1)) = b1 (ix1 k) := by
  unfold Term.b1cK
  exact col16_of_vec b1 k

/-- The second weights as a row. -/
theorem w2t_apply (k : Fin 16) : Term.w2tK w2 (ix2 (0 : Fin 1) k) = w2 (ix2 k (0 : Fin 1)) := by
  unfold Term.w2tK
  exact transpose_col w2 k

/-- The result at node `n`: the messages aggregated at `n`, plus the bias. -/
theorem out_apply (n : Fin 100000) :
    Term.outK x0 ei ea w1 b1 w2 b2 (ix2 n (0 : Fin 1))
      = Term.aggregate ei (Term.to1d (Term.msgK x0 ei ea w1 b1 w2)) (ix1 n) + b2 (ix1 (0 : Fin 1)) := by
  unfold Term.outK
  generalize Term.aggregate ei (Term.to1d (Term.msgK x0 ei ea w1 b1 w2)) = A
  rw [col_of_vec]
  rw [addf_apply, spread_scalar]

end Cert.KernelIdeal.TermRead

end
-- ==== Proof.KerRead.lean ====
/-
  The idealized kernel's result read at an output entry.

  Every stage of the kernel's term is read at explicit coordinates: a scatter-add at a node is the sum of the
  updates of the edges whose destination names the node; a gather at an edge reads the node the edge's (wrapped,
  clamped) index names; the edge arrays are laid out 39936 × 128 for the three passes and back, which changes no
  entry; the node aggregate sits in front of 352 zeros in a 1 × 100352 row, of which only the first 100000 entries are
  read back.  Put together, entry `(n, 0)` of the result is the aggregate-then-transform formula of the
  specification over the padded edge list.  Nothing here needs the data to be finite.
-/
import proofs.«124087_j22385369546840_1_alg».proof.Proof.KerTerm
import proofs.«124087_j22385369546840_1_alg».proof.Proof.LibVecScatterSum
import proofs.«124087_j22385369546840_1_alg».proof.Proof.LibRowGather
import proofs.«124087_j22385369546840_1_alg».proof.Proof.GcnSpec
import proofs.«124087_j22385369546840_1_alg».proof.Proof.DinvFn
import proofs.«124087_j22385369546840_1_alg».proof.Proof.KerReadNode
import Idealize.ShloMosaic.Lib.Pipeline.Value
import Idealize.ShloMosaic.Lib.IdealHost

noncomputable section

namespace Cert.KernelIdeal.TermRead

open Cert.KernelIdeal Cert.KernelIdeal.Facts₀ Cert.KernelIdeal.Facts Idealize.ShloMosaic Idealize.ShloMosaic.ValueIdx
  Cert.RowIndexing Cert.GcnTwoLayer

variable (x0 : FVec Ideal S100000x1 .f32) (ei : IVec S2x5000000 32) (ea : FVec Ideal S5000000 .f32)
  (w1 : FVec Ideal S1x16 .f32) (b1 : FVec Ideal S16 .f32) (w2 : FVec Ideal S16x1 .f32) (b2 : FVec Ideal S1 .f32)

/-! ### The graph over the padded edge list -/

/-- The edges a scatter sends to node `n`. -/
abbrev kL (n : Fin 100000) : Finset (Fin 5111808) := rowsAt (Term.colCol ei) n
/-- The node an edge gathers from. -/
abbrev ksrc : Fin 5111808 → Fin 100000 := clampRow (by decide) (Term.wrapIdx (Term.rowK ei))
/-- The node whose factor an edge gathers on the destination side. -/
abbrev kdst : Fin 5111808 → Fin 100000 := clampRow (by decide) (Term.wrapIdx (Term.colK ei))
/-- The weight of an edge. -/
abbrev kw (e : Fin 5111808) : EReal := Term.wK ea (ix1 e)

/-! ### Scatter-adds and gathers -/

/-- The vector of zeros reads zero. -/
theorem zerosN_apply (n : Fin 100000) : Term.zerosN (ix1 n) = (0 : EReal) := by
  show Ideal.ofBits .f32 0x00000000#32 = 0
  exact Ideal.ofBits_zero_f32

theorem agg_eq (u : FVec Ideal S5111808 .f32) :
    Term.aggregate ei u = Ideal.hostScatterAdd (vecScatterDims 100000 5111808 scatter_S100000_S5111808x1_S5111808_n_0_0_1_wf)
      Term.zerosN (Term.colCol ei) u := rfl

theorem aggregate_apply (u : FVec Ideal S5111808 .f32) (n : Fin 100000) :
    Term.aggregate ei u (ix1 n) = ∑ e ∈ kL ei n, u (ix1 e) := by
  rw [agg_eq, vecScatterAdd_apply, zerosN_apply, zero_add]

/-- The weighted in-degree. -/
theorem deg_read (n : Fin 100000) : Term.degK ei ea (ix1 n) = deg (kL ei) (kw ea) n :=
  aggregate_apply ei (Term.wK ea) n

/-- The two selections around the inverse square root, at one entry of any arrays of one shape. -/
theorem dinv_pointwise {s : Shape} (d z o z' : FVec Ideal s .f32) (i : s.Idx)
    (hz : z i = Ideal.ofBits .f32 0x00000000#32) (ho : o i = Ideal.ofBits .f32 0x3F800000#32)
    (hz' : z' i = Ideal.ofBits .f32 0x00000000#32) :
    select (cmpf .ogt d z) (Host.rsqrt (select (cmpf .ogt d z) d o)) z' i = dinvFn (d i) := by
  show Scalar.select (Ideal.cmp .ogt (d i) (z i))
    (Ideal.rsqrt (Scalar.select (Ideal.cmp .ogt (d i) (z i)) (d i) (o i))) (z' i) = _
  rw [hz, ho, hz']
  rfl

/-- The node factor as the term it is. -/
theorem dinvK_eq : Term.dinvK ei ea =
    select (cmpf .ogt (Term.degK ei ea) Term.zerosN)
      (Host.rsqrt (select (cmpf .ogt (Term.degK ei ea) Term.zerosN) (Term.degK ei ea)
        (broadcastInDim S100000 ![] bcast_S_S100000 (id (constant S_ .f32 0x3F800000#32)))))
      (broadcastInDim S100000 ![] bcast_S_S100000 (id (constant S_ .f32 0x00000000#32))) := rfl

/-- The node factor: the two selections around the inverse square root. -/
theorem dinv_read (n : Fin 100000) : Term.dinvK ei ea (ix1 n) = dinvFn (deg (kL ei) (kw ea) n) := by
  rw [dinvK_eq, dinv_pointwise _ _ _ _ _ (broadcastInDim_scalar_apply _ _ _) (broadcastInDim_scalar_apply _ _ _)
    (broadcastInDim_scalar_apply _ _ _), deg_read]

/-- A node vector gathered along the sources, as the gather it is. -/
theorem alongRow_eq (y : FVec Ideal S100000 .f32) :
    Term.alongRow ei y = Host.gather (vecGatherDims 100000 5111808 gather_S100000_S5111808x1_S5111808_n_0_n_n_0_1_1_wf) y
      (Term.wrapIdx (Term.rowK ei)) := rfl

/-- A node vector gathered along the sources reads the source node's entry. -/
theorem alongRow_apply (y : FVec Ideal S100000 .f32) (e : Fin 5111808) :
    Term.alongRow ei y (ix1 e) = y (ix1 (ksrc ei e)) := by
  rw [alongRow_eq]
  exact vecGather_apply (by decide) _ y _ e

theorem dcK_eq : Term.dcK ei ea =
    Host.gather (vecGatherDims 100000 5111808 gather_S100000_S5111808x1_S5111808_n_0_n_n_0_1_1_wf) (Term.dinvK ei ea)
      (Term.wrapIdx (Term.colK ei)) := rfl

/-- The factor along the sources. -/
theorem dr_read (e : Fin 5111808) : Term.drK ei ea (ix1 e) = dinvFn (deg (kL ei) (kw ea) (ksrc ei e)) := by
  show Term.alongRow ei (Term.dinvK ei ea) (ix1 e) = _
  rw [alongRow_apply, dinv_read]

/-- The factor along the destinations. -/
theorem dc_read (e : Fin 5111808) : Term.dcK ei ea (ix1 e) = dinvFn (deg (kL ei) (kw ea) (kdst ei e)) := by
  rw [dcK_eq]
  refine (vecGather_apply (by decide) _ (Term.dinvK ei ea) _ e).trans ?_
  exact dinv_read ei ea _

/-! ### The input scalar gathered along the sources: a gather of a one-column matrix at (row, 0) pairs -/

/-- The dimension numbers of `x[idx[:, 0], idx[:, 1]]` for a one-column matrix `x : [N, 1]` and index pairs `[E, 2]`. -/
abbrev pairGatherDims (N E : Nat)
    (wf : GatherDims.WF (⟨2, ![N, 1]⟩ : Shape) ⟨2, ![E, 2]⟩ ⟨1, ![E]⟩ [] [0, 1] [] [0, 1] [] 1 ![1, 1]) :
    GatherDims (⟨2, ![N, 1]⟩ : Shape) ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- The operand index such a gather reads at `e`: the row is column 0 of the pair read signed and cut to
    `[0, N - 1]`; the column can only be `0`, the operand having one column. -/
theorem pairGather_operandIdx {N E w : Nat} (wf) (idx : IVec (⟨2, ![E, 2]⟩ : Shape) w) (e : Fin E) (r : Fin N)
    (hr : r.val = min (idx (ix2 e (0 : Fin 2))).toInt.toNat (N - 1)) :
    (pairGatherDims N E wf).operandIdx (ix1 e) idx = ix2 r (0 : Fin 1) := by
  funext a
  refine Fin.ext ?_
  match a with
  | ⟨0, h0⟩ =>
    show (pairGatherDims N E wf).start (ix1 e) idx ⟨0, h0⟩ + (pairGatherDims N E wf).batchCoord (ix1 e) ⟨0, h0⟩
      + (pairGatherDims N E wf).offCoord (ix1 e) ⟨0, h0⟩ = r.val
    rw [GatherDims.batchCoord_eq_zero _ _ _ List.not_mem_nil,
      GatherDims.offCoord_eq_zero _ _ _ (fun h => ((GatherDims.mem_sKept _ _).mp h).1 (List.mem_cons_self))]
    simp only [Nat.add_zero]
    unfold GatherDims.start
    rw [dif_pos (show (⟨0, h0⟩ : Fin 2) ∈ (pairGatherDims N E wf).startIndexMap from List.mem_cons_self)]
    have hsi : ∀ c : Fin (pairGatherDims N E wf).startIndexMap.length, c.val = 0 →
        (pairGatherDims N E wf).siIdx (ix1 e) c = ix2 e (0 : Fin 2) := by
      intro c hc
      funext b; refine Fin.ext ?_
      match b with
      | ⟨0, _⟩ => rfl
      | ⟨1, _⟩ => exact hc
    rw [hsi _ rfl, hr]
    rfl
  | ⟨1, h1⟩ =>
    have hlt := ((pairGatherDims N E wf).operandIdx (ix1 e) idx ⟨1, h1⟩).isLt
    show ((pairGatherDims N E wf).operandIdx (ix1 e) idx ⟨1, h1⟩).val = 0
    exact Nat.lt_one_iff.mp hlt

/-- Such a gather at `e` reads the operand at that row, column 0. -/
theorem pairGather_apply {N E w : Nat} {α : Type} (wf) (x : (⟨2, ![N, 1]⟩ : Shape).Idx → α)
    (idx : IVec (⟨2, ![E, 2]⟩ : Shape) w) (e : Fin E) (r : Fin N)
    (hr : r.val = min (idx (ix2 e (0 : Fin 2))).toInt.toNat (N - 1)) :
    Host.gather (pairGatherDims N E wf) x idx (ix1 e) = x (ix2 r (0 : Fin 1)) :=
  congrArg x (pairGather_operandIdx wf idx e r hr)

/-- Two index columns laid side by side, read in the first column. -/
theorem concat_cols_left {E w : Nat} (c0 c1 : IVec (⟨2, ![E, 1]⟩ : Shape) w)
    (h : Shape.Concatenates [(⟨2, ![E, 1]⟩ : Shape), ⟨2, ![E, 1]⟩] ⟨2, ![E, 2]⟩ 1) (e : Fin E) :
    concatenate (⟨2, ![E, 2]⟩ : Shape) 1 [⟨_, c0⟩, ⟨_, c1⟩] h (ix2 e (0 : Fin 2)) = c0 (ix2 e (0 : Fin 1)) :=
  concatenate_pair_apply_left 1 c0 c1 h (ix2 e (0 : Fin 2)) rfl (ix2 e (0 : Fin 1))
    (fun b => match b with | ⟨0, _⟩ => rfl | ⟨1, _⟩ => rfl)

/-- The gathered input scalar, as the gather it is. -/
theorem xrK_eq : Term.xrK x0 ei =
    Host.gather (pairGatherDims 100000 5111808 gather_S100000x1_S5111808x2_S5111808_n_01_n_n_01_1_11_wf) x0
      (concatenate S5111808x2 1
        [⟨S5111808x1, Term.wrapIdx (Term.rowK ei)⟩,
         ⟨S5111808x1, broadcastInDim S5111808x1 ![0] bcast_S5111808_S5111808x1_0
            (id (broadcastInDim S5111808 ![] bcast_S_S5111808 (constantI S_ 32 0#32)))⟩]
        concatenates_S5111808x1_S5111808x1_S5111808x2_d1) := rfl

/-- The input scalar along the sources. -/
theorem xr_read (e : Fin 5111808) : Term.xrK x0 ei (ix1 e) = x0 (ix2 (ksrc ei e) (0 : Fin 1)) := by
  rw [xrK_eq]
  refine pairGather_apply _ x0 _ e (ksrc ei e) ?_
  rw [concat_cols_left]
  rfl

/-! ### The 39936 × 128 layout and back -/

/-- Laying an edge array out 39936 × 128 and back changes nothing. -/
theorem to1d_to2d (v : FVec Ideal S5111808 .f32) : Term.to1d (Term.to2d v) = v :=
  shapeCast_shapeCast v shapeCasts_S5111808_S39936x128 shapeCasts_S39936x128_S5111808

/-- The edge coefficient as a vector over the edges. -/
def nrmVec : FVec Ideal S5111808 .f32 := fun j => (Term.drK ei ea j * Term.wK ea j) * Term.dcK ei ea j

/-- The node pass's result on the 100000 nodes. -/
def hVec : FVec Ideal S100000 .f32 :=
  extractStridedSlice S100000 ![0]
    (shapeCast S100352 (Term.h2K x0 ei ea w1 b1 w2) shapeCasts_S1x100352_S100352) slices_S100352_S100000_0

theorem normK_eq : Term.normK ei ea = Term.to2d (nrmVec ei ea) := rfl
theorem s1K_eq : Term.s1K x0 ei ea = Term.to2d (fun j => nrmVec ei ea j * Term.xrK x0 ei j) := rfl
theorem msgK_eq : Term.msgK x0 ei ea w1 b1 w2
    = Term.to2d (fun j => nrmVec ei ea j * Term.alongRow ei (hVec x0 ei ea w1 b1 w2) j) := rfl

theorem to1d_s1 : Term.to1d (Term.s1K x0 ei ea) = fun j => nrmVec ei ea j * Term.xrK x0 ei j := by
  rw [s1K_eq, to1d_to2d]
theorem to1d_msg : Term.to1d (Term.msgK x0 ei ea w1 b1 w2)
    = fun j => nrmVec ei ea j * Term.alongRow ei (hVec x0 ei ea w1 b1 w2) j := by
  rw [msgK_eq, to1d_to2d]

/-! ### The passes -/

/-- The edge coefficient: source factor, weight, destination factor. -/
theorem nrm_read (e : Fin 5111808) :
    nrmVec ei ea (ix1 e) = nrm (kL ei) (ksrc ei) (kdst ei) (kw ea) dinvFn e := by
  show (Term.drK ei ea (ix1 e) * Term.wK ea (ix1 e)) * Term.dcK ei ea (ix1 e) = _
  rw [dr_read, dc_read]
  rfl

/-- The first layer's aggregate per node. -/
theorem S1_read (m : Fin 100000) :
    Term.S1K x0 ei ea (ix1 m)
      = kS1 (kL ei) (ksrc ei) (kdst ei) (kw ea) dinvFn (fun k => x0 (ix2 k (0 : Fin 1))) m := by
  show Term.aggregate ei (Term.to1d (Term.s1K x0 ei ea)) (ix1 m) = _
  rw [aggregate_apply, to1d_s1]
  unfold kS1
  refine Finset.sum_congr rfl fun e _ => ?_
  show nrmVec ei ea (ix1 e) * Term.xrK x0 ei (ix1 e) = _
  rw [nrm_read, xr_read]

/-- The node pass at a node: weights, bias, rectifier, weights of the node's aggregate. -/
theorem h2_read (q : Fin 100352) (m : Fin 100000) (h : q.val = m.val) :
    Term.h2K x0 ei ea w1 b1 w2 (ix2 (0 : Fin 1) q)
      = kh2 (kL ei) (ksrc ei) (kdst ei) (kw ea) dinvFn (fun k => x0 (ix2 k (0 : Fin 1)))
          (fun f => w1 (ix2 (0 : Fin 1) f)) (fun f => b1 (ix1 f)) (fun f => w2 (ix2 f (0 : Fin 1))) m := by
  unfold kh2
  show (∑ k : Fin 16, Term.w2tK w2 (ix2 (0 : Fin 1) k)
    * max (Term.w1tK w1 (ix2 k (0 : Fin 1)) * Term.S1rowK x0 ei ea (ix2 (0 : Fin 1) q)
        + Term.b1cK b1 (ix2 k (0 : Fin 1))) 0) = _
  refine Finset.sum_congr rfl fun k _ => ?_
  rw [w2t_apply, w1t_apply, b1c_apply, S1row_apply x0 ei ea q m h, S1_read]

/-- The same with the node's position in the padded row spelt out. -/
theorem h2_read' (m : Fin 100000) :
    Term.h2K x0 ei ea w1 b1 w2 (ix2 (0 : Fin 1) ⟨m.val, by have := m.isLt; omega⟩)
      = kh2 (kL ei) (ksrc ei) (kdst ei) (kw ea) dinvFn (fun k => x0 (ix2 k (0 : Fin 1)))
          (fun f => w1 (ix2 (0 : Fin 1) f)) (fun f => b1 (ix1 f)) (fun f => w2 (ix2 f (0 : Fin 1))) m :=
  h2_read x0 ei ea w1 b1 w2 ⟨m.val, by have := m.isLt; omega⟩ m rfl

/-- The message of an edge: its coefficient times the node pass's result at its source. -/
theorem msg_read (e : Fin 5111808) :
    nrmVec ei ea (ix1 e) * Term.alongRow ei (hVec x0 ei ea w1 b1 w2) (ix1 e)
      = nrm (kL ei) (ksrc ei) (kdst ei) (kw ea) dinvFn e
        * kh2 (kL ei) (ksrc ei) (kdst ei) (kw ea) dinvFn (fun k => x0 (ix2 k (0 : Fin 1)))
            (fun f => w1 (ix2 (0 : Fin 1) f)) (fun f => b1 (ix1 f)) (fun f => w2 (ix2 f (0 : Fin 1))) (ksrc ei e) := by
  rw [nrm_read, alongRow_apply]
  unfold hVec
  rw [hslice_apply, h2_read']

/-- The idealized kernel's result at entry `(n, 0)`: the aggregate-then-transform formula over the padded edge list. -/
theorem ker_apply (n : Fin 100000) :
    Term.outK x0 ei ea w1 b1 w2 b2 (ix2 n (0 : Fin 1)) =
      Cert.GcnTwoLayer.kout (fun k => Cert.RowIndexing.rowsAt (Term.colCol ei) k)
        (Cert.RowIndexing.clampRow (by decide) (Term.wrapIdx (Term.rowK ei)))
        (Cert.RowIndexing.clampRow (by decide) (Term.wrapIdx (Term.colK ei)))
        (fun e => Term.wK ea (ix1 e)) Cert.GcnTwoLayer.dinvFn
        (fun k => x0 (ix2 k (0 : Fin 1))) (fun f => w1 (ix2 (0 : Fin 1) f)) (fun f => b1 (ix1 f))
        (fun f => w2 (ix2 f (0 : Fin 1))) (b2 (ix1 (0 : Fin 1))) n := by
  rw [out_apply, aggregate_apply, to1d_msg]
  unfold kout
  rw [Finset.sum_congr rfl (fun e _ => msg_read x0 ei ea w1 b1 w2 e)]

end Cert.KernelIdeal.TermRead

end
-- ==== Proof.RefRead.lean ====
/-
  The reference program read at an output entry.

  The reference applies two graph-convolution layers.  Each layer appends one self loop per node to the edge list,
  sums the edge weights landing on every node (a scatter-add of a vector), turns that degree into the node's factor
  (the inverse square root where the degree is positive, zero elsewhere), gathers the factor at the source and at the
  destination of every edge to form the edge's coefficient, multiplies the features by the layer's weights, gathers the
  product along the source column, scales it by the coefficient, scatter-adds the rows onto the destination nodes and
  adds the bias.  The second layer rebuilds the same edge list, degrees, factors and coefficients from the same
  arguments, so one set of graph quantities serves both layers.  Reading every stage at explicit coordinates gives the
  transform-then-aggregate formula of the specification.
-/
import proofs.«124087_j22385369546840_1_alg».proof.Proof.LibVecScatterSum
import proofs.«124087_j22385369546840_1_alg».proof.Proof.GcnSpec
import proofs.«124087_j22385369546840_1_alg».proof.Proof.DinvFn
import proofs.«124087_j22385369546840_1_alg».proof.Proof.Gen.ReferenceIdeal.Read

noncomputable section

namespace Cert.RefRead

open Cert.ReferenceIdeal Cert.ReferenceIdeal.Gen Cert.ReferenceIdeal.Read Idealize.ShloMosaic
  Idealize.ShloMosaic.ValueIdx Cert.RowIndexing Cert.GcnTwoLayer

/-- A rank-one index is the one its coordinate names. -/
theorem idx1_eq {a : Nat} (j : (⟨1, ![a]⟩ : Shape).Idx) (e : Fin a) (h : (j 0).val = e.val) : j = ix1 e :=
  (eq_ix1 j).trans (congrArg ix1 (Fin.ext h))

/-- A rank-two index is the one its two coordinates name. -/
theorem idx2_eq {a b : Nat} (j : (⟨2, ![a, b]⟩ : Shape).Idx) (p : Fin a) (q : Fin b)
    (h0 : (j 0).val = p.val) (h1 : (j 1).val = q.val) : j = ix2 p q :=
  (eq_ix2 j).trans (congrArg₂ ix2 (Fin.ext h0) (Fin.ext h1))

variable (x0 : (⟨S100000x1, .f32⟩ : BufTy).Contents (Elt Ideal))
  (ei : (⟨S2x5000000, .i32⟩ : BufTy).Contents (Elt Ideal))
  (ea : (⟨S5000000, .f32⟩ : BufTy).Contents (Elt Ideal))
  (W1 : (⟨S1x16, .f32⟩ : BufTy).Contents (Elt Ideal))
  (b1 : (⟨S16, .f32⟩ : BufTy).Contents (Elt Ideal))
  (W2 : (⟨S16x1, .f32⟩ : BufTy).Contents (Elt Ideal))
  (b2 : (⟨S1, .f32⟩ : BufTy).Contents (Elt Ideal))

/-! ### The graph: landing sets, source and destination nodes, weights -/

/-- The edges (self loops included) that a scatter sends to node `n`. -/
abbrev gL (n : Fin 100000) : Finset (Fin 5100000) := rowsAt (val_main_v10 (F := Ideal) ei) n
/-- The node an edge gathers from. -/
abbrev gsrc : Fin 5100000 → Fin 100000 := clampRow (by decide) (val_main_v24 (F := Ideal) ei)
/-- The node whose factor an edge gathers on the destination side. -/
abbrev gdst : Fin 5100000 → Fin 100000 := clampRow (by decide) (val_main_v32 (F := Ideal) ei)
/-- The weight of an edge (one on a self loop). -/
abbrev gw (e : Fin 5100000) : EReal := val_main_v8 (F := Ideal) ea (ix1 e)

/-! ### The second layer rebuilds the first layer's graph quantities -/

theorem v58_eq : val_main_v58 (F := Ideal) ei = val_main_v5 (F := Ideal) ei := rfl
theorem v59_eq : val_main_v59 (F := Ideal) ei = val_main_v6 (F := Ideal) ei := rfl
theorem v61_eq : val_main_v61 (F := Ideal) ea = val_main_v8 (F := Ideal) ea := rfl
theorem v47_eq : val_main_v47 (F := Ideal) ei = val_main_v10 (F := Ideal) ei := rfl
theorem v63_eq : val_main_v63 (F := Ideal) ei = val_main_v10 (F := Ideal) ei := rfl
theorem v99_eq : val_main_v99 (F := Ideal) ei = val_main_v10 (F := Ideal) ei := rfl
theorem v42_eq : val_main_v42 (F := Ideal) ei = val_main_v24 (F := Ideal) ei := rfl
theorem v77_eq : val_main_v77 (F := Ideal) ei = val_main_v24 (F := Ideal) ei := rfl
theorem v95_eq : val_main_v95 (F := Ideal) ei = val_main_v24 (F := Ideal) ei := rfl
theorem v85_eq : val_main_v85 (F := Ideal) ei = val_main_v32 (F := Ideal) ei := rfl
theorem v64_eq : val_main_v64 (F := Ideal) ei ea = val_main_v11 (F := Ideal) ei ea := rfl
theorem v71_eq : val_main_v71 (F := Ideal) ei ea = val_main_v18 (F := Ideal) ei ea := rfl
theorem v87_eq : val_main_v87 (F := Ideal) ei ea = val_main_v34 (F := Ideal) ei ea := rfl

/-! ### The scatters and gathers as the library's row operations

  Each is the program's own term: the printed dimension records are the library's, and the second layer's index and
  weight columns are the first layer's. -/

theorem v11_fun : val_main_v11 (F := Ideal) ei ea
    = Ideal.hostScatterAdd (vecScatterDims 100000 5100000 Facts₀.scatter_S100000_S5100000x1_S5100000_n_0_0_1_wf)
        (val_main_v9 (F := Ideal)) (val_main_v10 (F := Ideal) ei) (val_main_v8 (F := Ideal) ea) := rfl

theorem v25_fun : val_main_v25 (F := Ideal) ei ea
    = Host.gather (vecGatherDims 100000 5100000 Facts₀.gather_S100000_S5100000x1_S5100000_n_0_n_n_0_1_1_wf)
        (val_main_v18 (F := Ideal) ei ea) (val_main_v24 (F := Ideal) ei) := rfl

theorem v33_fun : val_main_v33 (F := Ideal) ei ea
    = Host.gather (vecGatherDims 100000 5100000 Facts₀.gather_S100000_S5100000x1_S5100000_n_0_n_n_0_1_1_wf)
        (val_main_v18 (F := Ideal) ei ea) (val_main_v32 (F := Ideal) ei) := rfl

theorem v43_fun : val_main_v43 (F := Ideal) x0 ei W1
    = Host.gather (rowGatherDims 100000 5100000 16 Facts₀.gather_S100000x16_S5100000x1_S5100000x16_1_0_n_n_0_1_116_wf)
        (val_main_v35 (F := Ideal) x0 W1) (val_main_v24 (F := Ideal) ei) := rfl

theorem v48_fun : val_main_v48 (F := Ideal) x0 ei ea W1
    = Ideal.hostScatterAdd (rowScatterDims 100000 5100000 16 Facts₀.scatter_S100000x16_S5100000x1_S5100000x16_1_0_0_1_wf)
        (val_main_v46 (F := Ideal)) (val_main_v10 (F := Ideal) ei) (val_main_v45 (F := Ideal) x0 ei ea W1) := rfl

theorem v96_fun : val_main_v96 (F := Ideal) x0 ei ea W1 b1 W2
    = Host.gather (rowGatherDims 100000 5100000 1 Facts₀.gather_S100000x1_S5100000x1_S5100000x1_1_0_n_n_0_1_11_wf)
        (val_main_v88 (F := Ideal) x0 ei ea W1 b1 W2) (val_main_v24 (F := Ideal) ei) := rfl

theorem v100_fun : val_main_v100 (F := Ideal) x0 ei ea W1 b1 W2
    = Ideal.hostScatterAdd (rowScatterDims 100000 5100000 1 Facts₀.scatter_S100000x1_S5100000x1_S5100000x1_1_0_0_1_wf)
        (val_main_v98 (F := Ideal)) (val_main_v10 (F := Ideal) ei) (val_main_v97 (F := Ideal) x0 ei ea W1 b1 W2) := rfl

/-! ### Degrees, factors, coefficients -/

/-- The vector scatter of the weights: the weighted in-degree. -/
theorem deg_read (n : Fin 100000) :
    val_main_v11 (F := Ideal) ei ea (ix1 n) = deg (gL ei) (gw ea) n := by
  rw [v11_fun, vecScatterAdd_apply, val_main_v9_apply, val_main_cst_0_apply, Ideal.ofBits_def,
    Ideal.ofBits_zero_f32, zero_add]
  unfold deg
  rfl

/-- The two selections around the inverse square root: the node's factor. -/
theorem dinv_read (n : Fin 100000) :
    val_main_v18 (F := Ideal) ei ea (ix1 n) = dinvFn (deg (gL ei) (gw ea) n) := by
  rw [← deg_read, val_main_v18_apply, val_main_v13_apply, val_main_v17_apply, val_main_v16_apply,
    val_main_v15_apply, val_main_v12_apply, val_main_v14_apply, val_main_call0_v1_apply, val_main_call1_v1_apply,
    val_main_cst_1_apply, val_main_cst_2_apply, val_main_call0_v0_apply, val_main_cst_3_apply,
    val_main_call1_v0_apply, val_main_cst_4_apply]
  generalize val_main_v11 (F := Ideal) ei ea (ix1 n) = d
  unfold dinvFn
  rfl

/-- The factor gathered at the source of an edge. -/
theorem v25_read (e : Fin 5100000) :
    val_main_v25 (F := Ideal) ei ea (ix1 e) = dinvFn (deg (gL ei) (gw ea) (gsrc ei e)) := by
  rw [v25_fun, vecGather_apply (N := 100000) (E := 5100000) (by decide)]
  exact dinv_read ei ea _

/-- The factor gathered at the destination of an edge. -/
theorem v33_read (e : Fin 5100000) :
    val_main_v33 (F := Ideal) ei ea (ix1 e) = dinvFn (deg (gL ei) (gw ea) (gdst ei e)) := by
  rw [v33_fun, vecGather_apply (N := 100000) (E := 5100000) (by decide)]
  exact dinv_read ei ea _

/-- The coefficient of an edge: source factor, weight, destination factor. -/
theorem nrm_read (e : Fin 5100000) :
    val_main_v34 (F := Ideal) ei ea (ix1 e) = nrm (gL ei) (gsrc ei) (gdst ei) (gw ea) dinvFn e := by
  rw [val_main_v34_apply, val_main_v26_apply, v25_read, v33_read, Ideal.mulf_def, Ideal.mulf_def]
  unfold nrm
  rfl

/-! ### The first layer -/

/-- The dense product of the one input feature with the `1 × 16` weights. -/
theorem v35_read (n : Fin 100000) (f : Fin 16) :
    val_main_v35 (F := Ideal) x0 W1 (ix2 n f) = x0 (ix2 n (0 : Fin 1)) * W1 (ix2 (0 : Fin 1) f) := by
  rw [val_main_v35_apply, Fin.sum_univ_one,
    show lidx_main_v35 (ix2 n f) 0 = ix2 n (0 : Fin 1) from idx2_eq _ _ _ rfl rfl,
    show ridx_main_v35 (ix2 n f) 0 = ix2 (0 : Fin 1) f from idx2_eq _ _ _ rfl rfl]

/-- The product's row gathered at the source of an edge. -/
theorem v43_read (e : Fin 5100000) (f : Fin 16) :
    val_main_v43 (F := Ideal) x0 ei W1 (ix2 e f)
      = x0 (ix2 (gsrc ei e) (0 : Fin 1)) * W1 (ix2 (0 : Fin 1) f) := by
  rw [v43_fun, rowGather_apply (N := 100000) (E := 5100000) (F := 16) (by decide)]
  exact v35_read x0 W1 _ f

/-- The coefficient spread over the sixteen columns. -/
theorem v44_read (e : Fin 5100000) (f : Fin 16) :
    val_main_v44 (F := Ideal) ei ea (ix2 e f) = nrm (gL ei) (gsrc ei) (gdst ei) (gw ea) dinvFn e := by
  rw [val_main_v44_apply, val_main_v36_apply,
    show idx_main_v36 (idx_main_v44 (ix2 e f)) = ix1 e from idx1_eq _ _ rfl]
  exact nrm_read ei ea e

/-- The scaled message of an edge in column `f`. -/
theorem v45_read (e : Fin 5100000) (f : Fin 16) :
    val_main_v45 (F := Ideal) x0 ei ea W1 (ix2 e f)
      = nrm (gL ei) (gsrc ei) (gdst ei) (gw ea) dinvFn e
          * (x0 (ix2 (gsrc ei e) (0 : Fin 1)) * W1 (ix2 (0 : Fin 1) f)) := by
  rw [val_main_v45_apply, v44_read, v43_read, Ideal.mulf_def]

/-- The messages summed onto their destination node. -/
theorem v48_read (n : Fin 100000) (f : Fin 16) :
    val_main_v48 (F := Ideal) x0 ei ea W1 (ix2 n f)
      = ∑ e ∈ gL ei n, nrm (gL ei) (gsrc ei) (gdst ei) (gw ea) dinvFn e
          * (x0 (ix2 (gsrc ei e) (0 : Fin 1)) * W1 (ix2 (0 : Fin 1) f)) := by
  rw [v48_fun, rowScatterAdd_apply, val_main_v46_apply, val_main_cst_10_apply, Ideal.ofBits_def,
    Ideal.ofBits_zero_f32, zero_add]
  exact Finset.sum_congr rfl fun e _ => v45_read x0 ei ea W1 e f

/-- Bias and rectifier: the hidden features. -/
theorem v52_read (n : Fin 100000) (f : Fin 16) :
    val_main_v52 (F := Ideal) x0 ei ea W1 b1 (ix2 n f)
      = rh1 (gL ei) (gsrc ei) (gdst ei) (gw ea) dinvFn (fun k => x0 (ix2 k (0 : Fin 1)))
          (fun g => W1 (ix2 (0 : Fin 1) g)) (fun g => b1 (ix1 g)) n f := by
  rw [val_main_v52_apply, val_main_v51_apply, v48_read, val_main_v50_apply, val_main_v49_apply,
    val_main_call2_v0_apply, val_main_call2_cst_apply,
    show idx_main_v49 (idx_main_v50 (ix2 n f)) = ix1 f from idx1_eq _ _ rfl,
    Ideal.addf_def, Ideal.maximumf_def, Ideal.ofBits_def, Ideal.ofBits_zero_f32]
  unfold rh1
  rfl

/-! ### The second layer -/

/-- The dense product of the hidden features with the `16 × 1` weights. -/
theorem v88_read (n : Fin 100000) :
    val_main_v88 (F := Ideal) x0 ei ea W1 b1 W2 (ix2 n (0 : Fin 1))
      = ∑ f : Fin 16, rh1 (gL ei) (gsrc ei) (gdst ei) (gw ea) dinvFn (fun k => x0 (ix2 k (0 : Fin 1)))
          (fun g => W1 (ix2 (0 : Fin 1) g)) (fun g => b1 (ix1 g)) n f * W2 (ix2 f (0 : Fin 1)) := by
  rw [val_main_v88_apply]
  refine Finset.sum_congr rfl fun k _ => ?_
  rw [show lidx_main_v88 (ix2 n (0 : Fin 1)) k = ix2 n k from idx2_eq _ _ _ rfl rfl,
    show ridx_main_v88 (ix2 n (0 : Fin 1)) k = ix2 k (0 : Fin 1) from idx2_eq _ _ _ rfl rfl, v52_read]

/-- The product gathered at the source of an edge. -/
theorem v96_read (e : Fin 5100000) :
    val_main_v96 (F := Ideal) x0 ei ea W1 b1 W2 (ix2 e (0 : Fin 1))
      = ∑ f : Fin 16, rh1 (gL ei) (gsrc ei) (gdst ei) (gw ea) dinvFn (fun k => x0 (ix2 k (0 : Fin 1)))
          (fun g => W1 (ix2 (0 : Fin 1) g)) (fun g => b1 (ix1 g)) (gsrc ei e) f * W2 (ix2 f (0 : Fin 1)) := by
  rw [v96_fun, rowGather_apply (N := 100000) (E := 5100000) (F := 1) (by decide)]
  exact v88_read x0 ei ea W1 b1 W2 _

/-- The coefficient as a one-column matrix (the second layer's copy is the first layer's). -/
theorem v89_read (e : Fin 5100000) :
    val_main_v89 (F := Ideal) ei ea (ix2 e (0 : Fin 1)) = nrm (gL ei) (gsrc ei) (gdst ei) (gw ea) dinvFn e := by
  rw [val_main_v89_apply, v87_eq, show idx_main_v89 (ix2 e (0 : Fin 1)) = ix1 e from idx1_eq _ _ rfl]
  exact nrm_read ei ea e

/-- The scaled message of an edge. -/
theorem v97_read (e : Fin 5100000) :
    val_main_v97 (F := Ideal) x0 ei ea W1 b1 W2 (ix2 e (0 : Fin 1))
      = nrm (gL ei) (gsrc ei) (gdst ei) (gw ea) dinvFn e
          * ∑ f : Fin 16, rh1 (gL ei) (gsrc ei) (gdst ei) (gw ea) dinvFn (fun k => x0 (ix2 k (0 : Fin 1)))
              (fun g => W1 (ix2 (0 : Fin 1) g)) (fun g => b1 (ix1 g)) (gsrc ei e) f * W2 (ix2 f (0 : Fin 1)) := by
  rw [val_main_v97_apply, v89_read, v96_read, Ideal.mulf_def]

/-- The messages summed onto their destination node. -/
theorem v100_read (n : Fin 100000) :
    val_main_v100 (F := Ideal) x0 ei ea W1 b1 W2 (ix2 n (0 : Fin 1))
      = ∑ e ∈ gL ei n, nrm (gL ei) (gsrc ei) (gdst ei) (gw ea) dinvFn e
          * ∑ f : Fin 16, rh1 (gL ei) (gsrc ei) (gdst ei) (gw ea) dinvFn (fun k => x0 (ix2 k (0 : Fin 1)))
              (fun g => W1 (ix2 (0 : Fin 1) g)) (fun g => b1 (ix1 g)) (gsrc ei e) f * W2 (ix2 f (0 : Fin 1)) := by
  rw [v100_fun, rowScatterAdd_apply, val_main_v98_apply, val_main_cst_23_apply, Ideal.ofBits_def,
    Ideal.ofBits_zero_f32, zero_add]
  exact Finset.sum_congr rfl fun e _ => v97_read x0 ei ea W1 b1 W2 e

/-! ### The result -/

/-- The reference's result at entry `(n, 0)` is the transform-then-aggregate formula over the graph the program builds. -/
theorem ref_apply (n : Fin 100000) :
    val_main_v103 (F := Ideal) x0 ei ea W1 b1 W2 b2 (ix2 n (0 : Fin 1)) =
      rout (fun k => rowsAt (val_main_v10 (F := Ideal) ei) k)
        (clampRow (by decide) (val_main_v24 (F := Ideal) ei)) (clampRow (by decide) (val_main_v32 (F := Ideal) ei))
        (fun e => val_main_v8 (F := Ideal) ea (ix1 e)) dinvFn
        (fun k => x0 (ix2 k (0 : Fin 1))) (fun f => W1 (ix2 (0 : Fin 1) f)) (fun f => b1 (ix1 f))
        (fun f => W2 (ix2 f (0 : Fin 1))) (b2 (ix1 (0 : Fin 1))) n := by
  rw [val_main_v103_apply, v100_read, val_main_v102_apply, val_main_v101_apply,
    show idx_main_v101 (idx_main_v102 (ix2 n (0 : Fin 1))) = ix1 (0 : Fin 1) from idx1_eq _ _ rfl,
    Ideal.addf_def]
  unfold rout
  rfl

end Cert.RefRead

end
-- ==== Proof.WeightsFinite.lean ====
/-
  The reference's edge weights are real numbers when the given weights are.

  The 5100000 weights are the 5000000 given ones followed by one weight per self loop, and a self loop's weight is the
  constant whose word is the single-precision pattern of 1.  So a position below 5000000 reads a given weight and any
  other position reads 1.
-/
import proofs.«124087_j22385369546840_1_alg».proof.Proof.Glue
import proofs.«124087_j22385369546840_1_alg».proof.Proof.LibGcnLayer

noncomputable section

namespace Cert.Glue

open Cert.GcnAlgebra Cert.RowIndexing Idealize.ShloMosaic Idealize.ShloMosaic.ValueIdx
open Cert.KernelIdeal (S5000000)

/-- The single-precision word `0x3F800000` (sign 0, biased exponent 127, mantissa 0) is the real number 1. -/
theorem word_one : Ideal.ofBits .f32 0x3F800000#32 = 1 := by
  simp [Ideal.ofBits, Ideal.ieee, -EReal.coe_mul]; norm_num

/-- Every one of the reference's 5100000 weights is a real number, given that the 5000000 given ones are. -/
theorem w_fin (ea : FVec Ideal S5000000 .f32) (h : ∀ i, IsFin (ea i)) (e : Fin 5100000) :
    IsFin (Cert.ReferenceIdeal.Read.val_main_v8 (F := Ideal) ea (ix1 e)) := by
  unfold Cert.ReferenceIdeal.Read.val_main_v8
  by_cases he : e.val < 5000000
  · rw [cat1_left _ _ _ e he]
    exact h _
  · rw [cat1_right _ _ _ e (by omega) (by have := e.isLt; omega), Cert.ReferenceIdeal.Read.val_main_v7_apply]
    show IsFin (Ideal.ofBits .f32 0x3F800000#32)
    rw [word_one]
    exact IsFin.one

end Cert.Glue

end
-- ==== Proof.GcnTwoLayerEq.lean ====
/-
  The two arrangements of the two-layer graph convolution agree on real data.

  The second arrangement's edge list (index type `ι'`) is the first's (index type `ι`) extended by extra edges of
  weight zero.  An extra edge has coefficient zero because the coefficient carries the factor `w' e' = 0`, and
  `x * 0 = 0 * x = 0` holds on the extended reals without any finiteness; so every sum over the longer list is the
  sum over the shorter one.  What remains is that the `1 × 16` weights may be applied before or after the first
  aggregation: `W * ∑ a e * c e = ∑ a e * (c e * W)`.  This is distributivity, which on the extended reals fails at the
  infinities, so it is proved over the real numbers after showing that every quantity involved is a real number.
-/
import proofs.«124087_j22385369546840_1_alg».proof.Proof.GcnSpec
import proofs.«124087_j22385369546840_1_alg».proof.Proof.LibGcnLayer

noncomputable section

namespace Cert.GcnTwoLayer

open Cert.GcnAlgebra
open scoped BigOperators

/-- A sum over the extended edge set is the sum over the original one when the summand vanishes on every edge that
    is not the image of an original edge. -/
theorem sum_pad {ι ι' : Type} (emb : ι → ι') (hemb : Function.Injective emb)
    (S : Finset ι) (S' : Finset ι') (hS : ∀ e, emb e ∈ S' ↔ e ∈ S)
    (g : ι' → EReal) (hg : ∀ e', (∀ e, emb e ≠ e') → g e' = 0) :
    ∑ e' ∈ S', g e' = ∑ e ∈ S, g (emb e) := by
  classical
  rw [← Finset.sum_image (s := S) (g := emb) (f := g) (fun a _ b _ h => hemb h)]
  symm
  apply Finset.sum_subset
  · intro e' he'
    obtain ⟨e, he, rfl⟩ := Finset.mem_image.mp he'
    exact (hS e).mpr he
  · intro e' he' hni
    apply hg
    intro e he
    apply hni
    subst he
    exact Finset.mem_image.mpr ⟨e, (hS e).mp he', rfl⟩

/-- Distributivity over a finite sum of products of real numbers, with the factor moved inside on the right. -/
theorem mul_sum_fin {T : Type} (S : Finset T) (a c : T → EReal) (W : EReal)
    (ha : ∀ j, IsFin (a j)) (hc : ∀ j, IsFin (c j)) (hW : IsFin W) :
    W * ∑ j ∈ S, a j * c j = ∑ j ∈ S, a j * (c j * W) := by
  obtain ⟨v, rfl⟩ := hW
  choose a' ha' using ha
  choose c' hc' using hc
  have e1 : ∑ j ∈ S, a j * c j = ∑ j ∈ S, ((a' j * c' j : ℝ) : EReal) :=
    Finset.sum_congr rfl fun j _ => by rw [ha', hc', EReal.coe_mul]
  have e2 : ∑ j ∈ S, a j * (c j * (v : EReal)) = ∑ j ∈ S, ((a' j * (c' j * v) : ℝ) : EReal) :=
    Finset.sum_congr rfl fun j _ => by rw [ha', hc', EReal.coe_mul, EReal.coe_mul]
  rw [e1, e2, coe_sum, coe_sum, ← EReal.coe_mul]
  refine congrArg _ ?_
  rw [Finset.mul_sum]
  exact Finset.sum_congr rfl fun j _ => by ring

theorem kout_eq_rout {ι ι' : Type} {N : Nat}
    (emb : ι → ι') (hemb : Function.Injective emb)
    (L : Fin N → Finset ι) (L' : Fin N → Finset ι')
    (src dstc : ι → Fin N) (src' dstc' : ι' → Fin N) (w : ι → EReal) (w' : ι' → EReal)
    (hL : ∀ n e, emb e ∈ L' n ↔ e ∈ L n)
    (hsrc : ∀ e, src' (emb e) = src e) (hdst : ∀ e, dstc' (emb e) = dstc e) (hw : ∀ e, w' (emb e) = w e)
    (hpad : ∀ e', (∀ e, emb e ≠ e') → w' e' = 0)
    (φ : EReal → EReal) (hφ : ∀ d, IsFin d → IsFin (φ d))
    (x : Fin N → EReal) (W1 b1 W2 : Fin 16 → EReal) (b2 : EReal)
    (hwf : ∀ e, IsFin (w e)) (hx : ∀ n, IsFin (x n)) (hW1 : ∀ f, IsFin (W1 f)) (hb1 : ∀ f, IsFin (b1 f))
    (hW2 : ∀ f, IsFin (W2 f)) (hb2 : IsFin b2) (n : Fin N) :
    kout L' src' dstc' w' φ x W1 b1 W2 b2 n = rout L src dstc w φ x W1 b1 W2 b2 n := by
  classical
  -- the degrees agree: the extra edges have weight zero
  have hdeg : ∀ m, deg L' w' m = deg L w m := by
    intro m
    unfold deg
    rw [sum_pad emb hemb (L m) (L' m) (hL m) w' hpad]
    exact Finset.sum_congr rfl fun e _ => hw e
  -- the coefficient of an original edge is unchanged, that of an extra edge is zero
  have hnrm : ∀ e, nrm L' src' dstc' w' φ (emb e) = nrm L src dstc w φ e := by
    intro e
    unfold nrm
    rw [hsrc, hdst, hw, hdeg, hdeg]
  have hnrm0 : ∀ e', (∀ e, emb e ≠ e') → nrm L' src' dstc' w' φ e' = 0 := by
    intro e' h
    unfold nrm
    rw [hpad e' h, mul_zero, zero_mul]
  -- degrees and coefficients are real numbers
  have hdegfin : ∀ m, IsFin (deg L w m) := fun m => IsFin.sum (L m) w hwf
  have hnrmfin : ∀ e, IsFin (nrm L src dstc w φ e) := fun e =>
    ((hφ _ (hdegfin _)).mul (hwf e)).mul (hφ _ (hdegfin _))
  -- the first aggregate, over the original edges
  have hS1 : ∀ m, kS1 L' src' dstc' w' φ x m = ∑ e ∈ L m, nrm L src dstc w φ e * x (src e) := by
    intro m
    unfold kS1
    rw [sum_pad emb hemb (L m) (L' m) (hL m) (fun e' => nrm L' src' dstc' w' φ e' * x (src' e'))
      (fun e' h => by show nrm L' src' dstc' w' φ e' * x (src' e') = 0; rw [hnrm0 e' h, zero_mul])]
    exact Finset.sum_congr rfl fun e _ => by
      show nrm L' src' dstc' w' φ (emb e) * x (src' (emb e)) = _
      rw [hnrm, hsrc]
  -- the per-node scalar: weights applied after the aggregation equal weights applied before
  have hh2 : ∀ m, kh2 L' src' dstc' w' φ x W1 b1 W2 m
      = ∑ f : Fin 16, rh1 L src dstc w φ x W1 b1 m f * W2 f := by
    intro m
    unfold kh2 rh1
    refine Finset.sum_congr rfl fun f _ => ?_
    rw [hS1 m, mul_sum_fin (L m) (fun e => nrm L src dstc w φ e) (fun e => x (src e)) (W1 f) hnrmfin
      (fun e => hx _) (hW1 f), mul_comm]
  unfold kout rout
  rw [sum_pad emb hemb (L n) (L' n) (hL n)
    (fun e' => nrm L' src' dstc' w' φ e' * kh2 L' src' dstc' w' φ x W1 b1 W2 (src' e'))
    (fun e' h => by
      show nrm L' src' dstc' w' φ e' * kh2 L' src' dstc' w' φ x W1 b1 W2 (src' e') = 0
      rw [hnrm0 e' h, zero_mul])]
  congr 1
  exact Finset.sum_congr rfl fun e _ => by
    show nrm L' src' dstc' w' φ (emb e) * kh2 L' src' dstc' w' φ x W1 b1 W2 (src' (emb e)) = _
    rw [hnrm, hsrc, hh2]

end Cert.GcnTwoLayer

end
-- ==== Proof.FiniteInputs.lean ====
/-
  From the precondition "every float input is finite" to "every entry of every float input is a real number".

  The precondition is printed as six tests `all (|v| < +∞)`, one per float input, conjoined by `and` on one-bit
  words, and it states that the result is 1.  A conjunction that is 1 has both conjuncts 1; a reduction by `and` that
  is 1 met only 1s, so every entry passes its test; and an extended real `x` with `max x (-x) < ⊤` is neither `⊤`
  nor `⊥`, hence a real number.
-/
import proofs.«124087_j22385369546840_1_alg».proof.Pre_finite_inputs
import proofs.«124087_j22385369546840_1_alg».proof.Proof.LibGcnLayer
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.FiniteInputs

open Idealize.ShloMosaic
open Cert.GcnAlgebra
open Cert.Pre_finite_inputs

/-- The shape of rank zero has one index. -/
local instance : Subsingleton S_.Idx := ⟨fun a b => funext fun d => d.elim0⟩

/-- An extended real whose absolute value is below `+∞` is a real number. -/
theorem isFin_of_abs_lt_top (x : EReal) (h : max x (-x) < ⊤) : IsFin x := by
  induction x using EReal.rec with
  | bot => simp at h
  | coe r => exact ⟨r, rfl⟩
  | top => simp at h

/-- One entry's test read back: the comparison of `|x|` with the pattern of `+∞` being 1 makes `x` real. -/
theorem isFin_of_cmp (x : Ideal .f32)
    (h : FloatOps.cmpf .olt (FloatOps.hostAbsf x) (FloatOps.ofBits (F := Ideal) .f32 0x7F800000#32) = 1#1) :
    IsFin (x : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  apply isFin_of_abs_lt_top
  by_contra hn
  simp [hn] at h

/-- `all (|v| < +∞) = 1` over any shape: every entry of `v` is a real number. -/
theorem all_fin {s : Shape} {axes : List (Fin s.rank)} (v : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf v) (broadcastInDim s ![] hb (constant S_ .f32 0x7F800000#32))) init hr hu j = 1#1)
    (i : s.Idx) : IsFin (v i) := by
  have hi := Host.reduce_andi_all _ init hr hu j e i
  rw [ValueIdx.cmpf_apply, ValueIdx.broadcastInDim_scalar_apply] at hi
  exact isFin_of_cmp (v i) hi

theorem finite_of_pre [Cert.Pre_finite_inputs.Facts]
    (a0 : FVec Ideal S100000x1 .f32) (a1 : IVec S2x5000000 32) (a2 : FVec Ideal S5000000 .f32)
    (a3 : FVec Ideal S1x16 .f32) (a4 : FVec Ideal S16 .f32) (a5 : FVec Ideal S16x1 .f32) (a6 : FVec Ideal S1 .f32)
    (h : Cert.Pre_finite_inputs.fn (F := Ideal) a0 a1 a2 a3 a4 a5 a6 = fun _ => 1#1) :
    (∀ i, IsFin (a0 i)) ∧ (∀ i, IsFin (a2 i)) ∧ (∀ i, IsFin (a3 i)) ∧ (∀ i, IsFin (a4 i))
      ∧ (∀ i, IsFin (a5 i)) ∧ (∀ i, IsFin (a6 i)) := by
  have h0 := congrFun h ValueIdx.ix0
  dsimp only [Cert.Pre_finite_inputs.fn, Cert.Pre_finite_inputs.fn_part1, andi] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨all_fin a0 _ _ _ _ _ h0, all_fin a2 _ _ _ _ _ h2, all_fin a3 _ _ _ _ _ h3, all_fin a4 _ _ _ _ _ h4,
    all_fin a5 _ _ _ _ _ h5, all_fin a6 _ _ _ _ _ h6⟩

end Cert.FiniteInputs

end
-- ==== Proof.lean ====
/-
  The certificate: the kernel, its idealization and the reference run, and at the ideal instance the two idealized
  programs end with the same result.

  The programs are a two-layer graph convolution with symmetric normalisation on 100000 nodes and 5000000 weighted
  edges plus one self loop per node.  Both build the same edge coefficient `factor(source) · weight · factor(destination)`,
  the factor being the inverse square root of a positive weighted in-degree and zero otherwise.  The reference applies
  each layer's dense weights to the node features first and then gathers, scales and scatter-adds the rows.  The kernel
  uses that the first layer's input has ONE feature: it aggregates the scalar input over the edges first and applies the
  1 × 16 weights, the bias, the rectifier and the 16 × 1 weights per node afterwards; it also pads the edge list with
  11808 edges of weight zero and the node aggregate with 352 zeros, so that its three passes work on whole tiles.
  On the extended reals the two arrangements differ by moving a weight across a finite sum, which is valid because the
  precondition makes every input a real number (at an infinity distributivity fails); the padding contributes nothing
  because every padded term carries the factor zero.  The changes of float format in the kernel's node pass are the
  identity at the ideal instance.

  The pieces, each in its own module: the kernel's run with its result named and that result as a function of the
  arguments (the fold through @main's eleven segments, the three passes by their whole-array forms); that function and
  the reference's result read at an entry, each as one of the two arrangements of the layers; the padded edge list
  against the reference's; finiteness from the precondition; and the identity between the two arrangements.
-/
import proofs.«124087_j22385369546840_1_alg».proof.Defs
import proofs.«124087_j22385369546840_1_alg».proof.Proof.Gen.Kernel
import proofs.«124087_j22385369546840_1_alg».proof.Proof.Gen.Kernel.Skeleton
import proofs.«124087_j22385369546840_1_alg».proof.Proof.Gen.Kernel.Launch
import proofs.«124087_j22385369546840_1_alg».proof.Proof.Gen.Kernel.Points
import proofs.«124087_j22385369546840_1_alg».proof.Proof.Gen.Kernel.Frame
import proofs.«124087_j22385369546840_1_alg».proof.Proof.Gen.KernelIdeal
import proofs.«124087_j22385369546840_1_alg».proof.Proof.Gen.KernelIdeal.Skeleton
import proofs.«124087_j22385369546840_1_alg».proof.Proof.Gen.KernelIdeal.Launch
import proofs.«124087_j22385369546840_1_alg».proof.Proof.Gen.KernelIdeal.Points
import proofs.«124087_j22385369546840_1_alg».proof.Proof.Gen.KernelIdeal.Frame
import proofs.«124087_j22385369546840_1_alg».proof.Proof.Gen.ReferenceIdeal
import proofs.«124087_j22385369546840_1_alg».proof.Proof.Gen.Pre_finite_inputs
import proofs.«124087_j22385369546840_1_alg».proof.Proof.Gen.ReferenceIdeal.Run
import proofs.«124087_j22385369546840_1_alg».proof.Proof.Gen.ReferenceIdeal.Read
import proofs.«124087_j22385369546840_1_alg».proof.Proof.KerRun
import proofs.«124087_j22385369546840_1_alg».proof.Proof.KerFold
import proofs.«124087_j22385369546840_1_alg».proof.Proof.KerRead
import proofs.«124087_j22385369546840_1_alg».proof.Proof.RefRead
import proofs.«124087_j22385369546840_1_alg».proof.Proof.Glue
import proofs.«124087_j22385369546840_1_alg».proof.Proof.WeightsFinite
import proofs.«124087_j22385369546840_1_alg».proof.Proof.GcnTwoLayerEq
import proofs.«124087_j22385369546840_1_alg».proof.Proof.FiniteInputs
import proofs.«124087_j22385369546840_1_alg».proof.Proof.DinvFn
import Idealize.ShloMosaic.Adequacy
import Idealize.ShloMosaic.Init

noncomputable section

namespace Cert.Proof

open Idealize.ShloMosaic Idealize.ShloMosaic.TcCoe Idealize.ShloMosaic.ValueIdx Idealize.SL.Sem Cert.GcnAlgebra

/-- The kernel's result function and the reference's are one function of real-valued arguments: entry by entry the
    first is the aggregate-then-transform arrangement over the padded edge list, the second the transform-then-aggregate
    arrangement over the reference's, and the two arrangements agree. -/
theorem values_agree (x0 : FVec Ideal Cert.KernelIdeal.S100000x1 .f32) (ei : IVec Cert.KernelIdeal.S2x5000000 32)
    (ea : FVec Ideal Cert.KernelIdeal.S5000000 .f32) (w1 : FVec Ideal Cert.KernelIdeal.S1x16 .f32)
    (b1 : FVec Ideal Cert.KernelIdeal.S16 .f32) (w2 : FVec Ideal Cert.KernelIdeal.S16x1 .f32) (b2 : FVec Ideal Cert.KernelIdeal.S1 .f32)
    (hx : ∀ i, IsFin (x0 i)) (hea : ∀ i, IsFin (ea i)) (hw1 : ∀ i, IsFin (w1 i)) (hb1 : ∀ i, IsFin (b1 i))
    (hw2 : ∀ i, IsFin (w2 i)) (hb2 : ∀ i, IsFin (b2 i)) :
    Cert.KernelIdeal.Term.outK x0 ei ea w1 b1 w2 b2
      = Cert.ReferenceIdeal.Read.val_main_v103 (F := Ideal) x0 ei ea w1 b1 w2 b2 := by
  funext i
  obtain ⟨n, z, rfl⟩ : ∃ (n : Fin 100000) (z : Fin 1), i = ix2 n z := ⟨i 0, i 1, eq_ix2 i⟩
  obtain rfl : z = 0 := Subsingleton.elim _ _
  rw [Cert.KernelIdeal.TermRead.ker_apply, Cert.RefRead.ref_apply]
  exact Cert.GcnTwoLayer.kout_eq_rout Cert.Glue.emb Cert.Glue.emb_injective _ _ _ _ _ _ _ _
    (fun k e => Cert.Glue.lands_iff ei k e) (Cert.Glue.src_eq ei) (Cert.Glue.dst_eq ei) (Cert.Glue.w_eq ea) (Cert.Glue.w_pad ea)
    _ (fun _ hd => Cert.GcnTwoLayer.dinvFn_isFin hd) _ _ _ _ _
    (Cert.Glue.w_fin ea hea) (fun _ => hx _) (fun _ => hw1 _) (fun _ => hb1 _) (fun _ => hw2 _) (hb2 _) n

theorem frame_kernel : Cert.frame_Kernel := fun m ρ _ => Cert.Kernel.Gen.frame m ρ
theorem frame_kernelIdeal : Cert.frame_KernelIdeal := fun m ρ _ => Cert.KernelIdeal.Gen.frame m ρ
/-- The reference has no pallas_call: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: there is nothing to preserve. -/
theorem preserves : Cert.preserves_Kernel_KernelIdeal := trivial

/-- From memories agreeing on the arguments, which the precondition makes real-valued, the idealized kernel ends with
    its result function of them and the idealized reference with its own; the two are one function. -/
theorem algebraic : Cert.algebraic_KernelIdeal_ReferenceIdeal := by
  intro m ρ m' ρ' hpre hagree
  refine ⟨fun c => Cert.KernelIdeal.Term.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · -- the kernel: its named run, the last boundary's contents at the result buffer being the result function
    exact (θ_run Cert.KernelIdeal.defs _ _).mono
      (fun _ h c => ⟨(h c).1.trans (Cert.KernelIdeal.Fold.result_eq m ρ c), (h c).2⟩)
      (Cert.KernelIdeal.Named.run_named (F := Ideal) m ρ)
  · -- the reference: its run's term, read as its last stage of ITS arguments, which are the kernel's
    refine (θ_run Cert.ReferenceIdeal.defs _ _).mono (fun _ h c => ⟨(h c).1.trans ?_, (h c).2⟩)
      (Cert.ReferenceIdeal.Value.run (F := Ideal) m' ρ')
    obtain ⟨hx, hea, hw1, hb1, hw2, hb2⟩ := Cert.FiniteInputs.finite_of_pre _ _ _ _ _ _ _ (hpre c)
    rw [Cert.ReferenceIdeal.Read.val_main_v103_eq, (hagree c).1, (hagree c).2.1, (hagree c).2.2.1, (hagree c).2.2.2.1,
      (hagree c).2.2.2.2.1, (hagree c).2.2.2.2.2.1, (hagree c).2.2.2.2.2.2]
    exact (values_agree _ _ _ _ _ _ _ hx hea hw1 hb1 hw2 hb2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
